-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S384x128 : Shape := ⟨2, ![384, 128]⟩
abbrev S128 : Shape := ⟨1, ![128]⟩
abbrev S384x40 : Shape := ⟨2, ![384, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S384x40 : S_.BroadcastsInDim S384x40 (![] : Fin 0 → Fin S384x40.rank)
  reducesTo_S384x40_S_d0_1 : S384x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S384x40 1) : IVec S_ 1 :=
  let main_c_5 : IVec S_ 1 := constantI S_ 1 1#1
  let main_v17 : IVec S_ 1 := (fun x v => Host.reduce IntOp.andi x v reducesTo_S384x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S384x128 .f32) (main_arg4 : FVec F S128 .f32) (main_arg5 : FVec F S384x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S384x128 .f32 := Host.absf main_arg3
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x40 .f32 := Host.absf main_arg5
  let main_cst_4 : FVec F S_ .f32 := constant S_ .f32 0x7F800000#32
  let main_v15 : FVec F S384x40 .f32 := broadcastInDim S384x40 ![] bcast_S_S384x40 main_cst_4
  let main_v16 : IVec S384x40 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S384x128 : Shape := ⟨2, ![384, 128]⟩
abbrev S128 : Shape := ⟨1, ![128]⟩
abbrev S384x40 : Shape := ⟨2, ![384, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x384 : Shape := ⟨2, ![100000, 384]⟩
abbrev S1x128 : Shape := ⟨2, ![1, 128]⟩
abbrev S2000x384 : Shape := ⟨2, ![2000, 384]⟩
abbrev S2000x128 : Shape := ⟨2, ![2000, 128]⟩
abbrev S1x40 : Shape := ⟨2, ![1, 40]⟩
abbrev S2000x40 : Shape := ⟨2, ![2000, 40]⟩

abbrev nBuf : Space → Nat
  | .hbm => 105
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S384x128, .f32⟩
  | .hbm, ⟨4, _⟩ => ⟨S128, .f32⟩
  | .hbm, ⟨5, _⟩ => ⟨S384x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S100000x384, .f32⟩
  | .hbm, ⟨62, _⟩ => ⟨S1x128, .f32⟩
  | .hbm, ⟨63, _⟩ => ⟨S100000x128, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x128, .f32⟩
  | .hbm, ⟨95, _⟩ => ⟨S_, .f32⟩
  | .hbm, ⟨96, _⟩ => ⟨S100000x128, .f32⟩
  | .hbm, ⟨97, _⟩ => ⟨S1600000x1, .i32⟩
  | .hbm, ⟨98, _⟩ => ⟨S100000x128, .f32⟩
  | .hbm, ⟨99, _⟩ => ⟨S100000x1, .f32⟩
  | .hbm, ⟨100, _⟩ => ⟨S100000x128, .f32⟩
  | .hbm, ⟨101, _⟩ => ⟨S100000x128, .f32⟩
  | .hbm, ⟨102, _⟩ => ⟨S100000x384, .f32⟩
  | .hbm, ⟨103, _⟩ => ⟨S1x40, .f32⟩
  | .hbm, ⟨104, _⟩ => ⟨S1x40, .f32⟩
  | .local _ .vmem, ⟨0, _⟩ => ⟨S2000x384, .f32⟩
  | .local _ .vmem, ⟨1, _⟩ => ⟨S2000x384, .f32⟩
  | .local _ .vmem, ⟨2, _⟩ => ⟨S384x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x384, .f32⟩
  | .local _ .vmem, ⟨7, _⟩ => ⟨S2000x384, .f32⟩
  | .local _ .vmem, ⟨8, _⟩ => ⟨S384x40, .f32⟩
  | .local _ .vmem, ⟨9, _⟩ => ⟨S1x40, .f32⟩
  | .local _ .vmem, ⟨10, _⟩ => ⟨S1x40, .f32⟩
  | .local _ .vmem, ⟨11, _⟩ => ⟨S1x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v22 : BitVec 1 := Scalar.cmpi .eq arg0 c49_i32
  let v23 : BitVec 32 := Scalar.extui v22
  let c0_i32_12 : BitVec 32 := 0#32
  let v24 : BitVec 1 := Scalar.cmpi .ne v23 c0_i32_12
  v24

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  shapeCasts_S128_S1x128 : S128.ShapeCasts S1x128
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  inb_S384x40_S384x40_0_0 : ∀ a, (![0, 0] : Fin 2 → Nat) a + S384x40.size a ≤ S384x40.size a
  h_S384x40 : 0 < S384x40.numel
  broadcasts_S1x40_S2000x40 : S1x40.Broadcasts S2000x40
  reduces_S2000x40_S40 : S2000x40.Reduces [0] S40
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x384_S384x128_S2000x128_1_0_0_1_n_n_wf : DotDims.WF S2000x384 S384x128 S2000x128 [1] [0] [0] [1] [] []
  dot_S2000x384_S384x40_S2000x40_1_0_0_1_n_n_wf : DotDims.WF S2000x384 S384x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S100000x384.size a
  hwx0_0 : ∀ i : grid0.Coords, EltTy.bits .f32 = 32 ∨ (Rect.block (s := S100000x384) S2000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S100000x384.size a
  hwx1_0 : ∀ i : grid1.Coords, EltTy.bits .f32 = 32 ∨ (Rect.block (s := S100000x384) S2000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x40.size a ≤ S384x40.size a
  hwx1_1 : ∀ i : grid1.Coords, EltTy.bits .f32 = 32 ∨ (Rect.block (s := S384x40) S384x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x40.size a ≤ S1x40.size a
  hwx1_2 : ∀ i : grid1.Coords, EltTy.bits .f32 = 32 ∨ (Rect.block (s := S1x40) S1x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf
def dot_S2000x384_S384x40_S2000x40_1_0_0_1_n_n : DotDims S2000x384 S384x40 S2000x40 where
  lhsContracting := [1]
  rhsContracting := [0]
  lhsNonContracting := [0]
  rhsNonContracting := [1]
  lhsBatch := []
  rhsBatch := []
  wf := dot_S2000x384_S384x40_S2000x40_1_0_0_1_n_n_wf

abbrev win0_0 : Pipeline.Window sig grid0 :=
  Pipeline.Window.ofSpec (Memref.whole main_v41) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v76) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S384x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v77) S1x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v78) S1x40.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S384x128 : Shape := ⟨2, ![384, 128]⟩
abbrev S128 : Shape := ⟨1, ![128]⟩
abbrev S384x40 : Shape := ⟨2, ![384, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x384 : Shape := ⟨2, ![100000, 384]⟩
abbrev S1x128 : Shape := ⟨2, ![1, 128]⟩
abbrev S100000x40 : Shape := ⟨2, ![100000, 40]⟩
abbrev S1x40 : Shape := ⟨2, ![1, 40]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S384x128, .f32⟩
  | .hbm, ⟨4, _⟩ => ⟨S128, .f32⟩
  | .hbm, ⟨5, _⟩ => ⟨S384x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S100000x384, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S100000x1, .f32⟩
  | .hbm, ⟨89, _⟩ => ⟨S100000x128, .f32⟩
  | .hbm, ⟨90, _⟩ => ⟨S100000x128, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x128, .f32⟩
  | .hbm, ⟨100, _⟩ => ⟨S_, .f32⟩
  | .hbm, ⟨101, _⟩ => ⟨S100000x128, .f32⟩
  | .hbm, ⟨102, _⟩ => ⟨S1600000x1, .i32⟩
  | .hbm, ⟨103, _⟩ => ⟨S100000x128, .f32⟩
  | .hbm, ⟨104, _⟩ => ⟨S100000x1, .f32⟩
  | .hbm, ⟨105, _⟩ => ⟨S100000x128, .f32⟩
  | .hbm, ⟨106, _⟩ => ⟨S100000x128, .f32⟩
  | .hbm, ⟨107, _⟩ => ⟨S100000x384, .f32⟩
  | .hbm, ⟨108, _⟩ => ⟨S100000x40, .f32⟩
  | .hbm, ⟨109, _⟩ => ⟨S1x40, .f32⟩
  | .hbm, ⟨110, _⟩ => ⟨S100000x40, .f32⟩
  | .hbm, ⟨111, _⟩ => ⟨S100000x40, .f32⟩
  | .hbm, ⟨112, _⟩ => ⟨S_, .f32⟩
  | .hbm, ⟨113, _⟩ => ⟨S100000x40, .f32⟩
  | .hbm, ⟨114, _⟩ => ⟨S100000x40, .f32⟩
  | .hbm, ⟨115, _⟩ => ⟨S_, .f32⟩
  | .hbm, ⟨116, _⟩ => ⟨S40, .f32⟩
  | .hbm, ⟨117, _⟩ => ⟨S1x40, .f32⟩
  | .hbm, ⟨118, _⟩ => ⟨S_, .f32⟩
  | .hbm, ⟨119, _⟩ => ⟨S1x40, .f32⟩
  | .hbm, ⟨120, _⟩ => ⟨S1x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call2_cst : Ref sig .tc := ⟨.hbm, 112, rfl⟩
abbrev main_call2_v0 : Ref sig .tc := ⟨.hbm, 113, rfl⟩
abbrev main_v84 : Ref sig .tc := ⟨.hbm, 114, rfl⟩
abbrev main_cst_15 : Ref sig .tc := ⟨.hbm, 115, rfl⟩
abbrev main_v85 : Ref sig .tc := ⟨.hbm, 116, rfl⟩
abbrev main_v86 : Ref sig .tc := ⟨.hbm, 117, rfl⟩
abbrev main_cst_16 : Ref sig .tc := ⟨.hbm, 118, rfl⟩
abbrev main_v87 : Ref sig .tc := ⟨.hbm, 119, rfl⟩
abbrev main_v88 : Ref sig .tc := ⟨.hbm, 120, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  reducesTo_S100000x40_S40_d0 : S100000x40.ReducesTo [0] S40
  h_S_ : 0 < S_.numel
  bcast_S_S1x40 : S_.BroadcastsInDim S1x40 (![] : Fin 0 → Fin S1x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x384_S384x128_S100000x128_1_0_0_1_n_n_wf : DotDims.WF S100000x384 S384x128 S100000x128 [1] [0] [0] [1] [] []
  dot_S100000x384_S384x40_S100000x40_1_0_0_1_n_n_wf : DotDims.WF S100000x384 S384x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x384_S384x40_S100000x40_1_0_0_1_n_n : DotDims S100000x384 S384x40 S100000x40 where
  lhsContracting := [1]
  rhsContracting := [0]
  lhsNonContracting := [0]
  rhsNonContracting := [1]
  lhsBatch := []
  rhsBatch := []
  wf := dot_S100000x384_S384x40_S100000x40_1_0_0_1_n_n_wf

class Facts : Prop extends Facts₀ where

variable [Facts]
-- ==== Proof.BitsR0.lean ====
/-
  The first dense layer's region (pallas_call 0): one grid of 50 points, point `t` holding rows
  2000·t … 2000·t + 1999 of the concatenated features. At a point the body reads the row tile `x` (2000 × 384), the whole
  weight matrix `w` (384 × 128) and the bias row `b` (1 × 128), and stores `max (x · w + b) 0` over the whole output tile
  (2000 × 128): one control case, every access a whole block. Stated here, at the buffer contents `V` the region is entered
  with: what each window's staging buffer holds at a point, the body's triple, the pipeline's proof data and the body
  obligation. The weight and bias windows are fetched at the first point only and never written, so their buffers hold
  their (constant) blocks at every point.
-/
import proofs.«128947_j1451698946529_1_alg».proof.Proof.Gen.Kernel.Launch
import proofs.«128947_j1451698946529_1_alg».proof.Proof.Gen.Kernel.Skeleton
import proofs.«128947_j1451698946529_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the window's array as the region finds it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile window's current buffer holds its block at every point: it is fetched at every point and the body
    leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight matrix at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window's buffer holds the bias row at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each one a whole block -/

abbrev r0_0 : Rect S2000x384 := Rect.unit (s := S2000x384) ![0, 0] S2000x384.size inb_S2000x384_S2000x384_0_0
abbrev r0_1 : Rect S384x128 := Rect.unit (s := S384x128) ![0, 0] S384x128.size inb_S384x128_S384x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-- What the body leaves in the output tile's buffer, from the three input blocks: its one store, of
    `max (x · w + b) 0` (the skeleton's payload) over the whole tile. -/
def out0_3 (x0 : Vec F S2000x384 .f32) (x1 : Vec F S384x128 .f32) (x2 : Vec F S1x128 .f32) : Vec F S2000x128 .f32 :=
  View.canon [⟨r0_3, k0_pay1 (View.ld x0 r0_0) (View.ld x1 r0_1) (View.ld x2 r0_2)⟩]

/-- The one store covers the tile. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-! ## The body's triple -/

set_option maxHeartbeats 4000000 in
/-- The body on whole staging memrefs, the inputs' at contents `x0 x1 x2` and the output's at anything, runs to its
    return leaving the inputs as they were and the output tile at `out0_3 x0 x1 x2`. -/
theorem sound_kernel0 (c : Dev nD) (E : Set ℕ) (i : grid0.Coords)
    (arg1 : Memref sig .tc .vmem S2000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the output's at
    `out0_3` of the three input blocks; the invariant the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsR1Runs.lean ====
/- Pipeline 1 (the mean kernel): the body's branch conditions in closed form, where its windows are idle, and
   the body's run in each of its three control cases, with the contents it leaves stated over the payloads. -/
import proofs.«128947_j1451698946529_1_alg».proof.Proof.Gen.Kernel.Launch
import proofs.«128947_j1451698946529_1_alg».proof.Proof.Gen.Kernel.Skeleton
import proofs.«128947_j1451698946529_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the 50 grid points -/

/-- The first conditional's test (the grid coordinate is 0), with the scalar chain substituted. -/
abbrev isFirst (i : grid1.Coords) : Prop :=
  (Scalar.cmpi .ne (Scalar.extui (Scalar.cmpi .eq (BitVec.ofNat 32 (i 0).val) 0#32)) 0#32) = 1#1

/-- It holds at point 0 only. -/
theorem isFirst_iff : ∀ t : Fin cfg1.N, isFirst (grid1.coords t) ↔ t.val % 50 = 0 :=
  (by decide +kernel : ∀ t : Fin grid1.N, isFirst (grid1.coords t) ↔ t.val % 50 = 0)

/-- The second conditional's test (the grid coordinate is 49). -/
abbrev isLast (i : grid1.Coords) : Prop := k1_cond2 i = 1#1

/-- It holds at point 49 only. -/
theorem isLast_iff : ∀ t : Fin cfg1.N, isLast (grid1.coords t) ↔ t.val % 50 = 49 :=
  (by decide +kernel : ∀ t : Fin grid1.N, isLast (grid1.coords t) ↔ t.val % 50 = 49)

/-! ## Where the windows are idle -/

/-- The three input windows are never idle. -/
theorem live_in0 : ∀ t : Fin cfg1.N, cfg1.idle 0 (grid1.coords t) = false := fun _ => rfl
theorem live_in1 : ∀ t : Fin cfg1.N, cfg1.idle 1 (grid1.coords t) = false := fun _ => rfl
theorem live_in2 : ∀ t : Fin cfg1.N, cfg1.idle 2 (grid1.coords t) = false := fun _ => rfl
/-- Away from the last point the output window is idle, and its block is not written back there. -/
theorem idle_out : ∀ t : Fin cfg1.N, ¬isLast (grid1.coords t) → cfg1.idle 3 (grid1.coords t) = true := by decide +kernel
theorem noFlush_out : ∀ t : Fin cfg1.N, ¬isLast (grid1.coords t) → (cfg1.win 3).flush t = false := by decide +kernel
/-- At the last point it is live. -/
theorem live_out : ∀ t : Fin cfg1.N, isLast (grid1.coords t) → cfg1.idle 3 (grid1.coords t) = false := by decide +kernel

/-! ## The body's three runs

Every load and store of the body goes through the whole-buffer rectangle at zero offsets, so a load reads the
buffer's contents and one store leaves its payload. The accumulator (the last operand) is stored once at every
point, and once more — first — at point 0, where it is zeroed; the output block is stored only at point 49. -/

/-- The zero offsets, as the constant function. -/
theorem offs_zero : (![0, 0] : Fin 2 → Nat) = fun _ => 0 := funext fun a => by fin_cases a <;> rfl

/-- One store through the whole-shape rectangle at zero offsets, last, covers the buffer whatever came before it. -/
theorem cover_head {S : Shape} {e : EltTy} {off : Fin S.rank → Nat} (hS : off = fun _ => 0)
    (inb : ∀ a, off a + S.size a ≤ S.size a)
    (p : (Rect.unit (s := S) off S.size inb).shape.Idx → Elt F e) (L : List (View.Piece (Elt F) S e)) (y : S.Idx) :
    ∃ pc ∈ ((⟨Rect.unit (s := S) off S.size inb, p⟩ : View.Piece (Elt F) S e) :: L), y ∈ pc.1.set :=
  ⟨_, List.Mem.head _, View.mem_set_unit_zero hS inb y⟩

set_option maxHeartbeats 1000000 in
/-- AN INNER POINT (neither conditional taken): with the input buffers at `x0 x1 x2` and the accumulator at `xs`,
    the body leaves the inputs as they were and the accumulator at `k1_pay2 x0 x1 x2 xs`; the output buffer is
    not touched. -/
theorem run_mid (c : Dev nD) (E : Set ℕ) (i : grid1.Coords)
    (arg1 : Memref sig .tc .vmem S2000x384 .f32) (harg1 : arg1.IsWhole)
    (arg2 : Memref sig .tc .vmem S384x40 .f32) (harg2 : arg2.IsWhole)
    (arg3 : Memref sig .tc .vmem S1x40 .f32) (harg3 : arg3.IsWhole)
    (arg4 : Memref sig .tc .vmem S1x40 .f32) (harg4 : arg4.IsWhole)
    (arg5 : Memref sig .tc .vmem S1x40 .f32) (harg5 : arg5.IsWhole)
    (hz : ¬isFirst i) (hl : ¬isLast i)
    (x0 : Vec F S2000x384 .f32) (x1 : Vec F S384x40 .f32) (x2 : Vec F S1x40 .f32) (xs : Vec F S1x40 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg5 fullShare xs
        ∗ (iprop(owns (c : Thread nD τ) arg1 fullShare x0 ∗ owns (c : Thread nD τ) arg2 fullShare x1
        ∗ owns (c : Thread nD τ) arg3 fullShare x2
            ∗ owns (c : Thread nD τ) arg5 fullShare (k1_pay2 x0 x1 x2 xs)) -∗ K ⟨⟩))
      ⊢ wp frame (wpE (defs₀ (F := F)) Variants.none c none) E
          (cc1__dense_relu_mean_kernel i arg1 harg1 arg2 harg2 arg3 harg3 arg4 harg4 arg5 harg5) K := by
  simp only [cc1__dense_relu_mean_kernel_eq_skeleton]; unfold cc1__dense_relu_mean_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover_head offs_zero _ _ _)]
  rw [View.canon_unit_zero offs_zero]
  simp only [View.readAt_eq_ld, View.ld_unit_zero (S := S2000x384) offs_zero, View.ld_unit_zero (S := S384x40) offs_zero,
    View.ld_unit_zero (S := S1x40) offs_zero]

set_option maxHeartbeats 1000000 in
/-- THE FIRST POINT (the first conditional taken, the second not): whatever the accumulator held, the body zeroes
    it (`k1_pay1`) and then accumulates into that: it ends at `k1_pay2 x0 x1 x2 k1_pay1`. -/
theorem run_first (c : Dev nD) (E : Set ℕ) (i : grid1.Coords)
    (arg1 : Memref sig .tc .vmem S2000x384 .f32) (harg1 : arg1.IsWhole)
    (arg2 : Memref sig .tc .vmem S384x40 .f32) (harg2 : arg2.IsWhole)
    (arg3 : Memref sig .tc .vmem S1x40 .f32) (harg3 : arg3.IsWhole)
    (arg4 : Memref sig .tc .vmem S1x40 .f32) (harg4 : arg4.IsWhole)
    (arg5 : Memref sig .tc .vmem S1x40 .f32) (harg5 : arg5.IsWhole)
    (hz : isFirst i) (hl : ¬isLast i)
    (x0 : Vec F S2000x384 .f32) (x1 : Vec F S384x40 .f32) (x2 : Vec F S1x40 .f32)
    (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg5 fullShare d)
        ∗ (iprop(owns (c : Thread nD τ) arg1 fullShare x0 ∗ owns (c : Thread nD τ) arg2 fullShare x1
        ∗ owns (c : Thread nD τ) arg3 fullShare x2
            ∗ owns (c : Thread nD τ) arg5 fullShare (k1_pay2 x0 x1 x2 (k1_pay1 (F := F)))) -∗ K ⟨⟩))
      ⊢ wp frame (wpE (defs₀ (F := F)) Variants.none c none) E
          (cc1__dense_relu_mean_kernel i arg1 harg1 arg2 harg2 arg3 harg3 arg4 harg4 arg5 harg5) K := by
  simp only [cc1__dense_relu_mean_kernel_eq_skeleton]; unfold cc1__dense_relu_mean_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover_head offs_zero _ _ _)]
  rw [View.canon_cons_unit_zero (S := S1x40) offs_zero]
  sl_unfold_words
  rw [View.readCov_unit_zero (S := S1x40) _ offs_zero]
  simp only [View.readAt_eq_ld, View.ld_unit_zero (S := S2000x384) offs_zero, View.ld_unit_zero (S := S384x40) offs_zero,
    View.ld_unit_zero (S := S1x40) offs_zero]

set_option maxHeartbeats 1000000 in
/-- THE LAST POINT (the second conditional taken, the first not): the accumulator goes from `xs` to
    `k1_pay2 x0 x1 x2 xs` as at an inner point, and the output buffer, whatever it held, is left at `k1_pay3` of that. -/
theorem run_last (c : Dev nD) (E : Set ℕ) (i : grid1.Coords)
    (arg1 : Memref sig .tc .vmem S2000x384 .f32) (harg1 : arg1.IsWhole)
    (arg2 : Memref sig .tc .vmem S384x40 .f32) (harg2 : arg2.IsWhole)
    (arg3 : Memref sig .tc .vmem S1x40 .f32) (harg3 : arg3.IsWhole)
    (arg4 : Memref sig .tc .vmem S1x40 .f32) (harg4 : arg4.IsWhole)
    (arg5 : Memref sig .tc .vmem S1x40 .f32) (harg5 : arg5.IsWhole)
    (hz : ¬isFirst i) (hl : isLast i)
    (x0 : Vec F S2000x384 .f32) (x1 : Vec F S384x40 .f32) (x2 : Vec F S1x40 .f32) (xs : Vec F S1x40 .f32)
    (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d) ∗ owns (c : Thread nD τ) arg5 fullShare xs
        ∗ (iprop(owns (c : Thread nD τ) arg1 fullShare x0 ∗ owns (c : Thread nD τ) arg2 fullShare x1
        ∗ owns (c : Thread nD τ) arg3 fullShare x2
            ∗ owns (c : Thread nD τ) arg4 fullShare (k1_pay3 (k1_pay2 x0 x1 x2 xs))
            ∗ owns (c : Thread nD τ) arg5 fullShare (k1_pay2 x0 x1 x2 xs)) -∗ K ⟨⟩))
      ⊢ wp frame (wpE (defs₀ (F := F)) Variants.none c none) E
          (cc1__dense_relu_mean_kernel i arg1 harg1 arg2 harg2 arg3 harg3 arg4 harg4 arg5 harg5) K := by
  simp only [cc1__dense_relu_mean_kernel_eq_skeleton]; unfold cc1__dense_relu_mean_kernel_skel
  unfold owns
  iintro ⟨⟨%f0, %hf0, H0⟩, ⟨%f1, %hf1, H1⟩, ⟨%f2, %hf2, H2⟩, ⟨%dout, %fout, -, HO⟩, ⟨%fs, %hfs, HS⟩, Hk⟩
  subst hf0; subst hf1; subst hf2; subst hfs
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr
    swap; · iexact HO
    ipureintro
    rw [View.read_writes_eq_canon _ _ _ (cover_head offs_zero _ _ _)]
    rw [View.canon_unit_zero offs_zero]
    sl_unfold_words
    rw [View.readCov_unit_zero (S := S1x40) _ offs_zero]
    simp only [View.readAt_eq_ld, View.ld_unit_zero (S := S2000x384) offs_zero, View.ld_unit_zero (S := S384x40) offs_zero,
    View.ld_unit_zero (S := S1x40) offs_zero]
  iexists _; isplitr
  swap; · iexact HS
  ipureintro
  sl_unfold_words
  rw [View.read_writes_eq_canon _ _ _ (cover_head offs_zero _ _ _)]
  rw [View.canon_unit_zero offs_zero]
  simp only [View.readAt_eq_ld, View.ld_unit_zero (S := S2000x384) offs_zero, View.ld_unit_zero (S := S384x40) offs_zero,
    View.ld_unit_zero (S := S1x40) offs_zero]

end Cert.Kernel.Hand

end
-- ==== Proof.BitsR1.lean ====
/- Pipeline 1 (the mean kernel) at the contents `V` the region is entered with: the windows' blocks, what the
   accumulator and the output block hold point by point, the proof data, the body obligation, and the invariant's
   two ends. -/
import proofs.«128947_j1451698946529_1_alg».proof.Proof.BitsR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (the row tile
    is fetched at every point; the weights and the bias at point 0 only, and their block index never moves): for
    any proof data whose array is the entry contents and whose body leaves the block in place. -/
theorem before_in0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)
theorem before_in1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)
theorem before_in2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

/-! ## The accumulator and the output block, point by point -/

/-- The accumulator after the body at point `n`: zeroed and accumulated into at point 0, accumulated into at every
    later point — the kernel's running sum over the row tiles, in grid order. -/
def acc1 (c : Dev nD) : (n : ℕ) → n < cfg1.N → Vec F S1x40 .f32
  | 0, h => k1_pay2 (iblk1 V c 0 ⟨0, h⟩) (iblk1 V c 1 ⟨0, h⟩) (iblk1 V c 2 ⟨0, h⟩) (k1_pay1 (F := F))
  | n + 1, h => k1_pay2 (iblk1 V c 0 ⟨n + 1, h⟩) (iblk1 V c 1 ⟨n + 1, h⟩) (iblk1 V c 2 ⟨n + 1, h⟩) (acc1 c n (Nat.lt_of_succ_lt h))

/-- After the body at point `n`: (the output window's staging buffer, the accumulator). The first component is
    what the store under the last point's conditional leaves; it is consulted at the last point only (elsewhere
    the window is idle and not written back, and the buffer is handed back as found). -/
def outsAt1 (c : Dev nD) : (n : ℕ) → n < cfg1.N → Vec F S1x40 .f32 × Vec F S1x40 .f32 :=
  fun n h => (k1_pay3 (acc1 V c n h), acc1 V c n h)

theorem outsAt1_snd (c : Dev nD) (n : ℕ) (h : n < cfg1.N) : (outsAt1 V c n h).2 = acc1 V c n h := rfl
theorem outsAt1_fst (c : Dev nD) (n : ℕ) (h : n < cfg1.N) : (outsAt1 V c n h).1 = k1_pay3 (outsAt1 V c n h).2 := rfl

/-- The accumulator after point 0. -/
theorem scratch_first (c : Dev nD) (h : 0 < cfg1.N) :
    (outsAt1 V c 0 h).2 = k1_pay2 (iblk1 V c 0 ⟨0, h⟩) (iblk1 V c 1 ⟨0, h⟩) (iblk1 V c 2 ⟨0, h⟩) (k1_pay1 (F := F)) := rfl

/-- The accumulator after point `n + 1`, over what point `n` left. -/
theorem scratch_next (c : Dev nD) (n : ℕ) (h : n + 1 < cfg1.N) :
    (outsAt1 V c (n + 1) h).2 = k1_pay2 (iblk1 V c 0 ⟨n + 1, h⟩) (iblk1 V c 1 ⟨n + 1, h⟩) (iblk1 V c 2 ⟨n + 1, h⟩)
      (outsAt1 V c n (Nat.lt_of_succ_lt h)).2 := rfl

/-- The output block at the last point is the scaled accumulator. -/
theorem out_last (c : Dev nD) (h : 49 < cfg1.N) : (outsAt1 V c 49 h).1 = k1_pay3 (outsAt1 V c 49 h).2 := rfl

/-- The same two equations at a point of the grid. -/
theorem scratch_at_zero (c : Dev nD) (t : Fin cfg1.N) (hz : t.val = 0) :
    (outsAt1 V c t.val t.isLt).2 = k1_pay2 (iblk1 V c 0 t) (iblk1 V c 1 t) (iblk1 V c 2 t) (k1_pay1 (F := F)) := by
  obtain ⟨n, hn⟩ := t
  cases n with
  | zero => rfl
  | succ n => exact absurd hz (Nat.succ_ne_zero n)

theorem scratch_at_pos (c : Dev nD) (t : Fin cfg1.N) (hz : t.val ≠ 0) :
    (outsAt1 V c t.val t.isLt).2 = k1_pay2 (iblk1 V c 0 t) (iblk1 V c 1 t) (iblk1 V c 2 t)
      (outsAt1 V c (t.val - 1) (Nat.lt_of_le_of_lt (Nat.sub_le _ _) t.isLt)).2 := by
  obtain ⟨n, hn⟩ := t
  cases n with
  | zero => exact absurd rfl hz
  | succ n => rfl

/-! ## The memrefs the body is called with -/

/-- Each window's current staging memref at point `t`, and its wholeness. -/
abbrev ms0 (t : Fin cfg1.N) : Memref sig .tc .vmem S2000x384 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S384x40 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x40 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x40 .f32 := win1_3.stage (cfg1.slots t 3)
abbrev hs3 (t : Fin cfg1.N) : (ms3 t).IsWhole := hstage1_3 ((cfg1.slots t 3).cast nbuf1_3)
/-- The accumulator: a whole scoped buffer of the kernel's own, passed beside the windows. -/
abbrev scr : Memref sig .tc .vmem S1x40 .f32 := Memref.whole cc1_scratch0

/-! ## The region invariant -/

/-- A scoped buffer of the core at some contents. -/
abbrev anyAt (c : Dev nD) (b : Ref sig .tc) : sProp 𝕄 :=
  iprop(∃ f : Buf (Elt F) ((c : Thread nD τ).loc b), ((c : Thread nD τ).loc b) ↦{fullShare} f)

/-- The core's scoped buffers that are neither a staging buffer of this pipeline nor its accumulator (the other
    pipeline's staging buffers), each at some contents: the body never names them. -/
def others (c : Dev nD) : sProp 𝕄 :=
  iprop(anyAt (F := F) c cc0_stg0_0 ∗ anyAt (F := F) c cc0_stg0_1 ∗ anyAt (F := F) c cc0_stg1_0 ∗ anyAt (F := F) c cc0_stg2_0
    ∗ anyAt (F := F) c cc0_stg3_0 ∗ anyAt (F := F) c cc0_stg3_1)

/-- Seven conjuncts beside an eighth, the seventh pulled out of the first six. -/
theorem regroup7 (A B C D E G S R : sProp 𝕄) :
    (iprop((A ∗ B ∗ C ∗ D ∗ E ∗ G ∗ S) ∗ R) : sProp 𝕄) = iprop(((A ∗ B ∗ C ∗ D ∗ E ∗ G) ∗ S) ∗ R) := by
  have h₁ : (iprop((A ∗ B ∗ C ∗ D ∗ E ∗ G ∗ S) ∗ R) : sProp 𝕄) ⊢ iprop(((A ∗ B ∗ C ∗ D ∗ E ∗ G) ∗ S) ∗ R) := by
    iintro ⟨⟨Ha, Hb, Hc, Hd, He, Hg, HS⟩, Hr⟩
    isplitr [Hr]; swap; · iexact Hr
    isplitr [HS]; swap; · iexact HS
    isplitl [Ha]; · iexact Ha
    isplitl [Hb]; · iexact Hb
    isplitl [Hc]; · iexact Hc
    isplitl [Hd]; · iexact Hd
    isplitl [He]; · iexact He
    iexact Hg
  have h₂ : (iprop(((A ∗ B ∗ C ∗ D ∗ E ∗ G) ∗ S) ∗ R) : sProp 𝕄) ⊢ iprop((A ∗ B ∗ C ∗ D ∗ E ∗ G ∗ S) ∗ R) := by
    iintro ⟨⟨⟨Ha, Hb, Hc, Hd, He, Hg⟩, HS⟩, Hr⟩
    isplitr [Hr]; swap; · iexact Hr
    isplitl [Ha]; · iexact Ha
    isplitl [Hb]; · iexact Hb
    isplitl [Hc]; · iexact Hc
    isplitl [Hd]; · iexact Hd
    isplitl [He]; · iexact He
    isplitl [Hg]; · iexact Hg
    iexact HS
  exact BI.equiv_iff.mp ⟨h₁, h₂⟩

/-- What the launch hands the region, with the accumulator as a memref owned at some contents. -/
theorem PhiA1_eq (c : Dev nD) :
    (Pipeline.ΦA spec1 c : sProp 𝕄)
      = iprop(iprop(others (F := F) c ∗ (∃ d, owns (c : Thread nD τ) scr fullShare d)) ∗ (∃ r, prngReg c r)) := by
  unfold Pipeline.ΦA; rw [scopedRest1_eq]; simp only [scr, owns_whole]
  unfold others
  exact regroup7 _ _ _ _ _ _ _ _

/-- The invariant before position `n`: before the first point what the launch hands over (the accumulator at
    anything); afterwards the same with the accumulator at what the point before left in it. -/
def inv1 (c : Dev nD) : (n : ℕ) → n ≤ cfg1.N → sProp 𝕄
  | 0, _ => Pipeline.ΦA spec1 c
  | n + 1, hn => iprop(iprop(others (F := F) c ∗ owns (c : Thread nD τ) scr fullShare ((outsAt1 V c n hn).2)) ∗ (∃ r, prngReg c r))

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop(iprop(others (F := F) c ∗ owns (c : Thread nD τ) scr fullShare ((outsAt1 V c n hn).2)) ∗ (∃ r, prngReg c r)) := rfl

theorem inv1_pos (c : Dev nD) (n : ℕ) (h : n ≤ cfg1.N) (hz : n ≠ 0) :
    inv1 V c n h = iprop(iprop(others (F := F) c ∗ owns (c : Thread nD τ) scr fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them; after the body at point `t`
    each input's buffer at its block and the output's at `outsAt1`'s first component; the invariant `inv1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem owed1 (c : Dev nD) (t : Fin (cfg1.N + 1)) : (dat1 V c).owed t = 0 := rfl

theorem inv1_castSucc (c : Dev nD) (t : Fin cfg1.N) :
    (dat1 V c).Φ t.castSucc = inv1 V c t.val (Nat.le_of_lt t.isLt) := by
  dsimp only [dat1]; simp only [Fin.coe_castSucc]

theorem before1_0 (c : Dev nD) (t : Fin cfg1.N) (d) : (dat1 V c).before 0 t d = iblk1 V c 0 t :=
  before_in0_of V (dat1 V c) (A_eq1 V c 0) (after1_0 V c) t d
theorem before1_1 (c : Dev nD) (t : Fin cfg1.N) (d) : (dat1 V c).before 1 t d = iblk1 V c 1 t :=
  before_in1_of V (dat1 V c) (A_eq1 V c 1) (after1_1 V c) t d
theorem before1_2 (c : Dev nD) (t : Fin cfg1.N) (d) : (dat1 V c).before 2 t d = iblk1 V c 2 t :=
  before_in2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point. The inputs' memrefs hold their blocks; the closed forms of the two conditions say which
    of the three cases the point is in; the invariant hands the body the accumulator (at anything at point 0, at
    what the point before left afterwards) and takes it back at this point's contents; away from the last point
    the output's buffer passes through untouched, at the last point it is left at the scaled accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (ms0 t) fullShare ((dat1 V c).after 0 t) from by
        unfold Dat.leavesExact; rw [live_in0 t], after1_0]
  rw [show (dat1 V c).leavesExact 1 t = owns (c : Thread nD τ) (ms1 t) fullShare ((dat1 V c).after 1 t) from by
        unfold Dat.leavesExact; rw [live_in1 t], after1_1]
  rw [show (dat1 V c).leavesExact 2 t = owns (c : Thread nD τ) (ms2 t) fullShare ((dat1 V c).after 2 t) from by
        unfold Dat.leavesExact; rw [live_in2 t], after1_2]
  have hN : t.val < 50 := lt_of_lt_of_eq t.isLt (show cfg1.N = 50 from N_1)
  by_cases h0 : t.val % 50 = 0
  · -- point 0
    have hz : isFirst (grid1.coords t) := (isFirst_iff t).mpr h0
    have hl : ¬isLast (grid1.coords t) := fun h => by have := (isLast_iff t).mp h; omega
    have hv : t.val = 0 := by omega
    rw [Dat.leavesExact_idle (dat1 V c) 3 t (idle_out t hl) (noFlush_out t hl)]
    rw [inv1_castSucc V c t, inv1_zero V c _ _ hv, PhiA1_eq, scratch_at_zero V c t hv]
    iintro ⟨⟨⟨Hoth, HS⟩, Hg⟩, Ho, ⟨%d0, H0⟩, ⟨%d1, H1⟩, ⟨%d2, H2⟩, ⟨%d3, H3⟩⟩
    iapply (run_first c Set.univ (grid1.coords t) (ms0 t) (hs0 t) (ms1 t) (hs1 t) (ms2 t) (hs2 t) (ms3 t) (hs3 t) scr (Memref.isWhole_whole _) hz hl (iblk1 V c 0 t) (iblk1 V c 1 t) (iblk1 V c 2 t) _)
    isplitl [H0]; · iexact H0
    isplitl [H1]; · iexact H1
    isplitl [H2]; · iexact H2
    isplitl [HS]; · iexact HS
    iintro ⟨H0, H1, H2, HS⟩
    isplitl [Hoth HS Hg]
    · isplitr [Hg]; swap; · iexact Hg
      isplitl [Hoth]; · iexact Hoth
      iexact HS
    isplitl [Ho]; · iexact Ho
    isplitl [H0]; · iexact H0
    isplitl [H1]; · iexact H1
    isplitl [H2]; · iexact H2
    iexists _; iexact H3
  · by_cases h49 : t.val % 50 = 49
    · -- point 49
      have hz : ¬isFirst (grid1.coords t) := fun h => h0 ((isFirst_iff t).mp h)
      have hl : isLast (grid1.coords t) := (isLast_iff t).mpr h49
      have hv : t.val ≠ 0 := by omega
      rw [show (dat1 V c).leavesExact 3 t = owns (c : Thread nD τ) (ms3 t) fullShare ((dat1 V c).after 3 t) from by
        unfold Dat.leavesExact; rw [live_out t hl], after1_3, outsAt1_fst]
      rw [inv1_castSucc V c t, inv1_pos V c _ _ hv, scratch_at_pos V c t hv]
      iintro ⟨⟨⟨Hoth, HS⟩, Hg⟩, Ho, ⟨%d0, H0⟩, ⟨%d1, H1⟩, ⟨%d2, H2⟩, ⟨%d3, H3⟩⟩
      iapply (run_last c Set.univ (grid1.coords t) (ms0 t) (hs0 t) (ms1 t) (hs1 t) (ms2 t) (hs2 t) (ms3 t) (hs3 t) scr (Memref.isWhole_whole _) hz hl (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hoth HS Hg]
      · isplitr [Hg]; swap; · iexact Hg
        isplitl [Hoth]; · iexact Hoth
        iexact HS
      isplitl [Ho]; · iexact Ho
      isplitl [H0]; · iexact H0
      isplitl [H1]; · iexact H1
      isplitl [H2]; · iexact H2
      iexact H3
    · -- an inner point
      have hz : ¬isFirst (grid1.coords t) := fun h => h0 ((isFirst_iff t).mp h)
      have hl : ¬isLast (grid1.coords t) := fun h => h49 ((isLast_iff t).mp h)
      have hv : t.val ≠ 0 := by omega
      rw [Dat.leavesExact_idle (dat1 V c) 3 t (idle_out t hl) (noFlush_out t hl)]
      rw [inv1_castSucc V c t, inv1_pos V c _ _ hv, scratch_at_pos V c t hv]
      iintro ⟨⟨⟨Hoth, HS⟩, Hg⟩, Ho, ⟨%d0, H0⟩, ⟨%d1, H1⟩, ⟨%d2, H2⟩, ⟨%d3, H3⟩⟩
      iapply (run_mid c Set.univ (grid1.coords t) (ms0 t) (hs0 t) (ms1 t) (hs1 t) (ms2 t) (hs2 t) (ms3 t) (hs3 t) scr (Memref.isWhole_whole _) hz hl (iblk1 V c 0 t) (iblk1 V c 1 t) (iblk1 V c 2 t) _ _)
      isplitl [H0]; · iexact H0
      isplitl [H1]; · iexact H1
      isplitl [H2]; · iexact H2
      isplitl [HS]; · iexact HS
      iintro ⟨H0, H1, H2, HS⟩
      isplitl [Hoth HS Hg]
      · isplitr [Hg]; swap; · iexact Hg
        isplitl [Hoth]; · iexact Hoth
        iexact HS
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

/-- After any point but the first the invariant gives it back: the accumulator's named contents are forgotten. -/
theorem inv_out1 (c : Dev nD) (t : Fin (cfg1.N + 1)) (ht : t.val ≠ 0) : (dat1 V c).Φ t ⊢ Pipeline.ΦA spec1 c := by
  rw [show (dat1 V c).Φ t = inv1 V c t.val (Nat.le_of_lt_succ t.isLt) from rfl, inv1_pos V c _ _ ht, PhiA1_eq]
  iintro ⟨⟨Hoth, HS⟩, Hg⟩
  isplitr [Hg]; swap; · iexact Hg
  isplitl [Hoth]; · iexact Hoth
  iexists _; iexact HS

/-- The same after the last point. -/
theorem hout1 (c : Dev nD) : (dat1 V c).Φ (Fin.last cfg1.N) ⊢ Pipeline.ΦA spec1 c :=
  inv_out1 V c _ (by rw [Fin.val_last]; have : cfg1.N = 50 := N_1; omega)

/-- The shares are full: what the region's run takes. -/
theorem share1 (c : Dev nD) (w : Fin cfg1.W) : (dat1 V c).share w = fullShare := (dat1 V c).share_full (fun _ => rfl) w

end Cert.Kernel.Hand

end
-- ==== Proof.BitsRun.lean ====
/-
  The whole program's run: @main is three stretches of host operations, the first dense layer's region, a fourth stretch,
  and the second layer's region. Between two of these items a core holds every unscoped buffer whole at a valuation:
  the launch contents, then each stretch's operations applied, and after a region its output array at what the pipeline's
  write-backs leave (the other buffers as they were). Stated here: the two regions as segments over that thread state,
  and the run — every weakly fair execution terminates, nothing faults, and in the final memory every unscoped buffer
  holds the last valuation. The frame (the seven arguments end as launched) and the result's contents are read off it.
-/
import proofs.«128947_j1451698946529_1_alg».proof.Proof.Gen.Kernel.Regions
import proofs.«128947_j1451698946529_1_alg».proof.Proof.BitsR0
import proofs.«128947_j1451698946529_1_alg».proof.Proof.BitsR1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The buffer contents the first region is entered with, read at the TensorCore's references. -/
abbrev VR3 : (c : Dev nD) → (b : Ref sig .tc) → Buf (Elt F) ((c : Thread nD τ).loc b) := fun c b => V3 m c b

/-- The first layer's result array after its region: the write-backs of the 50 output tiles folded. -/
def res43 (c : Dev nD) : Buf (Elt F) ((c : Thread nD τ).loc main_v43) := (dat0 (VR3 m) c).arrAt 3 cfg0.N

/-- The regions' results up to the first: only the first layer's result array is named. -/
def outsA : Outs (F := F) := fun _ r c =>
  if h : r = main_v43 then h.symm ▸ res43 m c else Classical.arbitrary _

/-- The buffer contents the second region is entered with, read at the TensorCore's references. -/
abbrev VR5 : (c : Dev nD) → (b : Ref sig .tc) → Buf (Elt F) ((c : Thread nD τ).loc b) := fun c b => V5 m (outsA m) c b

/-- The program's result array after the second region: its one write-back, at the last grid point. -/
def res78 (c : Dev nD) : Buf (Elt F) ((c : Thread nD τ).loc main_v78) := (dat1 (VR5 m) c).arrAt 3 cfg1.N

/-- What the two regions leave in the arrays they write. -/
def outs : Outs (F := F) := fun _ r c =>
  if h : r = main_v43 then h.symm ▸ res43 m c
  else if h' : r = main_v78 then h'.symm ▸ res78 m c else Classical.arbitrary _

theorem outs_43 (J : ℕ) (c : Dev nD) : outs m J main_v43 c = res43 m c := by
  unfold outs; rw [dif_pos rfl]
theorem outsA_43 (J : ℕ) (c : Dev nD) : outsA m J main_v43 c = res43 m c := by
  unfold outsA; rw [dif_pos rfl]
theorem outs_78 (J : ℕ) (c : Dev nD) : outs m J main_v78 c = res78 m c := by
  unfold outs; rw [dif_neg (by decide), dif_pos rfl]

/-- Both families name the same first-region result, so the second region is entered with the same contents. -/
theorem V4_outs (c : Dev nD) : V4 m (outs m) c = V4 m (outsA m) c := by
  unfold V4; rw [outs_43, outsA_43]
theorem V5_outs (c : Dev nD) : V5 m (outs m) c = V5 m (outsA m) c := by
  unfold V5; rw [V4_outs]

/-! ## The proof data family and the thread state -/

/-- Each pipeline's proof data, at its region's entry contents. -/
def pdats : (p : Fin 2) → (c : Dev nD) → Dat τ (Elt F) Unit ℕ (UR sig nD τ) ℕ (cfgs p) c
  | ⟨0, _⟩ => fun c => dat0 (VR3 m) c
  | ⟨1, _⟩ => fun c => dat1 (VR5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- The contents the first region leaves, read at the TensorCore's references. -/
abbrev VR4 : (c : Dev nD) → (b : Ref sig .tc) → Buf (Elt F) ((c : Thread nD τ).loc b) := fun c b => V4 m (outs m) c b
/-- The contents the second region leaves, read at the TensorCore's references. -/
abbrev VR6 : (c : Dev nD) → (b : Ref sig .tc) → Buf (Elt F) ((c : Thread nD τ).loc b) := fun c b => V6 m (outs m) c b

/-- After the first region each of its arrays holds what the pipeline leaves: the three inputs as entered, the result
    array at its folded write-backs. -/
theorem hF0 (c : Dev nD) (w : Fin cfg0.W) : (dat0 (VR3 m) c).arrAt w cfg0.N = VR4 m c (Pipeline.arrRef spec0 w) := by
  fin_cases w
  · exact ((dat0 (VR3 m) c).arrAt_in 0 rfl _).trans ((A_eq0 (VR3 m) c 0).trans (V4_of m (outs m) c main_v41 (by decide)).symm)
  · exact ((dat0 (VR3 m) c).arrAt_in 1 rfl _).trans ((A_eq0 (VR3 m) c 1).trans (V4_of m (outs m) c main_arg3 (by decide)).symm)
  · exact ((dat0 (VR3 m) c).arrAt_in 2 rfl _).trans ((A_eq0 (VR3 m) c 2).trans (V4_of m (outs m) c main_v42 (by decide)).symm)
  · show res43 m c = V4 m (outs m) c main_v43
    unfold V4; rw [Function.update_self, outs_43]

/-- Every other buffer is as the region found it. -/
theorem hrest0 (c : Dev nD) : ∀ b, b ∉ Finset.univ.image (Pipeline.arrRef spec0) → VR4 m c b = VR3 m c b :=
  fun b hb => V4_of m (outs m) c b (fun h => hb (Finset.mem_image.mpr ⟨3, Finset.mem_univ _, (List.mem_singleton.mp h).symm⟩))

/-- After the second region: its three inputs as entered, the program's result at its one write-back. -/
theorem hF1 (c : Dev nD) (w : Fin cfg1.W) : (dat1 (VR5 m) c).arrAt w cfg1.N = VR6 m c (Pipeline.arrRef spec1 w) := by
  fin_cases w
  · exact ((dat1 (VR5 m) c).arrAt_in 0 rfl _).trans ((A_eq1 (VR5 m) c 0).trans (((V6_of m (outs m) c main_v76 (by decide)).trans (congrFun (V5_outs m c) _)).symm))
  · exact ((dat1 (VR5 m) c).arrAt_in 1 rfl _).trans ((A_eq1 (VR5 m) c 1).trans (((V6_of m (outs m) c main_arg5 (by decide)).trans (congrFun (V5_outs m c) _)).symm))
  · exact ((dat1 (VR5 m) c).arrAt_in 2 rfl _).trans ((A_eq1 (VR5 m) c 2).trans (((V6_of m (outs m) c main_v77 (by decide)).trans (congrFun (V5_outs m c) _)).symm))
  · show res78 m c = V6 m (outs m) c main_v78
    unfold V6; rw [Function.update_self, outs_78]

theorem hrest1 (c : Dev nD) : ∀ b, b ∉ Finset.univ.image (Pipeline.arrRef spec1) → VR6 m c b = VR5 m c b :=
  fun b hb => (V6_of m (outs m) c b (fun h => hb (Finset.mem_image.mpr ⟨3, Finset.mem_univ _, (List.mem_singleton.mp h).symm⟩))).trans
    (congrFun (V5_outs m c) _)

/-! ## The regions as segments -/

set_option backward.isDefEq.respectTransparency.types false in
/-- The first layer's region over the thread state: entered from every unscoped buffer at the contents after the third
    host stretch, left with the result array at its folded write-backs. Its four arrays are split out of the unscoped
    buffers and put back; the generator register passes through the region's invariant; nothing is owed; the kernel has
    no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VR3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR3 m c) (VR4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region over the thread state: entered from every unscoped buffer at the contents after the fourth
    host stretch, left with the program's result at its one write-back. The region's invariant starts and ends as the
    scoped rest beside the generator register; in between it carries the accumulator. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR5 m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR5 m c)
  hentry c := by
    rw [Pipeline.ownSems0_none, V5_outs]
    have hsplit := Pipeline.arrays_of_unscopedBufs (p := 1) (pcfgs (F := F)) adm (pdats m) launch1.win launch1.arr_whole c
      ((pdats m 1 c).share_full fun _ => rfl) (VR5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (VR5 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR5 m c) (VR6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and in
    the final memory every unscoped buffer holds the last valuation: the launch contents with every host stretch applied
    and each region's result array at what its pipeline leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V6 m (outs m) c) ∗ ∃ r, prngReg c r))
    (hch := fun c => ⟨.rfl, .rfl, .rfl, .rfl, .rfl, .rfl,
      show iprop(StableHlo.held (c : Thread nD τ) (Pipeline.ucRefs τ sig) (V6 m (outs m) c) ∗ R c)
          ⊢ (iprop(iprop(StableHlo.held (c : Thread nD τ) (Pipeline.ucRefs τ sig) (V6 m (outs m) c) ∗ ∃ r, prngReg c r)
              ∗ ∃ W, owes (c : Thread nD τ) (0 : CellTallies nD τ sig Unit) W) : sProp 𝕄) from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V6 m (outs m) c) s')
      isplitl [Hh] <;> iassumption)
    (hQ := fun s h c => h c)

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c)⟩) (run_all m ρ)

/-- The run with the result named: the program's result array ends at the second region's write-back, the arguments as
    launched. -/
theorem run_result : θ_run defs (onTc (τ := τ) (main (F := F))) ⟨m, fun _ => 0, ρ⟩ (fun r => ∀ c : Dev nD,
      r.2.mem ((c.tc : Thread nD τ).loc main_v78) = res78 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v78 (by decide))).trans (by
        show V6 m (outs m) c main_v78 = res78 m c
        unfold V6; rw [Function.update_self, outs_78]),
     (h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c)⟩) (run_all m ρ)

end Cert.Kernel.Hand

end
-- ==== Proof.IdealR0.lean ====
/-
  The first dense layer's region (pallas_call 0): one grid of 50 points, point `t` holding rows
  2000·t … 2000·t + 1999 of the concatenated features. At a point the body reads the row tile `x` (2000 × 384), the whole
  weight matrix `w` (384 × 128) and the bias row `b` (1 × 128), and stores `max (x · w + b) 0` over the whole output tile
  (2000 × 128): one control case, every access a whole block. Stated here, at the buffer contents `V` the region is entered
  with: what each window's staging buffer holds at a point, the body's triple, the pipeline's proof data and the body
  obligation. The weight and bias windows are fetched at the first point only and never written, so their buffers hold
  their (constant) blocks at every point.
-/
import proofs.«128947_j1451698946529_1_alg».proof.Proof.Gen.KernelIdeal.Launch
import proofs.«128947_j1451698946529_1_alg».proof.Proof.Gen.KernelIdeal.Skeleton
import proofs.«128947_j1451698946529_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the window's array as the region finds it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile window's current buffer holds its block at every point: it is fetched at every point and the body
    leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight matrix at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window's buffer holds the bias row at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each one a whole block -/

abbrev r0_0 : Rect S2000x384 := Rect.unit (s := S2000x384) ![0, 0] S2000x384.size inb_S2000x384_S2000x384_0_0
abbrev r0_1 : Rect S384x128 := Rect.unit (s := S384x128) ![0, 0] S384x128.size inb_S384x128_S384x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-- What the body leaves in the output tile's buffer, from the three input blocks: its one store, of
    `max (x · w + b) 0` (the skeleton's payload) over the whole tile. -/
def out0_3 (x0 : Vec F S2000x384 .f32) (x1 : Vec F S384x128 .f32) (x2 : Vec F S1x128 .f32) : Vec F S2000x128 .f32 :=
  View.canon [⟨r0_3, k0_pay1 (View.ld x0 r0_0) (View.ld x1 r0_1) (View.ld x2 r0_2)⟩]

/-- The one store covers the tile. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-! ## The body's triple -/

set_option maxHeartbeats 4000000 in
/-- The body on whole staging memrefs, the inputs' at contents `x0 x1 x2` and the output's at anything, runs to its
    return leaving the inputs as they were and the output tile at `out0_3 x0 x1 x2`. -/
theorem sound_kernel0 (c : Dev nD) (E : Set ℕ) (i : grid0.Coords)
    (arg1 : Memref sig .tc .vmem S2000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the output's at
    `out0_3` of the three input blocks; the invariant the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealR1Runs.lean ====
/- Pipeline 1 (the mean kernel): the body's branch conditions in closed form, where its windows are idle, and
   the body's run in each of its three control cases, with the contents it leaves stated over the payloads. -/
import proofs.«128947_j1451698946529_1_alg».proof.Proof.Gen.KernelIdeal.Launch
import proofs.«128947_j1451698946529_1_alg».proof.Proof.Gen.KernelIdeal.Skeleton
import proofs.«128947_j1451698946529_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two branch conditions of the body, in closed form over the 50 grid points -/

/-- The first conditional's test (the grid coordinate is 0), with the scalar chain substituted. -/
abbrev isFirst (i : grid1.Coords) : Prop :=
  (Scalar.cmpi .ne (Scalar.extui (Scalar.cmpi .eq (BitVec.ofNat 32 (i 0).val) 0#32)) 0#32) = 1#1

/-- It holds at point 0 only. -/
theorem isFirst_iff : ∀ t : Fin cfg1.N, isFirst (grid1.coords t) ↔ t.val % 50 = 0 :=
  (by decide +kernel : ∀ t : Fin grid1.N, isFirst (grid1.coords t) ↔ t.val % 50 = 0)

/-- The second conditional's test (the grid coordinate is 49). -/
abbrev isLast (i : grid1.Coords) : Prop := k1_cond2 i = 1#1

/-- It holds at point 49 only. -/
theorem isLast_iff : ∀ t : Fin cfg1.N, isLast (grid1.coords t) ↔ t.val % 50 = 49 :=
  (by decide +kernel : ∀ t : Fin grid1.N, isLast (grid1.coords t) ↔ t.val % 50 = 49)

/-! ## Where the windows are idle -/

/-- The three input windows are never idle. -/
theorem live_in0 : ∀ t : Fin cfg1.N, cfg1.idle 0 (grid1.coords t) = false := fun _ => rfl
theorem live_in1 : ∀ t : Fin cfg1.N, cfg1.idle 1 (grid1.coords t) = false := fun _ => rfl
theorem live_in2 : ∀ t : Fin cfg1.N, cfg1.idle 2 (grid1.coords t) = false := fun _ => rfl
/-- Away from the last point the output window is idle, and its block is not written back there. -/
theorem idle_out : ∀ t : Fin cfg1.N, ¬isLast (grid1.coords t) → cfg1.idle 3 (grid1.coords t) = true := by decide +kernel
theorem noFlush_out : ∀ t : Fin cfg1.N, ¬isLast (grid1.coords t) → (cfg1.win 3).flush t = false := by decide +kernel
/-- At the last point it is live. -/
theorem live_out : ∀ t : Fin cfg1.N, isLast (grid1.coords t) → cfg1.idle 3 (grid1.coords t) = false := by decide +kernel

/-! ## The body's three runs

Every load and store of the body goes through the whole-buffer rectangle at zero offsets, so a load reads the
buffer's contents and one store leaves its payload. The accumulator (the last operand) is stored once at every
point, and once more — first — at point 0, where it is zeroed; the output block is stored only at point 49. -/

/-- The zero offsets, as the constant function. -/
theorem offs_zero : (![0, 0] : Fin 2 → Nat) = fun _ => 0 := funext fun a => by fin_cases a <;> rfl

/-- One store through the whole-shape rectangle at zero offsets, last, covers the buffer whatever came before it. -/
theorem cover_head {S : Shape} {e : EltTy} {off : Fin S.rank → Nat} (hS : off = fun _ => 0)
    (inb : ∀ a, off a + S.size a ≤ S.size a)
    (p : (Rect.unit (s := S) off S.size inb).shape.Idx → Elt F e) (L : List (View.Piece (Elt F) S e)) (y : S.Idx) :
    ∃ pc ∈ ((⟨Rect.unit (s := S) off S.size inb, p⟩ : View.Piece (Elt F) S e) :: L), y ∈ pc.1.set :=
  ⟨_, List.Mem.head _, View.mem_set_unit_zero hS inb y⟩

set_option maxHeartbeats 1000000 in
/-- AN INNER POINT (neither conditional taken): with the input buffers at `x0 x1 x2` and the accumulator at `xs`,
    the body leaves the inputs as they were and the accumulator at `k1_pay2 x0 x1 x2 xs`; the output buffer is
    not touched. -/
theorem run_mid (c : Dev nD) (E : Set ℕ) (i : grid1.Coords)
    (arg1 : Memref sig .tc .vmem S2000x384 .f32) (harg1 : arg1.IsWhole)
    (arg2 : Memref sig .tc .vmem S384x40 .f32) (harg2 : arg2.IsWhole)
    (arg3 : Memref sig .tc .vmem S1x40 .f32) (harg3 : arg3.IsWhole)
    (arg4 : Memref sig .tc .vmem S1x40 .f32) (harg4 : arg4.IsWhole)
    (arg5 : Memref sig .tc .vmem S1x40 .f32) (harg5 : arg5.IsWhole)
    (hz : ¬isFirst i) (hl : ¬isLast i)
    (x0 : Vec F S2000x384 .f32) (x1 : Vec F S384x40 .f32) (x2 : Vec F S1x40 .f32) (xs : Vec F S1x40 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg5 fullShare xs
        ∗ (iprop(owns (c : Thread nD τ) arg1 fullShare x0 ∗ owns (c : Thread nD τ) arg2 fullShare x1
        ∗ owns (c : Thread nD τ) arg3 fullShare x2
            ∗ owns (c : Thread nD τ) arg5 fullShare (k1_pay2 x0 x1 x2 xs)) -∗ K ⟨⟩))
      ⊢ wp frame (wpE (defs₀ (F := F)) Variants.none c none) E
          (cc1__dense_relu_mean_kernel i arg1 harg1 arg2 harg2 arg3 harg3 arg4 harg4 arg5 harg5) K := by
  simp only [cc1__dense_relu_mean_kernel_eq_skeleton]; unfold cc1__dense_relu_mean_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover_head offs_zero _ _ _)]
  rw [View.canon_unit_zero offs_zero]
  simp only [View.readAt_eq_ld, View.ld_unit_zero (S := S2000x384) offs_zero, View.ld_unit_zero (S := S384x40) offs_zero,
    View.ld_unit_zero (S := S1x40) offs_zero]

set_option maxHeartbeats 1000000 in
/-- THE FIRST POINT (the first conditional taken, the second not): whatever the accumulator held, the body zeroes
    it (`k1_pay1`) and then accumulates into that: it ends at `k1_pay2 x0 x1 x2 k1_pay1`. -/
theorem run_first (c : Dev nD) (E : Set ℕ) (i : grid1.Coords)
    (arg1 : Memref sig .tc .vmem S2000x384 .f32) (harg1 : arg1.IsWhole)
    (arg2 : Memref sig .tc .vmem S384x40 .f32) (harg2 : arg2.IsWhole)
    (arg3 : Memref sig .tc .vmem S1x40 .f32) (harg3 : arg3.IsWhole)
    (arg4 : Memref sig .tc .vmem S1x40 .f32) (harg4 : arg4.IsWhole)
    (arg5 : Memref sig .tc .vmem S1x40 .f32) (harg5 : arg5.IsWhole)
    (hz : isFirst i) (hl : ¬isLast i)
    (x0 : Vec F S2000x384 .f32) (x1 : Vec F S384x40 .f32) (x2 : Vec F S1x40 .f32)
    (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg5 fullShare d)
        ∗ (iprop(owns (c : Thread nD τ) arg1 fullShare x0 ∗ owns (c : Thread nD τ) arg2 fullShare x1
        ∗ owns (c : Thread nD τ) arg3 fullShare x2
            ∗ owns (c : Thread nD τ) arg5 fullShare (k1_pay2 x0 x1 x2 (k1_pay1 (F := F)))) -∗ K ⟨⟩))
      ⊢ wp frame (wpE (defs₀ (F := F)) Variants.none c none) E
          (cc1__dense_relu_mean_kernel i arg1 harg1 arg2 harg2 arg3 harg3 arg4 harg4 arg5 harg5) K := by
  simp only [cc1__dense_relu_mean_kernel_eq_skeleton]; unfold cc1__dense_relu_mean_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover_head offs_zero _ _ _)]
  rw [View.canon_cons_unit_zero (S := S1x40) offs_zero]
  sl_unfold_words
  rw [View.readCov_unit_zero (S := S1x40) _ offs_zero]
  simp only [View.readAt_eq_ld, View.ld_unit_zero (S := S2000x384) offs_zero, View.ld_unit_zero (S := S384x40) offs_zero,
    View.ld_unit_zero (S := S1x40) offs_zero]

set_option maxHeartbeats 1000000 in
/-- THE LAST POINT (the second conditional taken, the first not): the accumulator goes from `xs` to
    `k1_pay2 x0 x1 x2 xs` as at an inner point, and the output buffer, whatever it held, is left at `k1_pay3` of that. -/
theorem run_last (c : Dev nD) (E : Set ℕ) (i : grid1.Coords)
    (arg1 : Memref sig .tc .vmem S2000x384 .f32) (harg1 : arg1.IsWhole)
    (arg2 : Memref sig .tc .vmem S384x40 .f32) (harg2 : arg2.IsWhole)
    (arg3 : Memref sig .tc .vmem S1x40 .f32) (harg3 : arg3.IsWhole)
    (arg4 : Memref sig .tc .vmem S1x40 .f32) (harg4 : arg4.IsWhole)
    (arg5 : Memref sig .tc .vmem S1x40 .f32) (harg5 : arg5.IsWhole)
    (hz : ¬isFirst i) (hl : isLast i)
    (x0 : Vec F S2000x384 .f32) (x1 : Vec F S384x40 .f32) (x2 : Vec F S1x40 .f32) (xs : Vec F S1x40 .f32)
    (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d) ∗ owns (c : Thread nD τ) arg5 fullShare xs
        ∗ (iprop(owns (c : Thread nD τ) arg1 fullShare x0 ∗ owns (c : Thread nD τ) arg2 fullShare x1
        ∗ owns (c : Thread nD τ) arg3 fullShare x2
            ∗ owns (c : Thread nD τ) arg4 fullShare (k1_pay3 (k1_pay2 x0 x1 x2 xs))
            ∗ owns (c : Thread nD τ) arg5 fullShare (k1_pay2 x0 x1 x2 xs)) -∗ K ⟨⟩))
      ⊢ wp frame (wpE (defs₀ (F := F)) Variants.none c none) E
          (cc1__dense_relu_mean_kernel i arg1 harg1 arg2 harg2 arg3 harg3 arg4 harg4 arg5 harg5) K := by
  simp only [cc1__dense_relu_mean_kernel_eq_skeleton]; unfold cc1__dense_relu_mean_kernel_skel
  unfold owns
  iintro ⟨⟨%f0, %hf0, H0⟩, ⟨%f1, %hf1, H1⟩, ⟨%f2, %hf2, H2⟩, ⟨%dout, %fout, -, HO⟩, ⟨%fs, %hfs, HS⟩, Hk⟩
  subst hf0; subst hf1; subst hf2; subst hfs
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr
    swap; · iexact HO
    ipureintro
    rw [View.read_writes_eq_canon _ _ _ (cover_head offs_zero _ _ _)]
    rw [View.canon_unit_zero offs_zero]
    sl_unfold_words
    rw [View.readCov_unit_zero (S := S1x40) _ offs_zero]
    simp only [View.readAt_eq_ld, View.ld_unit_zero (S := S2000x384) offs_zero, View.ld_unit_zero (S := S384x40) offs_zero,
    View.ld_unit_zero (S := S1x40) offs_zero]
  iexists _; isplitr
  swap; · iexact HS
  ipureintro
  sl_unfold_words
  rw [View.read_writes_eq_canon _ _ _ (cover_head offs_zero _ _ _)]
  rw [View.canon_unit_zero offs_zero]
  simp only [View.readAt_eq_ld, View.ld_unit_zero (S := S2000x384) offs_zero, View.ld_unit_zero (S := S384x40) offs_zero,
    View.ld_unit_zero (S := S1x40) offs_zero]

end Cert.KernelIdeal.Hand

end
-- ==== Proof.IdealR1.lean ====
/- Pipeline 1 (the mean kernel) at the contents `V` the region is entered with: the windows' blocks, what the
   accumulator and the output block hold point by point, the proof data, the body obligation, and the invariant's
   two ends. -/
import proofs.«128947_j1451698946529_1_alg».proof.Proof.IdealR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (the row tile
    is fetched at every point; the weights and the bias at point 0 only, and their block index never moves): for
    any proof data whose array is the entry contents and whose body leaves the block in place. -/
theorem before_in0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)
theorem before_in1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)
theorem before_in2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

/-! ## The accumulator and the output block, point by point -/

/-- The accumulator after the body at point `n`: zeroed and accumulated into at point 0, accumulated into at every
    later point — the kernel's running sum over the row tiles, in grid order. -/
def acc1 (c : Dev nD) : (n : ℕ) → n < cfg1.N → Vec F S1x40 .f32
  | 0, h => k1_pay2 (iblk1 V c 0 ⟨0, h⟩) (iblk1 V c 1 ⟨0, h⟩) (iblk1 V c 2 ⟨0, h⟩) (k1_pay1 (F := F))
  | n + 1, h => k1_pay2 (iblk1 V c 0 ⟨n + 1, h⟩) (iblk1 V c 1 ⟨n + 1, h⟩) (iblk1 V c 2 ⟨n + 1, h⟩) (acc1 c n (Nat.lt_of_succ_lt h))

/-- After the body at point `n`: (the output window's staging buffer, the accumulator). The first component is
    what the store under the last point's conditional leaves; it is consulted at the last point only (elsewhere
    the window is idle and not written back, and the buffer is handed back as found). -/
def outsAt1 (c : Dev nD) : (n : ℕ) → n < cfg1.N → Vec F S1x40 .f32 × Vec F S1x40 .f32 :=
  fun n h => (k1_pay3 (acc1 V c n h), acc1 V c n h)

theorem outsAt1_snd (c : Dev nD) (n : ℕ) (h : n < cfg1.N) : (outsAt1 V c n h).2 = acc1 V c n h := rfl
theorem outsAt1_fst (c : Dev nD) (n : ℕ) (h : n < cfg1.N) : (outsAt1 V c n h).1 = k1_pay3 (outsAt1 V c n h).2 := rfl

/-- The accumulator after point 0. -/
theorem scratch_first (c : Dev nD) (h : 0 < cfg1.N) :
    (outsAt1 V c 0 h).2 = k1_pay2 (iblk1 V c 0 ⟨0, h⟩) (iblk1 V c 1 ⟨0, h⟩) (iblk1 V c 2 ⟨0, h⟩) (k1_pay1 (F := F)) := rfl

/-- The accumulator after point `n + 1`, over what point `n` left. -/
theorem scratch_next (c : Dev nD) (n : ℕ) (h : n + 1 < cfg1.N) :
    (outsAt1 V c (n + 1) h).2 = k1_pay2 (iblk1 V c 0 ⟨n + 1, h⟩) (iblk1 V c 1 ⟨n + 1, h⟩) (iblk1 V c 2 ⟨n + 1, h⟩)
      (outsAt1 V c n (Nat.lt_of_succ_lt h)).2 := rfl

/-- The output block at the last point is the scaled accumulator. -/
theorem out_last (c : Dev nD) (h : 49 < cfg1.N) : (outsAt1 V c 49 h).1 = k1_pay3 (outsAt1 V c 49 h).2 := rfl

/-- The same two equations at a point of the grid. -/
theorem scratch_at_zero (c : Dev nD) (t : Fin cfg1.N) (hz : t.val = 0) :
    (outsAt1 V c t.val t.isLt).2 = k1_pay2 (iblk1 V c 0 t) (iblk1 V c 1 t) (iblk1 V c 2 t) (k1_pay1 (F := F)) := by
  obtain ⟨n, hn⟩ := t
  cases n with
  | zero => rfl
  | succ n => exact absurd hz (Nat.succ_ne_zero n)

theorem scratch_at_pos (c : Dev nD) (t : Fin cfg1.N) (hz : t.val ≠ 0) :
    (outsAt1 V c t.val t.isLt).2 = k1_pay2 (iblk1 V c 0 t) (iblk1 V c 1 t) (iblk1 V c 2 t)
      (outsAt1 V c (t.val - 1) (Nat.lt_of_le_of_lt (Nat.sub_le _ _) t.isLt)).2 := by
  obtain ⟨n, hn⟩ := t
  cases n with
  | zero => exact absurd rfl hz
  | succ n => rfl

/-! ## The memrefs the body is called with -/

/-- Each window's current staging memref at point `t`, and its wholeness. -/
abbrev ms0 (t : Fin cfg1.N) : Memref sig .tc .vmem S2000x384 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S384x40 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x40 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x40 .f32 := win1_3.stage (cfg1.slots t 3)
abbrev hs3 (t : Fin cfg1.N) : (ms3 t).IsWhole := hstage1_3 ((cfg1.slots t 3).cast nbuf1_3)
/-- The accumulator: a whole scoped buffer of the kernel's own, passed beside the windows. -/
abbrev scr : Memref sig .tc .vmem S1x40 .f32 := Memref.whole cc1_scratch0

/-! ## The region invariant -/

/-- A scoped buffer of the core at some contents. -/
abbrev anyAt (c : Dev nD) (b : Ref sig .tc) : sProp 𝕄 :=
  iprop(∃ f : Buf (Elt F) ((c : Thread nD τ).loc b), ((c : Thread nD τ).loc b) ↦{fullShare} f)

/-- The core's scoped buffers that are neither a staging buffer of this pipeline nor its accumulator (the other
    pipeline's staging buffers), each at some contents: the body never names them. -/
def others (c : Dev nD) : sProp 𝕄 :=
  iprop(anyAt (F := F) c cc0_stg0_0 ∗ anyAt (F := F) c cc0_stg0_1 ∗ anyAt (F := F) c cc0_stg1_0 ∗ anyAt (F := F) c cc0_stg2_0
    ∗ anyAt (F := F) c cc0_stg3_0 ∗ anyAt (F := F) c cc0_stg3_1)

/-- Seven conjuncts beside an eighth, the seventh pulled out of the first six. -/
theorem regroup7 (A B C D E G S R : sProp 𝕄) :
    (iprop((A ∗ B ∗ C ∗ D ∗ E ∗ G ∗ S) ∗ R) : sProp 𝕄) = iprop(((A ∗ B ∗ C ∗ D ∗ E ∗ G) ∗ S) ∗ R) := by
  have h₁ : (iprop((A ∗ B ∗ C ∗ D ∗ E ∗ G ∗ S) ∗ R) : sProp 𝕄) ⊢ iprop(((A ∗ B ∗ C ∗ D ∗ E ∗ G) ∗ S) ∗ R) := by
    iintro ⟨⟨Ha, Hb, Hc, Hd, He, Hg, HS⟩, Hr⟩
    isplitr [Hr]; swap; · iexact Hr
    isplitr [HS]; swap; · iexact HS
    isplitl [Ha]; · iexact Ha
    isplitl [Hb]; · iexact Hb
    isplitl [Hc]; · iexact Hc
    isplitl [Hd]; · iexact Hd
    isplitl [He]; · iexact He
    iexact Hg
  have h₂ : (iprop(((A ∗ B ∗ C ∗ D ∗ E ∗ G) ∗ S) ∗ R) : sProp 𝕄) ⊢ iprop((A ∗ B ∗ C ∗ D ∗ E ∗ G ∗ S) ∗ R) := by
    iintro ⟨⟨⟨Ha, Hb, Hc, Hd, He, Hg⟩, HS⟩, Hr⟩
    isplitr [Hr]; swap; · iexact Hr
    isplitl [Ha]; · iexact Ha
    isplitl [Hb]; · iexact Hb
    isplitl [Hc]; · iexact Hc
    isplitl [Hd]; · iexact Hd
    isplitl [He]; · iexact He
    isplitl [Hg]; · iexact Hg
    iexact HS
  exact BI.equiv_iff.mp ⟨h₁, h₂⟩

/-- What the launch hands the region, with the accumulator as a memref owned at some contents. -/
theorem PhiA1_eq (c : Dev nD) :
    (Pipeline.ΦA spec1 c : sProp 𝕄)
      = iprop(iprop(others (F := F) c ∗ (∃ d, owns (c : Thread nD τ) scr fullShare d)) ∗ (∃ r, prngReg c r)) := by
  unfold Pipeline.ΦA; rw [scopedRest1_eq]; simp only [scr, owns_whole]
  unfold others
  exact regroup7 _ _ _ _ _ _ _ _

/-- The invariant before position `n`: before the first point what the launch hands over (the accumulator at
    anything); afterwards the same with the accumulator at what the point before left in it. -/
def inv1 (c : Dev nD) : (n : ℕ) → n ≤ cfg1.N → sProp 𝕄
  | 0, _ => Pipeline.ΦA spec1 c
  | n + 1, hn => iprop(iprop(others (F := F) c ∗ owns (c : Thread nD τ) scr fullShare ((outsAt1 V c n hn).2)) ∗ (∃ r, prngReg c r))

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop(iprop(others (F := F) c ∗ owns (c : Thread nD τ) scr fullShare ((outsAt1 V c n hn).2)) ∗ (∃ r, prngReg c r)) := rfl

theorem inv1_pos (c : Dev nD) (n : ℕ) (h : n ≤ cfg1.N) (hz : n ≠ 0) :
    inv1 V c n h = iprop(iprop(others (F := F) c ∗ owns (c : Thread nD τ) scr fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them; after the body at point `t`
    each input's buffer at its block and the output's at `outsAt1`'s first component; the invariant `inv1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem owed1 (c : Dev nD) (t : Fin (cfg1.N + 1)) : (dat1 V c).owed t = 0 := rfl

theorem inv1_castSucc (c : Dev nD) (t : Fin cfg1.N) :
    (dat1 V c).Φ t.castSucc = inv1 V c t.val (Nat.le_of_lt t.isLt) := by
  dsimp only [dat1]; simp only [Fin.coe_castSucc]

theorem before1_0 (c : Dev nD) (t : Fin cfg1.N) (d) : (dat1 V c).before 0 t d = iblk1 V c 0 t :=
  before_in0_of V (dat1 V c) (A_eq1 V c 0) (after1_0 V c) t d
theorem before1_1 (c : Dev nD) (t : Fin cfg1.N) (d) : (dat1 V c).before 1 t d = iblk1 V c 1 t :=
  before_in1_of V (dat1 V c) (A_eq1 V c 1) (after1_1 V c) t d
theorem before1_2 (c : Dev nD) (t : Fin cfg1.N) (d) : (dat1 V c).before 2 t d = iblk1 V c 2 t :=
  before_in2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point. The inputs' memrefs hold their blocks; the closed forms of the two conditions say which
    of the three cases the point is in; the invariant hands the body the accumulator (at anything at point 0, at
    what the point before left afterwards) and takes it back at this point's contents; away from the last point
    the output's buffer passes through untouched, at the last point it is left at the scaled accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (ms0 t) fullShare ((dat1 V c).after 0 t) from by
        unfold Dat.leavesExact; rw [live_in0 t], after1_0]
  rw [show (dat1 V c).leavesExact 1 t = owns (c : Thread nD τ) (ms1 t) fullShare ((dat1 V c).after 1 t) from by
        unfold Dat.leavesExact; rw [live_in1 t], after1_1]
  rw [show (dat1 V c).leavesExact 2 t = owns (c : Thread nD τ) (ms2 t) fullShare ((dat1 V c).after 2 t) from by
        unfold Dat.leavesExact; rw [live_in2 t], after1_2]
  have hN : t.val < 50 := lt_of_lt_of_eq t.isLt (show cfg1.N = 50 from N_1)
  by_cases h0 : t.val % 50 = 0
  · -- point 0
    have hz : isFirst (grid1.coords t) := (isFirst_iff t).mpr h0
    have hl : ¬isLast (grid1.coords t) := fun h => by have := (isLast_iff t).mp h; omega
    have hv : t.val = 0 := by omega
    rw [Dat.leavesExact_idle (dat1 V c) 3 t (idle_out t hl) (noFlush_out t hl)]
    rw [inv1_castSucc V c t, inv1_zero V c _ _ hv, PhiA1_eq, scratch_at_zero V c t hv]
    iintro ⟨⟨⟨Hoth, HS⟩, Hg⟩, Ho, ⟨%d0, H0⟩, ⟨%d1, H1⟩, ⟨%d2, H2⟩, ⟨%d3, H3⟩⟩
    iapply (run_first c Set.univ (grid1.coords t) (ms0 t) (hs0 t) (ms1 t) (hs1 t) (ms2 t) (hs2 t) (ms3 t) (hs3 t) scr (Memref.isWhole_whole _) hz hl (iblk1 V c 0 t) (iblk1 V c 1 t) (iblk1 V c 2 t) _)
    isplitl [H0]; · iexact H0
    isplitl [H1]; · iexact H1
    isplitl [H2]; · iexact H2
    isplitl [HS]; · iexact HS
    iintro ⟨H0, H1, H2, HS⟩
    isplitl [Hoth HS Hg]
    · isplitr [Hg]; swap; · iexact Hg
      isplitl [Hoth]; · iexact Hoth
      iexact HS
    isplitl [Ho]; · iexact Ho
    isplitl [H0]; · iexact H0
    isplitl [H1]; · iexact H1
    isplitl [H2]; · iexact H2
    iexists _; iexact H3
  · by_cases h49 : t.val % 50 = 49
    · -- point 49
      have hz : ¬isFirst (grid1.coords t) := fun h => h0 ((isFirst_iff t).mp h)
      have hl : isLast (grid1.coords t) := (isLast_iff t).mpr h49
      have hv : t.val ≠ 0 := by omega
      rw [show (dat1 V c).leavesExact 3 t = owns (c : Thread nD τ) (ms3 t) fullShare ((dat1 V c).after 3 t) from by
        unfold Dat.leavesExact; rw [live_out t hl], after1_3, outsAt1_fst]
      rw [inv1_castSucc V c t, inv1_pos V c _ _ hv, scratch_at_pos V c t hv]
      iintro ⟨⟨⟨Hoth, HS⟩, Hg⟩, Ho, ⟨%d0, H0⟩, ⟨%d1, H1⟩, ⟨%d2, H2⟩, ⟨%d3, H3⟩⟩
      iapply (run_last c Set.univ (grid1.coords t) (ms0 t) (hs0 t) (ms1 t) (hs1 t) (ms2 t) (hs2 t) (ms3 t) (hs3 t) scr (Memref.isWhole_whole _) hz hl (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hoth HS Hg]
      · isplitr [Hg]; swap; · iexact Hg
        isplitl [Hoth]; · iexact Hoth
        iexact HS
      isplitl [Ho]; · iexact Ho
      isplitl [H0]; · iexact H0
      isplitl [H1]; · iexact H1
      isplitl [H2]; · iexact H2
      iexact H3
    · -- an inner point
      have hz : ¬isFirst (grid1.coords t) := fun h => h0 ((isFirst_iff t).mp h)
      have hl : ¬isLast (grid1.coords t) := fun h => h49 ((isLast_iff t).mp h)
      have hv : t.val ≠ 0 := by omega
      rw [Dat.leavesExact_idle (dat1 V c) 3 t (idle_out t hl) (noFlush_out t hl)]
      rw [inv1_castSucc V c t, inv1_pos V c _ _ hv, scratch_at_pos V c t hv]
      iintro ⟨⟨⟨Hoth, HS⟩, Hg⟩, Ho, ⟨%d0, H0⟩, ⟨%d1, H1⟩, ⟨%d2, H2⟩, ⟨%d3, H3⟩⟩
      iapply (run_mid c Set.univ (grid1.coords t) (ms0 t) (hs0 t) (ms1 t) (hs1 t) (ms2 t) (hs2 t) (ms3 t) (hs3 t) scr (Memref.isWhole_whole _) hz hl (iblk1 V c 0 t) (iblk1 V c 1 t) (iblk1 V c 2 t) _ _)
      isplitl [H0]; · iexact H0
      isplitl [H1]; · iexact H1
      isplitl [H2]; · iexact H2
      isplitl [HS]; · iexact HS
      iintro ⟨H0, H1, H2, HS⟩
      isplitl [Hoth HS Hg]
      · isplitr [Hg]; swap; · iexact Hg
        isplitl [Hoth]; · iexact Hoth
        iexact HS
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

/-- After any point but the first the invariant gives it back: the accumulator's named contents are forgotten. -/
theorem inv_out1 (c : Dev nD) (t : Fin (cfg1.N + 1)) (ht : t.val ≠ 0) : (dat1 V c).Φ t ⊢ Pipeline.ΦA spec1 c := by
  rw [show (dat1 V c).Φ t = inv1 V c t.val (Nat.le_of_lt_succ t.isLt) from rfl, inv1_pos V c _ _ ht, PhiA1_eq]
  iintro ⟨⟨Hoth, HS⟩, Hg⟩
  isplitr [Hg]; swap; · iexact Hg
  isplitl [Hoth]; · iexact Hoth
  iexists _; iexact HS

/-- The same after the last point. -/
theorem hout1 (c : Dev nD) : (dat1 V c).Φ (Fin.last cfg1.N) ⊢ Pipeline.ΦA spec1 c :=
  inv_out1 V c _ (by rw [Fin.val_last]; have : cfg1.N = 50 := N_1; omega)

/-- The shares are full: what the region's run takes. -/
theorem share1 (c : Dev nD) (w : Fin cfg1.W) : (dat1 V c).share w = fullShare := (dat1 V c).share_full (fun _ => rfl) w

end Cert.KernelIdeal.Hand

end
-- ==== Proof.IdealRun.lean ====
/-
  The whole program's run: @main is three stretches of host operations, the first dense layer's region, a fourth stretch,
  and the second layer's region. Between two of these items a core holds every unscoped buffer whole at a valuation:
  the launch contents, then each stretch's operations applied, and after a region its output array at what the pipeline's
  write-backs leave (the other buffers as they were). Stated here: the two regions as segments over that thread state,
  and the run — every weakly fair execution terminates, nothing faults, and in the final memory every unscoped buffer
  holds the last valuation. The frame (the seven arguments end as launched) and the result's contents are read off it.
-/
import proofs.«128947_j1451698946529_1_alg».proof.Proof.Gen.KernelIdeal.Regions
import proofs.«128947_j1451698946529_1_alg».proof.Proof.IdealR0
import proofs.«128947_j1451698946529_1_alg».proof.Proof.IdealR1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the regions leave -/

/-- The buffer contents the first region is entered with, read at the TensorCore's references. -/
abbrev VR3 : (c : Dev nD) → (b : Ref sig .tc) → Buf (Elt F) ((c : Thread nD τ).loc b) := fun c b => V3 m c b

/-- The first layer's result array after its region: the write-backs of the 50 output tiles folded. -/
def res43 (c : Dev nD) : Buf (Elt F) ((c : Thread nD τ).loc main_v43) := (dat0 (VR3 m) c).arrAt 3 cfg0.N

/-- The regions' results up to the first: only the first layer's result array is named. -/
def outsA : Outs (F := F) := fun _ r c =>
  if h : r = main_v43 then h.symm ▸ res43 m c else Classical.arbitrary _

/-- The buffer contents the second region is entered with, read at the TensorCore's references. -/
abbrev VR5 : (c : Dev nD) → (b : Ref sig .tc) → Buf (Elt F) ((c : Thread nD τ).loc b) := fun c b => V5 m (outsA m) c b

/-- The program's result array after the second region: its one write-back, at the last grid point. -/
def res78 (c : Dev nD) : Buf (Elt F) ((c : Thread nD τ).loc main_v78) := (dat1 (VR5 m) c).arrAt 3 cfg1.N

/-- What the two regions leave in the arrays they write. -/
def outs : Outs (F := F) := fun _ r c =>
  if h : r = main_v43 then h.symm ▸ res43 m c
  else if h' : r = main_v78 then h'.symm ▸ res78 m c else Classical.arbitrary _

theorem outs_43 (J : ℕ) (c : Dev nD) : outs m J main_v43 c = res43 m c := by
  unfold outs; rw [dif_pos rfl]
theorem outsA_43 (J : ℕ) (c : Dev nD) : outsA m J main_v43 c = res43 m c := by
  unfold outsA; rw [dif_pos rfl]
theorem outs_78 (J : ℕ) (c : Dev nD) : outs m J main_v78 c = res78 m c := by
  unfold outs; rw [dif_neg (by decide), dif_pos rfl]

/-- Both families name the same first-region result, so the second region is entered with the same contents. -/
theorem V4_outs (c : Dev nD) : V4 m (outs m) c = V4 m (outsA m) c := by
  unfold V4; rw [outs_43, outsA_43]
theorem V5_outs (c : Dev nD) : V5 m (outs m) c = V5 m (outsA m) c := by
  unfold V5; rw [V4_outs]

/-! ## The proof data family and the thread state -/

/-- Each pipeline's proof data, at its region's entry contents. -/
def pdats : (p : Fin 2) → (c : Dev nD) → Dat τ (Elt F) Unit ℕ (UR sig nD τ) ℕ (cfgs p) c
  | ⟨0, _⟩ => fun c => dat0 (VR3 m) c
  | ⟨1, _⟩ => fun c => dat1 (VR5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- The contents the first region leaves, read at the TensorCore's references. -/
abbrev VR4 : (c : Dev nD) → (b : Ref sig .tc) → Buf (Elt F) ((c : Thread nD τ).loc b) := fun c b => V4 m (outs m) c b
/-- The contents the second region leaves, read at the TensorCore's references. -/
abbrev VR6 : (c : Dev nD) → (b : Ref sig .tc) → Buf (Elt F) ((c : Thread nD τ).loc b) := fun c b => V6 m (outs m) c b

/-- After the first region each of its arrays holds what the pipeline leaves: the three inputs as entered, the result
    array at its folded write-backs. -/
theorem hF0 (c : Dev nD) (w : Fin cfg0.W) : (dat0 (VR3 m) c).arrAt w cfg0.N = VR4 m c (Pipeline.arrRef spec0 w) := by
  fin_cases w
  · exact ((dat0 (VR3 m) c).arrAt_in 0 rfl _).trans ((A_eq0 (VR3 m) c 0).trans (V4_of m (outs m) c main_v41 (by decide)).symm)
  · exact ((dat0 (VR3 m) c).arrAt_in 1 rfl _).trans ((A_eq0 (VR3 m) c 1).trans (V4_of m (outs m) c main_arg3 (by decide)).symm)
  · exact ((dat0 (VR3 m) c).arrAt_in 2 rfl _).trans ((A_eq0 (VR3 m) c 2).trans (V4_of m (outs m) c main_v42 (by decide)).symm)
  · show res43 m c = V4 m (outs m) c main_v43
    unfold V4; rw [Function.update_self, outs_43]

/-- Every other buffer is as the region found it. -/
theorem hrest0 (c : Dev nD) : ∀ b, b ∉ Finset.univ.image (Pipeline.arrRef spec0) → VR4 m c b = VR3 m c b :=
  fun b hb => V4_of m (outs m) c b (fun h => hb (Finset.mem_image.mpr ⟨3, Finset.mem_univ _, (List.mem_singleton.mp h).symm⟩))

/-- After the second region: its three inputs as entered, the program's result at its one write-back. -/
theorem hF1 (c : Dev nD) (w : Fin cfg1.W) : (dat1 (VR5 m) c).arrAt w cfg1.N = VR6 m c (Pipeline.arrRef spec1 w) := by
  fin_cases w
  · exact ((dat1 (VR5 m) c).arrAt_in 0 rfl _).trans ((A_eq1 (VR5 m) c 0).trans (((V6_of m (outs m) c main_v76 (by decide)).trans (congrFun (V5_outs m c) _)).symm))
  · exact ((dat1 (VR5 m) c).arrAt_in 1 rfl _).trans ((A_eq1 (VR5 m) c 1).trans (((V6_of m (outs m) c main_arg5 (by decide)).trans (congrFun (V5_outs m c) _)).symm))
  · exact ((dat1 (VR5 m) c).arrAt_in 2 rfl _).trans ((A_eq1 (VR5 m) c 2).trans (((V6_of m (outs m) c main_v77 (by decide)).trans (congrFun (V5_outs m c) _)).symm))
  · show res78 m c = V6 m (outs m) c main_v78
    unfold V6; rw [Function.update_self, outs_78]

theorem hrest1 (c : Dev nD) : ∀ b, b ∉ Finset.univ.image (Pipeline.arrRef spec1) → VR6 m c b = VR5 m c b :=
  fun b hb => (V6_of m (outs m) c b (fun h => hb (Finset.mem_image.mpr ⟨3, Finset.mem_univ _, (List.mem_singleton.mp h).symm⟩))).trans
    (congrFun (V5_outs m c) _)

/-! ## The regions as segments -/

set_option backward.isDefEq.respectTransparency.types false in
/-- The first layer's region over the thread state: entered from every unscoped buffer at the contents after the third
    host stretch, left with the result array at its folded write-backs. Its four arrays are split out of the unscoped
    buffers and put back; the generator register passes through the region's invariant; nothing is owed; the kernel has
    no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VR3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR3 m c) (VR4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region over the thread state: entered from every unscoped buffer at the contents after the fourth
    host stretch, left with the program's result at its one write-back. The region's invariant starts and ends as the
    scoped rest beside the generator register; in between it carries the accumulator. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR5 m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR5 m c)
  hentry c := by
    rw [Pipeline.ownSems0_none, V5_outs]
    have hsplit := Pipeline.arrays_of_unscopedBufs (p := 1) (pcfgs (F := F)) adm (pdats m) launch1.win launch1.arr_whole c
      ((pdats m 1 c).share_full fun _ => rfl) (VR5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (VR5 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR5 m c) (VR6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and in
    the final memory every unscoped buffer holds the last valuation: the launch contents with every host stretch applied
    and each region's result array at what its pipeline leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V6 m (outs m) c) ∗ ∃ r, prngReg c r))
    (hch := fun c => ⟨.rfl, .rfl, .rfl, .rfl, .rfl, .rfl,
      show iprop(StableHlo.held (c : Thread nD τ) (Pipeline.ucRefs τ sig) (V6 m (outs m) c) ∗ R c)
          ⊢ (iprop(iprop(StableHlo.held (c : Thread nD τ) (Pipeline.ucRefs τ sig) (V6 m (outs m) c) ∗ ∃ r, prngReg c r)
              ∗ ∃ W, owes (c : Thread nD τ) (0 : CellTallies nD τ sig Unit) W) : sProp 𝕄) from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V6 m (outs m) c) s')
      isplitl [Hh] <;> iassumption)
    (hQ := fun s h c => h c)

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c)⟩) (run_all m ρ)

/-- The run with the result named: the program's result array ends at the second region's write-back, the arguments as
    launched. -/
theorem run_result : θ_run defs (onTc (τ := τ) (main (F := F))) ⟨m, fun _ => 0, ρ⟩ (fun r => ∀ c : Dev nD,
      r.2.mem ((c.tc : Thread nD τ).loc main_v78) = res78 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v78 (by decide))).trans (by
        show V6 m (outs m) c main_v78 = res78 m c
        unfold V6; rw [Function.update_self, outs_78]),
     (h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c)⟩) (run_all m ρ)

end Cert.KernelIdeal.Hand

end
-- ==== Proof.IdealChain.lean ====
/-
  The host side of the kernel's program against the reference's stages. Between the two dense layers both programs apply
  the SAME host operations — the degree normalisation, two rounds of "scale, gather along the edges, scatter-add, scale",
  a concatenate — to the same arrays, so the kernel's buffer contents at each region's entry are the reference's stage
  functions of the arguments: stated here stretch by stretch (each operation's result read at its own reference is its
  function of its operands), never opening a gather or a scatter.
-/
import proofs.«128947_j1451698946529_1_alg».proof.Proof.Gen.KernelIdeal.Regions
import proofs.«128947_j1451698946529_1_alg».proof.Proof.RefReadP
import Idealize.ShloMosaic.Lib.StableHlo.Run

noncomputable section

namespace Cert.KernelIdeal.Chain

open Cert.KernelIdeal Cert.KernelIdeal.Gen
open Idealize.ShloMosaic Idealize.ShloMosaic.TcCoe Idealize.SL.Sem Idealize.ShloMosaic.StableHlo

/-- The first layer's feature concatenate, read at its own reference: the three operands' contents joined. -/
theorem concat41_result (hxs hy) (G : Valuation τ sig (Elt Ideal)) :
    (nary (τ := τ) ![main_arg0, main_v24, main_v40] main_v41
        (fun u => concatenate S100000x384 1 [⟨S100000x128, u 0⟩, ⟨S100000x128, u 1⟩, ⟨S100000x128, u 2⟩] concatenates_S100000x128_S100000x128_S100000x128_S100000x384_d1) hxs hy).result G (no_index (Proc.devRef .tc main_v41))
      = concatenate S100000x384 1 [⟨S100000x128, G (Proc.devRef .tc main_arg0)⟩, ⟨S100000x128, G (Proc.devRef .tc main_v24)⟩, ⟨S100000x128, G (Proc.devRef .tc main_v40)⟩] concatenates_S100000x128_S100000x128_S100000x128_S100000x384_d1 :=
  nary_result _ _ _ hxs hy G

/-- The second layer's feature concatenate, likewise. -/
theorem concat76_result (hxs hy) (G : Valuation τ sig (Elt Ideal)) :
    (nary (τ := τ) ![main_v43, main_v59, main_v75] main_v76
        (fun u => concatenate S100000x384 1 [⟨S100000x128, u 0⟩, ⟨S100000x128, u 1⟩, ⟨S100000x128, u 2⟩] concatenates_S100000x128_S100000x128_S100000x128_S100000x384_d1) hxs hy).result G (no_index (Proc.devRef .tc main_v76))
      = concatenate S100000x384 1 [⟨S100000x128, G (Proc.devRef .tc main_v43)⟩, ⟨S100000x128, G (Proc.devRef .tc main_v59)⟩, ⟨S100000x128, G (Proc.devRef .tc main_v75)⟩] concatenates_S100000x128_S100000x128_S100000x128_S100000x384_d1 :=
  nary_result _ _ _ hxs hy G

/-- One simplification pass over a stretch of host operations: each operation's result at its own reference is its function
    of its operands' contents, at any other reference what was there before. -/
macro "stretch_results" : tactic =>
  `(tactic| (simp (disch := decide) only [after_cons, after_nil,
      nullary_result', unary_result', binary_result', ternary_result', quaternary_result', reshape_result',
      concat41_result, concat76_result, unaryIndexed_result', binaryIndexed_result',
      nullary_result_ne', unary_result_ne', binary_result_ne', ternary_result_ne', quaternary_result_ne', reshape_result_ne',
      nary_result_ne', unaryIndexed_result_ne', binaryIndexed_result_ne']))

/-- Inside a concatenate's operand list the same pass (the list is an argument other arguments' types depend on, so it
    is entered explicitly). -/
macro "stretch_operands" : tactic =>
  `(tactic| conv => lhs; arg 3; simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne'])

/-! ## The degree normalisation -/

/-- The outlined `where`: after its three operations the result holds `select` of the condition, the value and the
    broadcast scalar, read off the contents it was entered with. -/
theorem where_of (G : Valuation τ sig (Elt Ideal)) :
    StableHlo.after (hostOps0_1 (F := Ideal)) G (Proc.devRef .tc main_v8)
      = select (G (Proc.devRef .tc main_v5)) (G (Proc.devRef .tc main_v7))
          (broadcastInDim S100000 ![] bcast_S_S100000 (id (G (Proc.devRef .tc main_cst_3)))) := by
  dsimp only [hostOps0_1, StableHlo.TRef.unary, StableHlo.TRef.ternary]
  stretch_results
  rfl

set_option maxRecDepth 16384 in
set_option maxHeartbeats 4000000 in
/-- After the first two host stretches the normalisation vector is the reference's stage of the destination indices:
    the scatter-added in-degrees, `d ↦ d^(-1/2)` where positive and `0` elsewhere. -/
theorem norm_of (W : Valuation τ sig (Elt Ideal)) :
    StableHlo.after (hostOps0_1 (F := Ideal)) (StableHlo.after (hostOps0 (F := Ideal)) W) (Proc.devRef .tc main_v8)
      = Cert.ReferenceIdeal.ReadP.val_main_v8 (F := Ideal) (W (Proc.devRef .tc main_arg2)) := by
  rw [where_of]
  dsimp only [hostOps0]
  stretch_results
  simp only [Cert.ReferenceIdeal.ReadP.val_main_cst, Cert.ReferenceIdeal.ReadP.val_main_v0, Cert.ReferenceIdeal.ReadP.val_main_cst_0, Cert.ReferenceIdeal.ReadP.val_main_v1, Cert.ReferenceIdeal.ReadP.val_main_v2, Cert.ReferenceIdeal.ReadP.val_main_v3, Cert.ReferenceIdeal.ReadP.val_main_cst_1, Cert.ReferenceIdeal.ReadP.val_main_v4, Cert.ReferenceIdeal.ReadP.val_main_v5, Cert.ReferenceIdeal.ReadP.val_main_cst_2, Cert.ReferenceIdeal.ReadP.val_main_v6, Cert.ReferenceIdeal.ReadP.val_main_v7, Cert.ReferenceIdeal.ReadP.val_main_cst_3, Cert.ReferenceIdeal.ReadP.val_main_call0_v0, Cert.ReferenceIdeal.ReadP.val_main_call0_v1, Cert.ReferenceIdeal.ReadP.val_main_v8]
  rfl

/-! ## The first layer's features -/

set_option maxRecDepth 16384 in
set_option maxHeartbeats 8000000 in
/-- The third host stretch, from any contents whose normalisation vector is the reference's: the concatenated features
    `[x, Â x, Â² x]` are the reference's stage of the same arrays. -/
theorem feats1_of (W : Valuation τ sig (Elt Ideal))
    (hW8 : W (Proc.devRef .tc main_v8) = Cert.ReferenceIdeal.ReadP.val_main_v8 (F := Ideal) (W (Proc.devRef .tc main_arg2))) :
    StableHlo.after (hostOps0_2 (F := Ideal)) W (Proc.devRef .tc main_v41)
      = Cert.ReferenceIdeal.ReadP.val_main_v41 (F := Ideal) (W (Proc.devRef .tc main_arg0)) (W (Proc.devRef .tc main_arg1)) (W (Proc.devRef .tc main_arg2)) := by
  dsimp only [hostOps0_2]
  stretch_results
  stretch_operands
  conv => lhs; arg 3; rw [hW8]
  simp only [Cert.ReferenceIdeal.ReadP.val_main_v9, Cert.ReferenceIdeal.ReadP.val_main_v10, Cert.ReferenceIdeal.ReadP.val_main_v11, Cert.ReferenceIdeal.ReadP.val_main_c, Cert.ReferenceIdeal.ReadP.val_main_v12, Cert.ReferenceIdeal.ReadP.val_main_v13, Cert.ReferenceIdeal.ReadP.val_main_c_4, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_v18, Cert.ReferenceIdeal.ReadP.val_main_cst_5, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_c_6, Cert.ReferenceIdeal.ReadP.val_main_v28, Cert.ReferenceIdeal.ReadP.val_main_v29, Cert.ReferenceIdeal.ReadP.val_main_c_7, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_cst_8, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_v39, Cert.ReferenceIdeal.ReadP.val_main_v40, Cert.ReferenceIdeal.ReadP.val_main_v41]
  rfl

/-- The same stretch leaves the bias row as the reshaped bias vector. -/
theorem bias1_of (W : Valuation τ sig (Elt Ideal)) :
    StableHlo.after (hostOps0_2 (F := Ideal)) W (Proc.devRef .tc main_v42)
      = shapeCast S1x128 (W (Proc.devRef .tc main_arg4)) shapeCasts_S128_S1x128 := by
  dsimp only [hostOps0_2]
  stretch_results
  rfl

/-! ## The second layer's features -/

set_option maxRecDepth 16384 in
set_option maxHeartbeats 8000000 in
/-- The fourth host stretch, from any contents whose normalisation vector is the reference's and whose first-layer result
    is the reference's: the concatenated features `[h, Â h, Â² h]` are the reference's stage. -/
theorem feats2_of (W : Valuation τ sig (Elt Ideal))
    (x0 : (⟨S100000x128, .f32⟩ : BufTy).Contents (Elt Ideal)) (x3 : (⟨S384x128, .f32⟩ : BufTy).Contents (Elt Ideal))
    (x4 : (⟨S128, .f32⟩ : BufTy).Contents (Elt Ideal))
    (hW8 : W (Proc.devRef .tc main_v8) = Cert.ReferenceIdeal.ReadP.val_main_v8 (F := Ideal) (W (Proc.devRef .tc main_arg2)))
    (h43 : W (Proc.devRef .tc main_v43)
      = Cert.ReferenceIdeal.ReadP.val_main_v46 (F := Ideal) x0 (W (Proc.devRef .tc main_arg1)) (W (Proc.devRef .tc main_arg2)) x3 x4) :
    StableHlo.after (hostOps1 (F := Ideal)) W (Proc.devRef .tc main_v76)
      = Cert.ReferenceIdeal.ReadP.val_main_v79 (F := Ideal) x0 (W (Proc.devRef .tc main_arg1)) (W (Proc.devRef .tc main_arg2)) x3 x4 := by
  dsimp only [hostOps1]
  stretch_results
  stretch_operands
  conv => lhs; arg 3; rw [hW8, h43]
  simp only [Cert.ReferenceIdeal.ReadP.val_main_v47, Cert.ReferenceIdeal.ReadP.val_main_v48, Cert.ReferenceIdeal.ReadP.val_main_v49, Cert.ReferenceIdeal.ReadP.val_main_c_9, Cert.ReferenceIdeal.ReadP.val_main_v50, Cert.ReferenceIdeal.ReadP.val_main_v51, Cert.ReferenceIdeal.ReadP.val_main_c_10, Cert.ReferenceIdeal.ReadP.val_main_v52, Cert.ReferenceIdeal.ReadP.val_main_v53, Cert.ReferenceIdeal.ReadP.val_main_v54, Cert.ReferenceIdeal.ReadP.val_main_v55, Cert.ReferenceIdeal.ReadP.val_main_v56, Cert.ReferenceIdeal.ReadP.val_main_cst_11, Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_v63, Cert.ReferenceIdeal.ReadP.val_main_v64, Cert.ReferenceIdeal.ReadP.val_main_v65, Cert.ReferenceIdeal.ReadP.val_main_c_12, Cert.ReferenceIdeal.ReadP.val_main_v66, Cert.ReferenceIdeal.ReadP.val_main_v67, Cert.ReferenceIdeal.ReadP.val_main_c_13, Cert.ReferenceIdeal.ReadP.val_main_v68, Cert.ReferenceIdeal.ReadP.val_main_v69, Cert.ReferenceIdeal.ReadP.val_main_v70, Cert.ReferenceIdeal.ReadP.val_main_v71, Cert.ReferenceIdeal.ReadP.val_main_v72, Cert.ReferenceIdeal.ReadP.val_main_cst_14, Cert.ReferenceIdeal.ReadP.val_main_v73, Cert.ReferenceIdeal.ReadP.val_main_v74, Cert.ReferenceIdeal.ReadP.val_main_v75, Cert.ReferenceIdeal.ReadP.val_main_v76, Cert.ReferenceIdeal.ReadP.val_main_v77, Cert.ReferenceIdeal.ReadP.val_main_v78, Cert.ReferenceIdeal.ReadP.val_main_v79]
  rfl

theorem bias2_of (W : Valuation τ sig (Elt Ideal)) :
    StableHlo.after (hostOps1 (F := Ideal)) W (Proc.devRef .tc main_v77)
      = shapeCast S1x40 (W (Proc.devRef .tc main_arg6)) shapeCasts_S40_S1x40 := by
  dsimp only [hostOps1]
  stretch_results
  rfl

/-! ## The region entries of the kernel's program -/

variable (m : (ℓ : Loc nD τ sig) → Buf (Elt Ideal) ℓ)

/-- An argument array is never written by a host stretch: before the third stretch it holds the launch contents. -/
theorem V2_arg0 (c : Dev nD) : V2 m c main_arg0 = m ((c.tc : Thread nD τ).loc main_arg0) :=
  (V2_of m c main_arg0 (by decide)).trans ((V1_of m c main_arg0 (by decide)).trans rfl)
theorem V2_arg1 (c : Dev nD) : V2 m c main_arg1 = m ((c.tc : Thread nD τ).loc main_arg1) :=
  (V2_of m c main_arg1 (by decide)).trans ((V1_of m c main_arg1 (by decide)).trans rfl)
theorem V2_arg2 (c : Dev nD) : V2 m c main_arg2 = m ((c.tc : Thread nD τ).loc main_arg2) :=
  (V2_of m c main_arg2 (by decide)).trans ((V1_of m c main_arg2 (by decide)).trans rfl)
theorem V2_arg4 (c : Dev nD) : V2 m c main_arg4 = m ((c.tc : Thread nD τ).loc main_arg4) :=
  (V2_of m c main_arg4 (by decide)).trans ((V1_of m c main_arg4 (by decide)).trans rfl)

/-- The normalisation vector after the first two stretches. -/
theorem norm_eq (c : Dev nD) :
    V2 m c main_v8 = Cert.ReferenceIdeal.ReadP.val_main_v8 (F := Ideal) (m ((c.tc : Thread nD τ).loc main_arg2)) :=
  norm_of (V0 m c)

/-- The first region's feature array. -/
theorem feats1 (c : Dev nD) :
    V3 m c main_v41 = Cert.ReferenceIdeal.ReadP.val_main_v41 (F := Ideal) (m ((c.tc : Thread nD τ).loc main_arg0))
      (m ((c.tc : Thread nD τ).loc main_arg1)) (m ((c.tc : Thread nD τ).loc main_arg2)) := by
  have h := feats1_of (V2 m c) (by rw [V2_arg2]; exact norm_eq m c)
  rw [V2_arg0, V2_arg1, V2_arg2] at h
  exact h

/-- The first region's weight matrix is the argument. -/
theorem weights1 (c : Dev nD) : V3 m c main_arg3 = m ((c.tc : Thread nD τ).loc main_arg3) :=
  (V3_of m c main_arg3 (by decide)).trans ((V2_of m c main_arg3 (by decide)).trans ((V1_of m c main_arg3 (by decide)).trans rfl))

/-- The first region's bias row is the bias argument as a `1 × 128` row. -/
theorem bias1 (c : Dev nD) :
    V3 m c main_v42 = shapeCast S1x128 (m ((c.tc : Thread nD τ).loc main_arg4)) shapeCasts_S128_S1x128 := by
  have h := bias1_of (V2 m c)
  rw [V2_arg4] at h
  exact h

variable (outs : Outs (F := Ideal))

theorem V4_arg1 (c : Dev nD) : V4 m outs c main_arg1 = m ((c.tc : Thread nD τ).loc main_arg1) :=
  (V4_of m outs c main_arg1 (by decide)).trans ((V3_of m c main_arg1 (by decide)).trans (V2_arg1 m c))
theorem V4_arg2 (c : Dev nD) : V4 m outs c main_arg2 = m ((c.tc : Thread nD τ).loc main_arg2) :=
  (V4_of m outs c main_arg2 (by decide)).trans ((V3_of m c main_arg2 (by decide)).trans (V2_arg2 m c))
theorem V4_arg6 (c : Dev nD) : V4 m outs c main_arg6 = m ((c.tc : Thread nD τ).loc main_arg6) :=
  (V4_of m outs c main_arg6 (by decide)).trans ((V3_of m c main_arg6 (by decide)).trans
    ((V2_of m c main_arg6 (by decide)).trans ((V1_of m c main_arg6 (by decide)).trans rfl)))
theorem V4_norm (c : Dev nD) :
    V4 m outs c main_v8 = Cert.ReferenceIdeal.ReadP.val_main_v8 (F := Ideal) (m ((c.tc : Thread nD τ).loc main_arg2)) :=
  (V4_of m outs c main_v8 (by decide)).trans ((V3_of m c main_v8 (by decide)).trans (norm_eq m c))

/-- The second region's feature array, once the first region's result is the reference's first layer. -/
theorem feats2 (c : Dev nD)
    (h43 : outs 4 main_v43 c = Cert.ReferenceIdeal.ReadP.val_main_v46 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4))) :
    V5 m outs c main_v76 = Cert.ReferenceIdeal.ReadP.val_main_v79 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) := by
  have h := feats2_of (V4 m outs c) (m ((c.tc : Thread nD τ).loc main_arg0)) (m ((c.tc : Thread nD τ).loc main_arg3))
    (m ((c.tc : Thread nD τ).loc main_arg4)) (by rw [V4_arg2]; exact V4_norm m outs c)
    (by rw [V4_arg1, V4_arg2]; unfold V4; rw [Function.update_self]; exact h43)
  rw [V4_arg1, V4_arg2] at h
  exact h

/-- The second region's weight matrix is the argument. -/
theorem weights2 (c : Dev nD) : V5 m outs c main_arg5 = m ((c.tc : Thread nD τ).loc main_arg5) :=
  (V5_of m outs c main_arg5 (by decide)).trans ((V4_of m outs c main_arg5 (by decide)).trans ((V3_of m c main_arg5 (by decide)).trans
    ((V2_of m c main_arg5 (by decide)).trans ((V1_of m c main_arg5 (by decide)).trans rfl))))

/-- The second region's bias row is the bias argument as a `1 × 40` row. -/
theorem bias2 (c : Dev nD) :
    V5 m outs c main_v77 = shapeCast S1x40 (m ((c.tc : Thread nD τ).loc main_arg6)) shapeCasts_S40_S1x40 := by
  have h := bias2_of (V4 m outs c)
  rw [V4_arg6] at h
  exact h

end Cert.KernelIdeal.Chain

end
-- ==== Proof.IdealPay.lean ====
/-
  What each payload of the two kernels computes at an index, over the extended reals.

  The first kernel's tile is `max (x · w + b) 0`: at row `r` and column `j` the sum over the 384 features of
  `x r k * w k j`, plus the bias at `j`, clamped below at zero. The second kernel's accumulator step adds to the
  accumulator at column `j` the sum over the tile's 2000 rows of that same clamped affine form (with the second layer's
  weights); its first payload is the zero row and its last one the accumulator times the reciprocal of the row count,
  1/100000. The format changes inside the payloads are the identity on extended reals, and the zero word denotes `0`.
-/
import proofs.«128947_j1451698946529_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.Pay

open Cert.KernelIdeal Cert.KernelIdeal.Gen Idealize.ShloMosaic Idealize.ShloMosaic.ValueIdx

/-! ## The two block products at an index -/

/-- The left operand's index at output index `i` and contraction index `q`: row `i 0` … -/
theorem lhs0_0 (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide), dif_pos (show (0 : Fin S2000x384.rank) ∈ dot_S2000x384_S384x128_S2000x128_1_0_0_1_n_n.lhsNonContracting by decide)]
  rfl
/-- … and column the contraction coordinate. -/
theorem lhs0_1 (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
/-- The right operand's index: row the contraction coordinate … -/
theorem rhs0_0 (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
/-- … and column `i 1`. -/
theorem rhs0_1 (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide), dif_pos (show (1 : Fin S384x128.rank) ∈ dot_S2000x384_S384x128_S2000x128_1_0_0_1_n_n.rhsNonContracting by decide)]
  rfl

/-- The block product into the zero splat, read at `(r, j)`: the sum over the 384 contraction coordinates of the
    operands' products. -/
theorem matmul0_apply (x : FVec Ideal S2000x384 .bf16) (w : FVec Ideal S384x128 .bf16) (r : Fin 2000) (j : Fin 128) :
    matmul dot_S2000x384_S384x128_S2000x128_1_0_0_1_n_n none x w (constant (F := Ideal) S2000x128 .f32 0x00000000#32) (ix2 r j)
      = ∑ k : Fin 384, x (ix2 r k) * w (ix2 k j) := by
  simp only [matmul]
  rw [Ideal.matmul_constant_zero_apply, ← Equiv.sum_comp (contrEquiv1 dot_S2000x384_S384x128_S2000x128_1_0_0_1_n_n 384 rfl rfl).symm]
  refine Finset.sum_congr rfl fun k _ => ?_
  have hk := contrEquiv1_symm_val dot_S2000x384_S384x128_S2000x128_1_0_0_1_n_n 384 rfl rfl k
  have el : dot_S2000x384_S384x128_S2000x128_1_0_0_1_n_n.lhsIdx (ix2 r j) ((contrEquiv1 dot_S2000x384_S384x128_S2000x128_1_0_0_1_n_n 384 rfl rfl).symm k) = ix2 r k := funext fun a => Fin.ext (by
    match a with
    | ⟨0, _⟩ => exact lhs0_0 _ _
    | ⟨1, _⟩ => exact (lhs0_1 _ _).trans hk)
  have er : dot_S2000x384_S384x128_S2000x128_1_0_0_1_n_n.rhsIdx (ix2 r j) ((contrEquiv1 dot_S2000x384_S384x128_S2000x128_1_0_0_1_n_n 384 rfl rfl).symm k) = ix2 k j := funext fun a => Fin.ext (by
    match a with
    | ⟨0, _⟩ => exact (rhs0_0 _ _).trans hk
    | ⟨1, _⟩ => exact rhs0_1 _ _)
  rw [el, er]

/-- The left operand's index at output index `i` and contraction index `q`: row `i 0` … -/
theorem lhs1_0 (i : S2000x40.Idx) (q : dot_S2000x384_S384x40_S2000x40_1_0_0_1_n_n.contr.Idx) :
    (dot_S2000x384_S384x40_S2000x40_1_0_0_1_n_n.lhsIdx i q 0).val = (i 0).val := by
  unfold DotDims.lhsIdx
  rw [dif_neg (show ¬(0 : Fin S2000x384.rank) ∈ dot_S2000x384_S384x40_S2000x40_1_0_0_1_n_n.lhsBatch by decide), dif_pos (show (0 : Fin S2000x384.rank) ∈ dot_S2000x384_S384x40_S2000x40_1_0_0_1_n_n.lhsNonContracting by decide)]
  rfl
/-- … and column the contraction coordinate. -/
theorem lhs1_1 (i : S2000x40.Idx) (q : dot_S2000x384_S384x40_S2000x40_1_0_0_1_n_n.contr.Idx) :
    (dot_S2000x384_S384x40_S2000x40_1_0_0_1_n_n.lhsIdx i q 1).val = (q ⟨0, by decide⟩).val :=
  dot_S2000x384_S384x40_S2000x40_1_0_0_1_n_n.lhsIdx_val_of_single rfl i q
/-- The right operand's index: row the contraction coordinate … -/
theorem rhs1_0 (i : S2000x40.Idx) (q : dot_S2000x384_S384x40_S2000x40_1_0_0_1_n_n.contr.Idx) :
    (dot_S2000x384_S384x40_S2000x40_1_0_0_1_n_n.rhsIdx i q 0).val = (q ⟨0, by decide⟩).val :=
  dot_S2000x384_S384x40_S2000x40_1_0_0_1_n_n.rhsIdx_val_of_single rfl i q
/-- … and column `i 1`. -/
theorem rhs1_1 (i : S2000x40.Idx) (q : dot_S2000x384_S384x40_S2000x40_1_0_0_1_n_n.contr.Idx) :
    (dot_S2000x384_S384x40_S2000x40_1_0_0_1_n_n.rhsIdx i q 1).val = (i 1).val := by
  unfold DotDims.rhsIdx
  rw [dif_neg (show ¬(1 : Fin S384x40.rank) ∈ dot_S2000x384_S384x40_S2000x40_1_0_0_1_n_n.rhsBatch by decide), dif_pos (show (1 : Fin S384x40.rank) ∈ dot_S2000x384_S384x40_S2000x40_1_0_0_1_n_n.rhsNonContracting by decide)]
  rfl

/-- The block product into the zero splat, read at `(r, j)`: the sum over the 384 contraction coordinates of the
    operands' products. -/
theorem matmul1_apply (x : FVec Ideal S2000x384 .bf16) (w : FVec Ideal S384x40 .bf16) (r : Fin 2000) (j : Fin 40) :
    matmul dot_S2000x384_S384x40_S2000x40_1_0_0_1_n_n none x w (constant (F := Ideal) S2000x40 .f32 0x00000000#32) (ix2 r j)
      = ∑ k : Fin 384, x (ix2 r k) * w (ix2 k j) := by
  simp only [matmul]
  rw [Ideal.matmul_constant_zero_apply, ← Equiv.sum_comp (contrEquiv1 dot_S2000x384_S384x40_S2000x40_1_0_0_1_n_n 384 rfl rfl).symm]
  refine Finset.sum_congr rfl fun k _ => ?_
  have hk := contrEquiv1_symm_val dot_S2000x384_S384x40_S2000x40_1_0_0_1_n_n 384 rfl rfl k
  have el : dot_S2000x384_S384x40_S2000x40_1_0_0_1_n_n.lhsIdx (ix2 r j) ((contrEquiv1 dot_S2000x384_S384x40_S2000x40_1_0_0_1_n_n 384 rfl rfl).symm k) = ix2 r k := funext fun a => Fin.ext (by
    match a with
    | ⟨0, _⟩ => exact lhs1_0 _ _
    | ⟨1, _⟩ => exact (lhs1_1 _ _).trans hk)
  have er : dot_S2000x384_S384x40_S2000x40_1_0_0_1_n_n.rhsIdx (ix2 r j) ((contrEquiv1 dot_S2000x384_S384x40_S2000x40_1_0_0_1_n_n 384 rfl rfl).symm k) = ix2 k j := funext fun a => Fin.ext (by
    match a with
    | ⟨0, _⟩ => exact (rhs1_0 _ _).trans hk
    | ⟨1, _⟩ => exact rhs1_1 _ _)
  rw [el, er]

/-! ## The first kernel's payload -/

/-- The first dense layer's tile at `(r, j)`. -/
theorem pay0_apply (x : Vec Ideal S2000x384 .f32) (w : Vec Ideal S384x128 .f32) (b : Vec Ideal S1x128 .f32) (r : Fin 2000) (j : Fin 128) :
    k0_pay1 (F := Ideal) x w b (ix2 r j) = max ((∑ k : Fin 384, x (ix2 r k) * w (ix2 k j)) + b (ix2 0 j)) (0 : EReal) := by
  unfold k0_pay1
  rw [maximumf_apply, addf_apply, broadcast_apply, matmul0_apply, broadcastTo_1b_ab_apply, shapeCast_self, shapeCast_self]
  simp only [truncf_apply]
  rw [show (Scalar.ofBits (F := Ideal) .f32 0x00000000#32 : EReal) = 0 from Ideal.ofBits_zero_f32]

/-! ## The second kernel's payloads -/

/-- The sum over a tile's 2000 rows, read at column `j`. -/
theorem rowsum_apply (v : FVec Ideal S2000x40 .f32) (hφ : FKind.Formats .f32)
    (hacc : (0x00000000#32 : BitVec 32) = 0x00000000#32) (j : Fin 40) :
    multiReduction .add [0] S40 v 0x00000000#32 reduces_S2000x40_S40 hφ hacc (ix1 j) = ∑ r : Fin 2000, v (ix2 r j) := by
  refine (Ideal.multiReduction_add_single v 0x00000000#32 reduces_S2000x40_S40 hφ hacc (ix1 j)).trans ?_
  refine Finset.sum_congr rfl fun r _ => congrArg v ?_
  funext a
  match a with
  | ⟨0, _⟩ => rfl
  | ⟨1, _⟩ => rfl

/-- The accumulator's first contents: the zero row. -/
theorem pay1_zero (j : Fin 40) : k1_pay1 (F := Ideal) (ix2 0 j) = (0 : EReal) := by
  unfold k1_pay1
  rw [shapeCast_self, broadcast_apply]
  exact Ideal.ofBits_zero_f32

/-- The accumulator step at column `j`: the accumulator there plus the sum over the tile's rows of the second layer's
    clamped affine form. -/
theorem pay2_apply (x : Vec Ideal S2000x384 .f32) (w : Vec Ideal S384x40 .f32) (b s : Vec Ideal S1x40 .f32) (j : Fin 40) :
    k1_pay2 (F := Ideal) x w b s (ix2 0 j)
      = s (ix2 0 j) + ∑ r : Fin 2000, max ((∑ k : Fin 384, x (ix2 r k) * w (ix2 k j)) + b (ix2 0 j)) (0 : EReal) := by
  unfold k1_pay2
  rw [shapeCast_self, addf_apply, shapeCast_a_1a_apply]
  refine congrArg (s (ix2 0 j) + ·) ?_
  refine (rowsum_apply _ _ _ j).trans ?_
  refine Finset.sum_congr rfl fun r _ => ?_
  rw [maximumf_apply, addf_apply, broadcast_apply, matmul1_apply, broadcastTo_1b_ab_apply, shapeCast_self, shapeCast_self]
  simp only [truncf_apply]
  rw [show (Scalar.ofBits (F := Ideal) .f32 0x00000000#32 : EReal) = 0 from Ideal.ofBits_zero_f32]

/-- The named reciprocal of the row count denotes the rational 1/100000. -/
theorem inv_rows : Named.named (F := Ideal) Cert.KernelIdeal.κ "inv_100000" (φ := .f32) 0x3727C5AC#32 = ((1 / 100000 : ℝ) : EReal) :=
  IdealRules.named_const.ideal_named_scalar _ _ _ _ rfl

/-- The last payload: the accumulator times 1/100000. -/
theorem pay3_apply (s : Vec Ideal S1x40 .f32) (j : Fin 40) :
    k1_pay3 (F := Ideal) s (ix2 0 j) = s (ix2 0 j) * ((1 / 100000 : ℝ) : EReal) := by
  unfold k1_pay3
  rw [mulf_apply, broadcast_apply, inv_rows]

end Cert.KernelIdeal.Pay

end
-- ==== Proof.IdealVal0.lean ====
/-
  From blocks to the array, for the first dense layer's region: the output array after the region, as one function of the
  three arrays the region reads, index by index.

  The region's grid has 50 points. Point `t` reads rows `2000·t … 2000·t + 1999` of the features, the whole weight matrix
  and the whole bias row, and writes back the output tile of the same rows. The tile holds `max (x · w + b) 0`, so the
  element at row `r`, column `j` of the tile is the value of `layer1` at row `2000·t + r`, column `j`: each point writes
  back its block of `layer1` of the three arrays. Row `r` of the array lies in the block of point `r / 2000`, so the blocks
  cover the array, and it ends holding `layer1`.
-/
import proofs.«128947_j1451698946529_1_alg».proof.Proof.IdealR0
import proofs.«128947_j1451698946529_1_alg».proof.Proof.IdealPay
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access. -/
theorem zeros2 : (![0, 0] : Fin 2 → Nat) = fun _ => 0 := funext fun a => by fin_cases a <;> rfl

/-- The first dense layer on whole arrays: at row `i 0` and column `i 1`, the sum over the 384 features of
    `X (i 0) k * W k (i 1)`, plus the bias at `i 1`, clamped below at zero. -/
def layer1 (X : Vec Ideal S100000x384 .f32) (W : Vec Ideal S384x128 .f32) (B : Vec Ideal S1x128 .f32) : Vec Ideal S100000x128 .f32 :=
  fun i => max ((∑ k : Fin 384, X (ix2 ⟨(i 0).val, (i 0).isLt⟩ k) * W (ix2 k ⟨(i 1).val, (i 1).isLt⟩)) + B (ix2 0 ⟨(i 1).val, (i 1).isLt⟩)) (0 : EReal)

/-- The tile at any index of it, the index split into its row and column. -/
theorem tile_apply (x : Vec Ideal S2000x384 .f32) (w : Vec Ideal S384x128 .f32) (b : Vec Ideal S1x128 .f32) (y : S2000x128.Idx) :
    k0_pay1 (F := Ideal) x w b y
      = max ((∑ k : Fin 384, x (ix2 ⟨(y 0).val, (y 0).isLt⟩ k) * w (ix2 k ⟨(y 1).val, (y 1).isLt⟩)) + b (ix2 0 ⟨(y 1).val, (y 1).isLt⟩)) (0 : EReal) := by
  have e : y = ix2 (⟨(y 0).val, (y 0).isLt⟩ : Fin 2000) (⟨(y 1).val, (y 1).isLt⟩ : Fin 128) := by
    funext a; match a with | ⟨0, _⟩ => rfl | ⟨1, _⟩ => rfl
  exact (congrArg (k0_pay1 (F := Ideal) x w b) e).trans (Pay.pay0_apply x w b _ _)

/-- The printed index maps, decided over the grid: the feature tile and the output tile are at block row `t`, block column
    0; the weight and bias windows never move. -/
theorem idx_facts43 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point `t` is rows `2000·t … 2000·t + 1999` of the features. -/
theorem rows_apply (c : Dev nD) (t : Fin cfg0.N) (x : S2000x384.Idx) (k : S100000x384.Idx)
    (hk0 : (k 0).val = 2000 * t.val + (x 0).val) (hk1 : (k 1).val = (x 1).val) :
    (iblk0 V c 0 t : Vec Ideal S2000x384 .f32) x = (V c main_v41 : S100000x384.Idx → Elt Ideal .f32) k := by
  obtain ⟨e0, e1, -⟩ := idx_facts43 t
  unfold iblk0
  rw [View.read_apply]
  show V c main_v41 _ = V c main_v41 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 384 + 1 * (x 1).val = (k 1).val; rw [e1, hk1]; omega

/-- The weight window's block at every point is the weight matrix. -/
theorem weights_apply (c : Dev nD) (t : Fin cfg0.N) (x : S384x128.Idx) :
    (iblk0 V c 1 t : Vec Ideal S384x128 .f32) x = (V c main_arg3 : S384x128.Idx → Elt Ideal .f32) x := by
  obtain ⟨-, -, e0, e1, -⟩ := idx_facts43 t
  unfold iblk0
  rw [View.read_apply]
  show V c main_arg3 _ = V c main_arg3 _
  congr 1
  funext a
  apply Fin.ext
  match a with
  | ⟨0, _⟩ => show win0_1.index t (0 : Fin 2) * 384 + 1 * (x 0).val = (x 0).val; rw [e0]; omega
  | ⟨1, _⟩ => show win0_1.index t (1 : Fin 2) * 128 + 1 * (x 1).val = (x 1).val; rw [e1]; omega

/-- The bias window's block at every point is the bias row. -/
theorem bias_apply (c : Dev nD) (t : Fin cfg0.N) (x : S1x128.Idx) :
    (iblk0 V c 2 t : Vec Ideal S1x128 .f32) x = (V c main_v42 : S1x128.Idx → Elt Ideal .f32) x := by
  obtain ⟨-, -, -, -, e0, e1, -⟩ := idx_facts43 t
  unfold iblk0
  rw [View.read_apply]
  show V c main_v42 _ = V c main_v42 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- The tile of point `t` at row `y 0`, column `y 1` is `layer1` of the three arrays at row `2000·t + y 0`, column `y 1`. -/
theorem tile_eq_layer1 (c : Dev nD) (t : Fin cfg0.N) (y : S2000x128.Idx) (i : S100000x128.Idx)
    (hi0 : (i 0).val = 2000 * t.val + (y 0).val) (hi1 : (i 1).val = (y 1).val) :
    k0_pay1 (F := Ideal) (iblk0 V c 0 t) (iblk0 V c 1 t) (iblk0 V c 2 t) y
      = layer1 (V c main_v41) (V c main_arg3) (V c main_v42) i := by
  rw [tile_apply]
  unfold layer1
  have hj : (⟨(y 1).val, (y 1).isLt⟩ : Fin 128) = ⟨(i 1).val, (i 1).isLt⟩ := Fin.ext hi1.symm
  rw [hj]
  have eX : ∀ k : Fin 384, (iblk0 V c 0 t : Vec Ideal S2000x384 .f32) (ix2 (⟨(y 0).val, (y 0).isLt⟩ : Fin 2000) k)
      = (V c main_v41 : S100000x384.Idx → Elt Ideal .f32) (ix2 (⟨(i 0).val, (i 0).isLt⟩ : Fin 100000) k) :=
    fun k => rows_apply V c t _ _ hi0 rfl
  have eW : ∀ k : Fin 384, (iblk0 V c 1 t : Vec Ideal S384x128 .f32) (ix2 k (⟨(i 1).val, (i 1).isLt⟩ : Fin 128))
      = (V c main_arg3 : S384x128.Idx → Elt Ideal .f32) (ix2 k (⟨(i 1).val, (i 1).isLt⟩ : Fin 128)) :=
    fun k => weights_apply V c t _
  have eB : (iblk0 V c 2 t : Vec Ideal S1x128 .f32) (ix2 (0 : Fin 1) (⟨(i 1).val, (i 1).isLt⟩ : Fin 128))
      = (V c main_v42 : S1x128.Idx → Elt Ideal .f32) (ix2 (0 : Fin 1) (⟨(i 1).val, (i 1).isLt⟩ : Fin 128)) :=
    bias_apply V c t _
  rw [eB]
  refine congrArg (fun s => max (s + _) (0 : EReal)) ?_
  exact Finset.sum_congr rfl fun k _ => by rw [eX k, eW k]

/-- WHAT POINT `t` WRITES BACK is block `t` of `layer1` of the three arrays as the region finds them. -/
theorem flushed43_eq (c : Dev nD) (t : Fin cfg0.N) :
    (dat0 (F := Ideal) V c).flushed 3 t
      = ((cfg0.win 3).blk t).view.read (Elt Ideal) (layer1 (V c main_v41) (V c main_arg3) (V c main_v42)) := by
  show (cfg0.win 3).cut (grid0.coords t) ((dat0 (F := Ideal) V c).after 3 t) = _
  rw [after0_3]
  unfold out0_3
  rw [View.canon_unit_zero zeros2]
  simp only [View.ld_unit_zero (S := S2000x384) zeros2, View.ld_unit_zero (S := S384x128) zeros2, View.ld_unit_zero (S := S1x128) zeros2]
  obtain ⟨-, -, -, -, -, -, e0, e1⟩ := idx_facts43 t
  funext j
  show k0_pay1 (F := Ideal) (iblk0 V c 0 t) (iblk0 V c 1 t) (iblk0 V c 2 t) ((cfg0.win 3).xinj (grid0.coords t) j)
    = layer1 (V c main_v41) (V c main_arg3) (V c main_v42) (((cfg0.win 3).blk t).view.emb j)
  refine tile_eq_layer1 V c t _ _ ?_ ?_
  · show win0_3.index t (0 : Fin 2) * 2000 + 1 * (j 0).val = 2000 * t.val + (j 0).val
    rw [e0]; omega
  · show win0_3.index t (1 : Fin 2) * 128 + 1 * (j 1).val = (j 1).val
    rw [e1]; omega

/-- An index of the array is in point `t`'s block iff each coordinate is in the block's range on its axis. -/
theorem mem_blk43 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v43).slice (win0_3.rect t)).set ↔ _
  rw [View.set_slice_whole, Rect.mem_set_unit]
  exact Iff.rfl

/-- Every index of the array is in the block of the point its row selects: row `r` is in block `r / 2000`. -/
theorem cover43 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := rfl
  refine ⟨⟨(i 0).val / 2000, by rw [hN]; omega⟩, flush0_3 _, ?_⟩
  rw [mem_blk43]
  obtain ⟨-, -, -, -, -, -, e0, e1⟩ := idx_facts43 ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e1]; omega

/-- THE ARRAY after the region: `layer1` of the three arrays the region reads. -/
theorem final43 (c : Dev nD) :
    (dat0 (F := Ideal) V c).arrAt 3 cfg0.N = layer1 (V c main_v41) (V c main_arg3) (V c main_v42) :=
  (dat0 (F := Ideal) V c).arrAt_eq_of_cover 3 (layer1 (V c main_v41) (V c main_arg3) (V c main_v42))
    (fun t _ => flushed43_eq V c t) cover43

end Cert.KernelIdeal.Val

end
-- ==== Proof.MeanLaw.lean ====
/-
  The algebra that joins the tiled mean to the whole one, over the extended reals.

  A sum over 100000 rows is the sum over 50 tiles of the sums over each tile's 2000 rows (row `2000 t + r` is row `r` of
  tile `t`); an accumulator that starts at zero and adds one tile's sum per step holds, after the last step, the sum of
  all the tiles' sums; and the product with the reciprocal 1/100000 is the quotient by 100000, at the infinities too.
  The extended reals are an additive commutative monoid, so no finiteness is asked of the summands.
-/
import Idealize.ShloMosaic.PureOps.Ideal

noncomputable section

open scoped BigOperators

namespace Cert.MeanLaw

open Idealize.ShloMosaic

/-- The rows of 50 tiles of 2000 rows are the 100000 rows. -/
theorem sum_tiles {M : Type*} [AddCommMonoid M] (f : Fin 100000 → M) :
    (∑ t : Fin 50, ∑ r : Fin 2000, f ⟨2000 * t.val + r.val, by omega⟩) = ∑ i : Fin 100000, f i := by
  rw [← Equiv.sum_comp (finProdFinEquiv : Fin 50 × Fin 2000 ≃ Fin 100000) f, Fintype.sum_prod_type]
  refine Finset.sum_congr rfl fun t _ => Finset.sum_congr rfl fun r _ => congrArg f (Fin.ext ?_)
  show 2000 * t.val + r.val = r.val + 2000 * t.val
  omega

/-- An accumulator that adds `g n` at step `n`, from `g 0`, holds after step `n` the sum of the first `n + 1` terms. -/
theorem accumulate_le {M : Type*} [AddCommMonoid M] {N : ℕ} (g : Fin (N + 1) → M) (a : ℕ → M)
    (h0 : a 0 = g 0)
    (hs : ∀ n (h : n + 1 < N + 1), a (n + 1) = a n + g ⟨n + 1, h⟩) :
    ∀ n (h : n < N + 1), a n = ∑ t : Fin (n + 1), g ⟨t.val, by omega⟩ := by
  intro n
  induction n with
  | zero =>
    intro h
    rw [h0, Fin.sum_univ_one]
    rfl
  | succ n ih =>
    intro h
    rw [hs n h, ih (by omega), Fin.sum_univ_castSucc (n := n + 1)]
    rfl

/-- So after the last step it holds the whole sum. -/
theorem accumulate' {M : Type*} [AddCommMonoid M] {N : ℕ} (g : Fin (N + 1) → M) (a : ℕ → M)
    (h0 : a 0 = g 0)
    (hs : ∀ n (h : n + 1 < N + 1), a (n + 1) = a n + g ⟨n + 1, h⟩) :
    a N = ∑ t : Fin (N + 1), g t :=
  (accumulate_le g a h0 hs N (Nat.lt_succ_self N)).trans (Finset.sum_congr rfl fun t _ => congrArg g (Fin.ext rfl))

/-- The accumulator as the kernel runs it over its 50 tiles: zeroed and stepped at tile 0 (`0 + g 0`), stepped at
    every later tile, each step adding the tile's sum. -/
theorem accumulate (g : Fin 50 → EReal) (a : ℕ → EReal)
    (h0 : a 0 = 0 + g 0)
    (hs : ∀ n (h : n + 1 < 50), a (n + 1) = a n + g ⟨n + 1, h⟩) :
    a 49 = ∑ t : Fin 50, g t :=
  accumulate' (N := 49) g a (h0.trans (zero_add _)) hs

/-- The same with each tile's sum written from its initial value `0`, as a reduction that starts at zero spells it. -/
theorem accumulate_init (g : Fin 50 → EReal) (a : ℕ → EReal)
    (h0 : a 0 = 0 + (0 + g 0))
    (hs : ∀ n (h : n + 1 < 50), a (n + 1) = a n + (0 + g ⟨n + 1, h⟩)) :
    a 49 = ∑ t : Fin 50, g t :=
  accumulate g a (by rw [h0, zero_add]) (fun n h => by rw [hs n h, zero_add])

/-- The product with 1/100000 is the ideal quotient by 100000, on every extended real. -/
theorem mul_inv_eq_div (x : EReal) : x * ((1 / 100000 : ℝ) : EReal) = Ideal.div x ((100000 : ℝ) : EReal) :=
  (Ideal.div_coe (by norm_num : (100000 : ℝ) ≠ 0) x).symm

/-- The word `0x47C35000` denotes the real 100000. -/
theorem ofBits_100000 : Ideal.ofBits .f32 0x47C35000#32 = ((100000 : ℝ) : EReal) := by
  simp [Ideal.ofBits, Ideal.ieee, -EReal.coe_mul]; norm_num

/-- The mean as the kernel takes it is the mean as the reference takes it. -/
theorem mul_inv_eq_div_ofBits (x : EReal) :
    x * ((1 / 100000 : ℝ) : EReal) = Ideal.div x (Ideal.ofBits .f32 0x47C35000#32) := by
  rw [ofBits_100000]; exact mul_inv_eq_div x

end Cert.MeanLaw

end
-- ==== Proof.IdealVal1.lean ====
/-
  From blocks to the array, for the mean layer's region: the output row after the region, as one function of the three
  arrays the region reads, column by column.

  The region's grid has 50 points. Point `t` reads rows `2000·t … 2000·t + 1999` of the features, the whole weight matrix
  and the whole bias row, and adds to an accumulator row, zeroed at point 0, the sum over the tile's 2000 rows of
  `max (x · w + b) 0`. After point `n` the accumulator at column `j` is therefore the sum over the first `n + 1` tiles of
  the tiles' row sums; after point 49 it is the sum over all 100000 rows, row `2000·t + r` being row `r` of tile `t`. The
  last point stores the accumulator times 1/100000 into the output block, and that point alone writes the block back; the
  block is the whole [1, 40] array, so the array ends holding `meanLayer`.
-/
import proofs.«128947_j1451698946529_1_alg».proof.Proof.IdealR1
import proofs.«128947_j1451698946529_1_alg».proof.Proof.IdealPay
import proofs.«128947_j1451698946529_1_alg».proof.Proof.MeanLaw
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- One row's term of the mean layer at column `j`: the sum over the 384 features of `X r k * W k j`, plus the bias at
    `j`, clamped below at zero. -/
def meanRow (X : Vec Ideal S100000x384 .f32) (W : Vec Ideal S384x40 .f32) (B : Vec Ideal S1x40 .f32) (j : Fin 40) (r : Fin 100000) : EReal :=
  max ((∑ k : Fin 384, X (ix2 r k) * W (ix2 k j)) + B (ix2 0 j)) (0 : EReal)

/-- The mean layer on whole arrays: at column `i 1`, the sum over the 100000 rows of the clamped affine form, times
    1/100000. -/
def meanLayer (X : Vec Ideal S100000x384 .f32) (W : Vec Ideal S384x40 .f32) (B : Vec Ideal S1x40 .f32) : Vec Ideal S1x40 .f32 :=
  fun i => (∑ r : Fin 100000, max ((∑ k : Fin 384, X (ix2 r k) * W (ix2 k ⟨(i 1).val, (i 1).isLt⟩)) + B (ix2 0 ⟨(i 1).val, (i 1).isLt⟩)) (0 : EReal)) * ((1 / 100000 : ℝ) : EReal)

/-- At column `j` it is the sum of the rows' terms, times 1/100000. -/
theorem meanLayer_apply (X : Vec Ideal S100000x384 .f32) (W : Vec Ideal S384x40 .f32) (B : Vec Ideal S1x40 .f32) (j : Fin 40) :
    meanLayer X W B (ix2 0 j) = (∑ r : Fin 100000, meanRow X W B j r) * ((1 / 100000 : ℝ) : EReal) := rfl

/-- The printed index maps, decided over the grid: the feature tile is at block row `t`, block column 0; the weight, bias
    and output windows never move. -/
theorem idx_facts78 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The feature window's block at point `t` is rows `2000·t … 2000·t + 1999` of the features. -/
theorem rows1_apply (c : Dev nD) (t : Fin cfg1.N) (x : S2000x384.Idx) (k : S100000x384.Idx)
    (hk0 : (k 0).val = 2000 * t.val + (x 0).val) (hk1 : (k 1).val = (x 1).val) :
    (iblk1 V c 0 t : Vec Ideal S2000x384 .f32) x = (V c main_v76 : S100000x384.Idx → Elt Ideal .f32) k := by
  obtain ⟨e0, e1, -⟩ := idx_facts78 t
  unfold iblk1
  rw [View.read_apply]
  show V c main_v76 _ = V c main_v76 _
  congr 1
  funext a
  apply Fin.ext
  match a with
  | ⟨0, _⟩ => show win1_0.index t (0 : Fin 2) * 2000 + 1 * (x 0).val = (k 0).val; rw [e0, hk0]; omega
  | ⟨1, _⟩ => show win1_0.index t (1 : Fin 2) * 384 + 1 * (x 1).val = (k 1).val; rw [e1, hk1]; omega

/-- The weight window's block at every point is the weight matrix. -/
theorem weights1_apply (c : Dev nD) (t : Fin cfg1.N) (x : S384x40.Idx) :
    (iblk1 V c 1 t : Vec Ideal S384x40 .f32) x = (V c main_arg5 : S384x40.Idx → Elt Ideal .f32) x := by
  obtain ⟨-, -, e0, e1, -⟩ := idx_facts78 t
  unfold iblk1
  rw [View.read_apply]
  show V c main_arg5 _ = V c main_arg5 _
  congr 1
  funext a
  apply Fin.ext
  match a with
  | ⟨0, _⟩ => show win1_1.index t (0 : Fin 2) * 384 + 1 * (x 0).val = (x 0).val; rw [e0]; omega
  | ⟨1, _⟩ => show win1_1.index t (1 : Fin 2) * 40 + 1 * (x 1).val = (x 1).val; rw [e1]; omega

/-- The bias window's block at every point is the bias row. -/
theorem bias1_apply (c : Dev nD) (t : Fin cfg1.N) (x : S1x40.Idx) :
    (iblk1 V c 2 t : Vec Ideal S1x40 .f32) x = (V c main_v77 : S1x40.Idx → Elt Ideal .f32) x := by
  obtain ⟨-, -, -, -, e0, e1, -⟩ := idx_facts78 t
  unfold iblk1
  rw [View.read_apply]
  show V c main_v77 _ = V c main_v77 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 40 + 1 * (x 1).val = (x 1).val; rw [e1]; omega

/-- The accumulator step at point `t`, column `j`, on any accumulator `s`: it adds the terms of rows
    `2000·t … 2000·t + 1999` of the three arrays. -/
theorem step_apply (c : Dev nD) (t : Fin cfg1.N) (s : Vec Ideal S1x40 .f32) (j : Fin 40) :
    k1_pay2 (F := Ideal) (iblk1 V c 0 t) (iblk1 V c 1 t) (iblk1 V c 2 t) s (ix2 0 j)
      = s (ix2 0 j) + ∑ r : Fin 2000, meanRow (V c main_v76) (V c main_arg5) (V c main_v77) j
          ⟨2000 * t.val + r.val, by have ht : t.val < 50 := t.isLt; omega⟩ := by
  rw [Pay.pay2_apply]
  refine congrArg (s (ix2 0 j) + ·) ?_
  refine Finset.sum_congr rfl fun r _ => ?_
  unfold meanRow
  have eB : (iblk1 V c 2 t : Vec Ideal S1x40 .f32) (ix2 (0 : Fin 1) j) = (V c main_v77 : S1x40.Idx → Elt Ideal .f32) (ix2 (0 : Fin 1) j) :=
    bias1_apply V c t _
  rw [eB]
  refine congrArg (fun u => max (u + _) (0 : EReal)) ?_
  refine Finset.sum_congr rfl fun k _ => ?_
  have eX : (iblk1 V c 0 t : Vec Ideal S2000x384 .f32) (ix2 r k)
      = (V c main_v76 : S100000x384.Idx → Elt Ideal .f32) (ix2 (⟨2000 * t.val + r.val, by have ht : t.val < 50 := t.isLt; omega⟩ : Fin 100000) k) :=
    rows1_apply V c t _ _ rfl rfl
  have eW : (iblk1 V c 1 t : Vec Ideal S384x40 .f32) (ix2 k j) = (V c main_arg5 : S384x40.Idx → Elt Ideal .f32) (ix2 k j) :=
    weights1_apply V c t _
  rw [eX, eW]

/-- The accumulator after the last point, at column `j`: the sum over all 100000 rows of the rows' terms. -/
theorem scratch_last (c : Dev nD) (h : 49 < cfg1.N) (j : Fin 40) :
    ((outsAt1 (F := Ideal) V c 49 h).2 : Vec Ideal S1x40 .f32) (ix2 0 j)
      = ∑ r : Fin 100000, meanRow (V c main_v76) (V c main_arg5) (V c main_v77) j r := by
  have hN : cfg1.N = 50 := rfl
  -- the accumulator at column `j` after point `n`, as a sequence over all naturals
  let a : ℕ → EReal := fun n => if hn : n < cfg1.N then ((outsAt1 (F := Ideal) V c n hn).2 : Vec Ideal S1x40 .f32) (ix2 0 j) else 0
  -- tile `t`'s sum of its rows' terms
  let g : Fin 50 → EReal := fun t => ∑ r : Fin 2000, meanRow (V c main_v76) (V c main_arg5) (V c main_v77) j ⟨2000 * t.val + r.val, by omega⟩
  have h0 : a 0 = 0 + g 0 := by
    show (if hn : 0 < cfg1.N then ((outsAt1 (F := Ideal) V c 0 hn).2 : Vec Ideal S1x40 .f32) (ix2 0 j) else 0) = 0 + g 0
    rw [dif_pos (by rw [hN]; omega : 0 < cfg1.N), scratch_first, step_apply V c ⟨0, by rw [hN]; omega⟩, Pay.pay1_zero]
    rfl
  have hs : ∀ n (hn : n + 1 < 50), a (n + 1) = a n + g ⟨n + 1, hn⟩ := fun n hn => by
    show (if hn' : n + 1 < cfg1.N then ((outsAt1 (F := Ideal) V c (n + 1) hn').2 : Vec Ideal S1x40 .f32) (ix2 0 j) else 0)
      = (if hn' : n < cfg1.N then ((outsAt1 (F := Ideal) V c n hn').2 : Vec Ideal S1x40 .f32) (ix2 0 j) else 0) + g ⟨n + 1, hn⟩
    rw [dif_pos (by rw [hN]; omega : n + 1 < cfg1.N), dif_pos (by rw [hN]; omega : n < cfg1.N), scratch_next,
      step_apply V c ⟨n + 1, by rw [hN]; omega⟩]
  have hlast := Cert.MeanLaw.accumulate g a h0 hs
  have ha : a 49 = ((outsAt1 (F := Ideal) V c 49 h).2 : Vec Ideal S1x40 .f32) (ix2 0 j) := dif_pos h
  rw [← ha, hlast]
  exact Cert.MeanLaw.sum_tiles (meanRow (V c main_v76) (V c main_arg5) (V c main_v77) j)

/-- What the output's staging buffer holds after the last point is `meanLayer` of the three arrays. -/
theorem after_last78 (c : Dev nD) (h : 49 < cfg1.N) :
    (outsAt1 (F := Ideal) V c 49 h).1 = meanLayer (V c main_v76) (V c main_arg5) (V c main_v77) := by
  funext i
  obtain ⟨j, rfl⟩ : ∃ j : Fin 40, i = ix2 (0 : Fin 1) j :=
    ⟨⟨(i 1).val, (i 1).isLt⟩, funext fun a => by
      match a with
      | ⟨0, _⟩ => exact Fin.ext (by have hi : (i 0).val < 1 := (i 0).isLt; show (i 0).val = 0; omega)
      | ⟨1, _⟩ => rfl⟩
  rw [out_last, Pay.pay3_apply, scratch_last V c h j, meanLayer_apply]

/-- The one write-back, at point 49, writes `meanLayer`: block (0, 0) of the [1, 40] array read through zero offsets is
    the array. -/
theorem flushed78_eq (c : Dev nD) (t : Fin cfg1.N) (hf : (cfg1.win 3).flush t = true) :
    (dat1 (F := Ideal) V c).flushed 3 t
      = ((cfg1.win 3).blk t).view.read (Elt Ideal) (meanLayer (V c main_v76) (V c main_arg5) (V c main_v77)) := by
  have hN : cfg1.N = 50 := rfl
  have h49 : t.val = 49 := by have := (flush1_3 t).mp hf; have ht : t.val < 50 := t.isLt; omega
  obtain ⟨-, -, -, -, -, -, e0, e1⟩ := idx_facts78 t
  show (cfg1.win 3).cut (grid1.coords t) ((dat1 (F := Ideal) V c).after 3 t) = _
  rw [after1_3]
  have hl : (outsAt1 (F := Ideal) V c t.val t.isLt).1 = meanLayer (V c main_v76) (V c main_arg5) (V c main_v77) := by
    have key : ∀ (n : ℕ) (hn : n < cfg1.N), n = 49 → (outsAt1 (F := Ideal) V c n hn).1 = meanLayer (V c main_v76) (V c main_arg5) (V c main_v77) := by
      intro n hn e; subst e; exact after_last78 V c hn
    exact key t.val t.isLt h49
  rw [hl]
  have hz : (fun a => win1_3.index t a * main_v78.ty.shape.size a) = fun _ => 0 := funext fun a => by
    match a with
    | ⟨0, _⟩ => show win1_3.index t (0 : Fin 2) * 1 = 0; rw [e0]
    | ⟨1, _⟩ => show win1_3.index t (1 : Fin 2) * 40 = 0; rw [e1]
  exact (Memref.read_access_unit_zero (Elt Ideal) main_v78 hz (fun a => by rw [congrFun hz a]; simp) (meanLayer (V c main_v76) (V c main_arg5) (V c main_v77))).symm

/-- An index of the array is in point `t`'s block iff each coordinate is in the block's range on its axis. -/
theorem mem_blk78 (t : Fin cfg1.N) (i : S1x40.Idx) :
    i ∈ ((cfg1.win 3).blk t).view.set ↔ ∀ a : Fin 2, win1_3.index t a * S1x40.size a ≤ (i a).val ∧ (i a).val < win1_3.index t a * S1x40.size a + S1x40.size a := by
  show i ∈ ((View.whole main_v78).slice (win1_3.rect t)).set ↔ _
  rw [View.set_slice_whole, Rect.mem_set_unit]
  exact Iff.rfl

/-- Every index of the array is in the block of the last point, the one point that writes back. -/
theorem cover78 (i : S1x40.Idx) :
    ∃ t : Fin cfg1.N, (cfg1.win 3).flush t = true ∧ i ∈ ((cfg1.win 3).blk t).view.set := by
  have hi0 : (i 0).val < 1 := (i 0).isLt
  have hi1 : (i 1).val < 40 := (i 1).isLt
  have hN : cfg1.N = 50 := rfl
  refine ⟨⟨49, by rw [hN]; omega⟩, (flush1_3 _).mpr rfl, ?_⟩
  rw [mem_blk78]
  obtain ⟨-, -, -, -, -, -, e0, e1⟩ := idx_facts78 ⟨49, by rw [hN]; omega⟩
  intro a
  match a with
  | ⟨0, _⟩ =>
    show win1_3.index _ (0 : Fin 2) * 1 ≤ (i 0).val ∧ (i 0).val < win1_3.index _ (0 : Fin 2) * 1 + 1
    rw [e0]; omega
  | ⟨1, _⟩ =>
    show win1_3.index _ (1 : Fin 2) * 40 ≤ (i 1).val ∧ (i 1).val < win1_3.index _ (1 : Fin 2) * 40 + 40
    rw [e1]; omega

/-- THE ARRAY after the region: `meanLayer` of the three arrays the region reads. -/
theorem final78 (c : Dev nD) :
    (dat1 (F := Ideal) V c).arrAt 3 cfg1.N = meanLayer (V c main_v76) (V c main_arg5) (V c main_v77) :=
  (dat1 (F := Ideal) V c).arrAt_eq_of_cover 3 (meanLayer (V c main_v76) (V c main_arg5) (V c main_v77))
    (flushed78_eq V c) cover78

end Cert.KernelIdeal.Val

end
-- ==== Proof.IdealBias.lean ====
/-
  A bias vector reshaped to one row, read at an index: the row's entry at column `j` is the vector's entry at `j`.
-/
import proofs.«128947_j1451698946529_1_alg».proof.Proof.Gen.KernelIdeal
import Idealize.ShloMosaic.Lib.ValueIdx
import Idealize.ShloMosaic.Lib.ValueLayout

noncomputable section

namespace Cert.KernelIdeal.Pay

open Cert.KernelIdeal Cert.KernelIdeal.Gen Idealize.ShloMosaic Idealize.ShloMosaic.ValueIdx

/-- The first layer's bias as a `1 × 128` row, at column `j`. -/
theorem bias128_apply {α : Type} (b : S128.Idx → α) (h : S128.ShapeCasts S1x128) (j : Fin 128) :
    shapeCast S1x128 b h (ix2 (0 : Fin 1) j) = b (ix1 j) :=
  shapeCast_a_1a_apply b h 0 j

/-- The second layer's bias as a `1 × 40` row, at column `j`. -/
theorem bias40_apply {α : Type} (b : S40.Idx → α) (h : S40.ShapeCasts S1x40) (j : Fin 40) :
    shapeCast S1x40 b h (ix2 (0 : Fin 1) j) = b (ix1 j) :=
  shapeCast_a_1a_apply b h 0 j

/-- The same at the extended reals, with the shape facts the program cites. -/
theorem bias128_ideal (b : Vec Ideal S128 .f32) (j : Fin 128) :
    shapeCast S1x128 b shapeCasts_S128_S1x128 (ix2 (0 : Fin 1) j) = b (ix1 j) :=
  bias128_apply b _ j

theorem bias40_ideal (b : Vec Ideal S40 .f32) (j : Fin 40) :
    shapeCast S1x40 b shapeCasts_S40_S1x40 (ix2 (0 : Fin 1) j) = b (ix1 j) :=
  bias40_apply b _ j

end Cert.KernelIdeal.Pay

end
-- ==== Proof.RefStages.lean ====
/-
  The reference's two dense layers read at an index, over the extended reals.

  The first layer at row `r` and column `j` is the sum over the 384 concatenated features of feature times weight, plus
  the bias at `j`, clamped below at zero. The result at column `j` is the sum over all 100000 rows (from the initial
  value zero) of the second layer's clamped affine form, divided by 100000.
-/
import proofs.«128947_j1451698946529_1_alg».proof.Proof.RefReadP

set_option maxRecDepth 16384

noncomputable section

namespace Cert.ReferenceIdeal.Stages

open Cert.ReferenceIdeal Cert.ReferenceIdeal.Gen Idealize.ShloMosaic Idealize.ShloMosaic.ValueIdx

/-! ## The stages' index maps at coordinates -/

theorem lidx42 (r : Fin 100000) (j : Fin 128) (k : Fin 384) : ReadP.lidx_main_v42 (ix2 r j) k = ix2 r k :=
  funext fun a => Fin.ext (by match a with | ⟨0, _⟩ => rfl | ⟨1, _⟩ => rfl)
theorem ridx42 (r : Fin 100000) (j : Fin 128) (k : Fin 384) : ReadP.ridx_main_v42 (ix2 r j) k = ix2 k j :=
  funext fun a => Fin.ext (by match a with | ⟨0, _⟩ => rfl | ⟨1, _⟩ => rfl)
theorem idx44 (r : Fin 100000) (j : Fin 128) : ReadP.idx_main_v44 (ix2 r j) = ix2 (0 : Fin 1) j :=
  funext fun a => Fin.ext (by match a with | ⟨0, _⟩ => rfl | ⟨1, _⟩ => rfl)
theorem idx43 (j : Fin 128) : ReadP.idx_main_v43 (ix2 (0 : Fin 1) j) = ix1 j :=
  funext fun a => Fin.ext (by match a with | ⟨0, _⟩ => rfl)
theorem lidx80 (r : Fin 100000) (j : Fin 40) (k : Fin 384) : ReadP.lidx_main_v80 (ix2 r j) k = ix2 r k :=
  funext fun a => Fin.ext (by match a with | ⟨0, _⟩ => rfl | ⟨1, _⟩ => rfl)
theorem ridx80 (r : Fin 100000) (j : Fin 40) (k : Fin 384) : ReadP.ridx_main_v80 (ix2 r j) k = ix2 k j :=
  funext fun a => Fin.ext (by match a with | ⟨0, _⟩ => rfl | ⟨1, _⟩ => rfl)
theorem idx82 (r : Fin 100000) (j : Fin 40) : ReadP.idx_main_v82 (ix2 r j) = ix2 (0 : Fin 1) j :=
  funext fun a => Fin.ext (by match a with | ⟨0, _⟩ => rfl | ⟨1, _⟩ => rfl)
theorem idx81 (j : Fin 40) : ReadP.idx_main_v81 (ix2 (0 : Fin 1) j) = ix1 j :=
  funext fun a => Fin.ext (by match a with | ⟨0, _⟩ => rfl)
theorem idx86 (j : Fin 40) : ReadP.idx_main_v86 (ix2 (0 : Fin 1) j) = ix1 j :=
  funext fun a => Fin.ext (by match a with | ⟨0, _⟩ => rfl)
theorem idx85 (j : Fin 40) (r : Fin 100000) : ReadP.idx_main_v85 (ix1 j) r = ix2 r j :=
  funext fun a => Fin.ext (by match a with | ⟨0, _⟩ => rfl | ⟨1, _⟩ => rfl)

/-! ## The first dense layer -/

/-- The first layer at `(r, j)`. -/
theorem layer1_apply (x0 : (⟨S100000x128, .f32⟩ : BufTy).Contents (Elt Ideal)) (x1 x2 : (⟨S1600000, .i32⟩ : BufTy).Contents (Elt Ideal)) (x3 : (⟨S384x128, .f32⟩ : BufTy).Contents (Elt Ideal)) (x4 : (⟨S128, .f32⟩ : BufTy).Contents (Elt Ideal)) (r : Fin 100000) (j : Fin 128) :
    ReadP.val_main_v46 (F := Ideal) x0 x1 x2 x3 x4 (ix2 r j)
      = max ((∑ k : Fin 384, ReadP.val_main_v41 (F := Ideal) x0 x1 x2 (ix2 r k) * x3 (ix2 k j)) + x4 (ix1 j)) (0 : EReal) := by
  rw [ReadP.val_main_v46_apply, ReadP.val_main_v45_apply, ReadP.val_main_v42_apply, ReadP.val_main_v44_apply,
    ReadP.val_main_v43_apply, ReadP.val_main_call1_v0_apply, ReadP.val_main_call1_cst_apply]
  simp only [lidx42, ridx42, idx44, idx43, Ideal.maximumf_def, Ideal.addf_def, Ideal.ofBits_def, Ideal.ofBits_zero_f32]

/-! ## The second dense layer and the mean -/

/-- The second layer's clamped affine form at `(r, j)`. -/
theorem relu2_apply (x0 : (⟨S100000x128, .f32⟩ : BufTy).Contents (Elt Ideal)) (x1 x2 : (⟨S1600000, .i32⟩ : BufTy).Contents (Elt Ideal)) (x3 : (⟨S384x128, .f32⟩ : BufTy).Contents (Elt Ideal)) (x4 : (⟨S128, .f32⟩ : BufTy).Contents (Elt Ideal)) (x5 : (⟨S384x40, .f32⟩ : BufTy).Contents (Elt Ideal)) (x6 : (⟨S40, .f32⟩ : BufTy).Contents (Elt Ideal)) (r : Fin 100000) (j : Fin 40) :
    ReadP.val_main_v84 (F := Ideal) x0 x1 x2 x3 x4 x5 x6 (ix2 r j)
      = max ((∑ k : Fin 384, ReadP.val_main_v79 (F := Ideal) x0 x1 x2 x3 x4 (ix2 r k) * x5 (ix2 k j)) + x6 (ix1 j)) (0 : EReal) := by
  rw [ReadP.val_main_v84_apply, ReadP.val_main_v83_apply, ReadP.val_main_v80_apply, ReadP.val_main_v82_apply,
    ReadP.val_main_v81_apply, ReadP.val_main_call2_v0_apply, ReadP.val_main_call2_cst_apply]
  simp only [lidx80, ridx80, idx82, idx81, Ideal.maximumf_def, Ideal.addf_def, Ideal.ofBits_def, Ideal.ofBits_zero_f32]

/-- The result at column `j`: the sum over the rows, from zero, divided by the word that denotes 100000. -/
theorem layer2_apply (x0 : (⟨S100000x128, .f32⟩ : BufTy).Contents (Elt Ideal)) (x1 x2 : (⟨S1600000, .i32⟩ : BufTy).Contents (Elt Ideal)) (x3 : (⟨S384x128, .f32⟩ : BufTy).Contents (Elt Ideal)) (x4 : (⟨S128, .f32⟩ : BufTy).Contents (Elt Ideal)) (x5 : (⟨S384x40, .f32⟩ : BufTy).Contents (Elt Ideal)) (x6 : (⟨S40, .f32⟩ : BufTy).Contents (Elt Ideal)) (j : Fin 40) :
    ReadP.val_main_v88 (F := Ideal) x0 x1 x2 x3 x4 x5 x6 (ix2 (0 : Fin 1) j)
      = Ideal.div (0 + ∑ r : Fin 100000, max ((∑ k : Fin 384, ReadP.val_main_v79 (F := Ideal) x0 x1 x2 x3 x4 (ix2 r k) * x5 (ix2 k j)) + x6 (ix1 j)) (0 : EReal))
          (Ideal.ofBits .f32 0x47C35000#32) := by
  rw [ReadP.val_main_v88_apply, ReadP.val_main_v86_apply, ReadP.val_main_v85_apply, ReadP.val_main_v87_apply,
    ReadP.val_main_cst_16_apply, ReadP.val_main_cst_15_apply, idx86]
  simp only [idx85, relu2_apply, Ideal.hostDivf_def, Ideal.ofBits_def, Ideal.ofBits_zero_f32]

/-- The divisor's word denotes the real 100000. -/
theorem ofBits_100000 : Ideal.ofBits .f32 0x47C35000#32 = ((100000 : ℝ) : EReal) := by
  simp [Ideal.ofBits, Ideal.ieee, -EReal.coe_mul]; norm_num

/-- The result with the divisor as a real. -/
theorem layer2_apply_real (x0 : (⟨S100000x128, .f32⟩ : BufTy).Contents (Elt Ideal)) (x1 x2 : (⟨S1600000, .i32⟩ : BufTy).Contents (Elt Ideal)) (x3 : (⟨S384x128, .f32⟩ : BufTy).Contents (Elt Ideal)) (x4 : (⟨S128, .f32⟩ : BufTy).Contents (Elt Ideal)) (x5 : (⟨S384x40, .f32⟩ : BufTy).Contents (Elt Ideal)) (x6 : (⟨S40, .f32⟩ : BufTy).Contents (Elt Ideal)) (j : Fin 40) :
    ReadP.val_main_v88 (F := Ideal) x0 x1 x2 x3 x4 x5 x6 (ix2 (0 : Fin 1) j)
      = Ideal.div (0 + ∑ r : Fin 100000, max ((∑ k : Fin 384, ReadP.val_main_v79 (F := Ideal) x0 x1 x2 x3 x4 (ix2 r k) * x5 (ix2 k j)) + x6 (ix1 j)) (0 : EReal))
          ((100000 : ℝ) : EReal) := by
  rw [layer2_apply, ofBits_100000]

end Cert.ReferenceIdeal.Stages

end
-- ==== Proof.IdealFinal.lean ====
/-
  The two results agree. The kernel's program ends with its result array at the second region's one write-back, which is
  `(∑ over all 100000 rows of max (features₂ · W₂ + b₂) 0) · (1/100000)`, column by column, where `features₂` is the host
  chain applied to the first region's result `max (features₁ · W₁ + b₁) 0`; the reference computes the same two dense
  layers over the same feature arrays and divides the row sum by `100000`. The product with the named reciprocal is the
  quotient on every extended real, and a sum over 50 tiles of 2000 rows is the sum over all rows, so no finiteness is
  used.
-/
import proofs.«128947_j1451698946529_1_alg».proof.Proof.IdealRun
import proofs.«128947_j1451698946529_1_alg».proof.Proof.IdealChain
import proofs.«128947_j1451698946529_1_alg».proof.Proof.IdealVal0
import proofs.«128947_j1451698946529_1_alg».proof.Proof.IdealVal1
import proofs.«128947_j1451698946529_1_alg».proof.Proof.IdealBias
import proofs.«128947_j1451698946529_1_alg».proof.Proof.MeanLaw
import proofs.«128947_j1451698946529_1_alg».proof.Proof.RefStages

noncomputable section

namespace Cert.KernelIdeal.Final

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ)

/-- The first region's result array is the reference's first dense layer, entry by entry: both are
    `max (∑ₖ features₁[r, k] · W₁[k, j] + b₁[j]) 0`. -/
theorem res43_eq (c : Dev nD) :
    res43 (F := Ideal) m c = Cert.ReferenceIdeal.ReadP.val_main_v46 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) := by
  unfold res43
  rw [Cert.KernelIdeal.Val.final43 (VR3 m) c]
  show Cert.KernelIdeal.Val.layer1 (V3 m c main_v41) (V3 m c main_arg3) (V3 m c main_v42) = _
  rw [Cert.KernelIdeal.Chain.feats1, Cert.KernelIdeal.Chain.weights1, Cert.KernelIdeal.Chain.bias1]
  funext i
  obtain ⟨r, j, rfl⟩ : ∃ (r : Fin 100000) (j : Fin 128), i = ix2 r j := ⟨i 0, i 1, eq_ix2 i⟩
  rw [Cert.ReferenceIdeal.Stages.layer1_apply]
  show max ((∑ k : Fin 384, _ * _) + shapeCast S1x128 (m ((c.tc : Thread nD τ).loc main_arg4)) shapeCasts_S128_S1x128 (ix2 (0 : Fin 1) j)) (0 : EReal) = _
  rw [Cert.KernelIdeal.Pay.bias128_ideal]

/-- The program's result array is the reference's result, entry by entry. -/
theorem res78_eq (c : Dev nD) :
    res78 (F := Ideal) m c = Cert.ReferenceIdeal.ReadP.val_main_v88 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold res78
  rw [Cert.KernelIdeal.Val.final78 (VR5 m) c]
  show Cert.KernelIdeal.Val.meanLayer (V5 m (outsA m) c main_v76) (V5 m (outsA m) c main_arg5) (V5 m (outsA m) c main_v77) = _
  rw [Cert.KernelIdeal.Chain.feats2 m (outsA m) c ((outsA_43 m 4 c).trans (res43_eq m c)),
    Cert.KernelIdeal.Chain.weights2, Cert.KernelIdeal.Chain.bias2]
  funext i
  obtain ⟨z, j, rfl⟩ : ∃ (z : Fin 1) (j : Fin 40), i = ix2 z j := ⟨i 0, i 1, eq_ix2 i⟩
  obtain rfl : z = 0 := Subsingleton.elim _ _
  rw [Cert.KernelIdeal.Val.meanLayer_apply, Cert.ReferenceIdeal.Stages.layer2_apply, zero_add,
    ← Cert.MeanLaw.mul_inv_eq_div_ofBits]
  refine congrArg (fun s : EReal => s * ((1 / 100000 : ℝ) : EReal)) (Finset.sum_congr rfl fun r _ => ?_)
  unfold Cert.KernelIdeal.Val.meanRow
  rw [Cert.KernelIdeal.Pay.bias40_ideal]

end Cert.KernelIdeal.Final

end
-- ==== Proof.RefRun.lean ====
/-
  The reference program's run, stage by stage.

  @main is a line of 114 host operations. It is cut into five stretches — the degree normalisation, the first layer's
  features, the first dense layer, the second layer's features, the second dense layer with the mean — and each stretch is
  read from ANY buffer contents `W`: an operation's result at its own reference is its function of its operands' contents,
  and a reference the stretch does not write keeps what it held. So the result of a stretch is the reference's stage
  function of the arguments whenever what the stretch reads from earlier stretches is; chained, the whole line ends with
  the result buffer at the last stage of the arguments and the arguments unchanged. No gather or scatter is opened.
-/
import proofs.«128947_j1451698946529_1_alg».proof.Proof.RefOpsP
import proofs.«128947_j1451698946529_1_alg».proof.Proof.RefReadP
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-! ## The five stretches of @main -/

/-- Operations 1 … 16 of @main. -/
def seg1 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg2 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0xBF000000#32),
    unary main_cst_2 main_v6 (broadcastInDim S100000 ![] bcast_S_S100000 : (⟨S_, .f32⟩ : BufTy).Contents (Elt F) → (⟨S100000, .f32⟩ : BufTy).Contents (Elt F)),
    binary main_v3 main_v6 main_v7 (Host.powf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v5) (TRef.of (T := ⟨S100000, .f32⟩) main_v7) (TRef.of (T := ⟨S100000, .f32⟩) main_call0_v1) (TRef.of (T := ⟨S100000, .f32⟩) main_v8) select ]

/-- Operations 17 … 55 of @main. -/
def seg2 : List (HloOp τ sig (Elt F)) :=
  [ unary main_v8 main_v9 (broadcastInDim S100000x1 ![0] bcast_S100000_S100000x1_0 : (⟨S100000, .f32⟩ : BufTy).Contents (Elt F) → (⟨S100000x1, .f32⟩ : BufTy).Contents (Elt F)),
    unary main_v9 main_v10 (broadcastInDim S100000x128 ![0, 1] bcast_S100000x1_S100000x128_0_1 : (⟨S100000x1, .f32⟩ : BufTy).Contents (Elt F) → (⟨S100000x128, .f32⟩ : BufTy).Contents (Elt F)),
    binary main_v10 main_arg0 main_v11 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_arg1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v14 (broadcastInDim S1600000 ![] bcast_S_S1600000 : (⟨S_, .i32⟩ : BufTy).Contents (Elt F) → (⟨S1600000, .i32⟩ : BufTy).Contents (Elt F)),
    binary main_arg1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_arg1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v11 main_v17 main_v18 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_5 (constant S_ .f32 0x00000000#32),
    unary main_cst_5 main_v19 (broadcastInDim S100000x128 ![] bcast_S_S100000x128 : (⟨S_, .f32⟩ : BufTy).Contents (Elt F) → (⟨S100000x128, .f32⟩ : BufTy).Contents (Elt F)),
    unary main_arg2 main_v20 (broadcastInDim S1600000x1 ![0] bcast_S1600000_S1600000x1_0 : (⟨S1600000, .i32⟩ : BufTy).Contents (Elt F) → (⟨S1600000x1, .i32⟩ : BufTy).Contents (Elt F)),
    ternary main_v19 main_v20 main_v18 main_v21 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v22 (broadcastInDim S100000x1 ![0] bcast_S100000_S100000x1_0 : (⟨S100000, .f32⟩ : BufTy).Contents (Elt F) → (⟨S100000x1, .f32⟩ : BufTy).Contents (Elt F)),
    unary main_v22 main_v23 (broadcastInDim S100000x128 ![0, 1] bcast_S100000x1_S100000x128_0_1 : (⟨S100000x1, .f32⟩ : BufTy).Contents (Elt F) → (⟨S100000x128, .f32⟩ : BufTy).Contents (Elt F)),
    binary main_v23 main_v21 main_v24 (mulf : (⟨S100000x128, .f32⟩ : BufTy).Contents (Elt F) → (⟨S100000x128, .f32⟩ : BufTy).Contents (Elt F) → (⟨S100000x128, .f32⟩ : BufTy).Contents (Elt F)),
    unary main_v8 main_v25 (broadcastInDim S100000x1 ![0] bcast_S100000_S100000x1_0 : (⟨S100000, .f32⟩ : BufTy).Contents (Elt F) → (⟨S100000x1, .f32⟩ : BufTy).Contents (Elt F)),
    unary main_v25 main_v26 (broadcastInDim S100000x128 ![0, 1] bcast_S100000x1_S100000x128_0_1 : (⟨S100000x1, .f32⟩ : BufTy).Contents (Elt F) → (⟨S100000x128, .f32⟩ : BufTy).Contents (Elt F)),
    binary main_v26 main_v24 main_v27 (mulf : (⟨S100000x128, .f32⟩ : BufTy).Contents (Elt F) → (⟨S100000x128, .f32⟩ : BufTy).Contents (Elt F) → (⟨S100000x128, .f32⟩ : BufTy).Contents (Elt F)),
    nullary main_c_6 (constantI S_ 32 0#32),
    unary main_c_6 main_v28 (broadcastInDim S1600000 ![] bcast_S_S1600000 : (⟨S_, .i32⟩ : BufTy).Contents (Elt F) → (⟨S1600000, .i32⟩ : BufTy).Contents (Elt F)),
    binary main_arg1 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v30 (broadcastInDim S1600000 ![] bcast_S_S1600000 : (⟨S_, .i32⟩ : BufTy).Contents (Elt F) → (⟨S1600000, .i32⟩ : BufTy).Contents (Elt F)),
    binary main_arg1 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_arg1 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)),
    binary main_v27 main_v33 main_v34 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_8 (constant S_ .f32 0x00000000#32),
    unary main_cst_8 main_v35 (broadcastInDim S100000x128 ![] bcast_S_S100000x128 : (⟨S_, .f32⟩ : BufTy).Contents (Elt F) → (⟨S100000x128, .f32⟩ : BufTy).Contents (Elt F)),
    unary main_arg2 main_v36 (broadcastInDim S1600000x1 ![0] bcast_S1600000_S1600000x1_0 : (⟨S1600000, .i32⟩ : BufTy).Contents (Elt F) → (⟨S1600000x1, .i32⟩ : BufTy).Contents (Elt F)),
    ternary main_v35 main_v36 main_v34 main_v37 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v38 (broadcastInDim S100000x1 ![0] bcast_S100000_S100000x1_0 : (⟨S100000, .f32⟩ : BufTy).Contents (Elt F) → (⟨S100000x1, .f32⟩ : BufTy).Contents (Elt F)),
    unary main_v38 main_v39 (broadcastInDim S100000x128 ![0, 1] bcast_S100000x1_S100000x128_0_1 : (⟨S100000x1, .f32⟩ : BufTy).Contents (Elt F) → (⟨S100000x128, .f32⟩ : BufTy).Contents (Elt F)),
    binary main_v39 main_v37 main_v40 (mulf : (⟨S100000x128, .f32⟩ : BufTy).Contents (Elt F) → (⟨S100000x128, .f32⟩ : BufTy).Contents (Elt F) → (⟨S100000x128, .f32⟩ : BufTy).Contents (Elt F)),
    nary ![main_arg0, main_v24, main_v40] main_v41 (fun u => concatenate S100000x384 1 [⟨S100000x128, u 0⟩, ⟨S100000x128, u 1⟩, ⟨S100000x128, u 2⟩] concatenates_S100000x128_S100000x128_S100000x128_S100000x384_d1) ]

/-- Operations 56 … 62 of @main. -/
def seg3 : List (HloOp τ sig (Elt F)) :=
  [ binary main_v41 main_arg3 main_v42 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)),
    unary main_arg4 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v45) (TRef.of (T := ⟨S100000x128, .f32⟩) main_call1_v0) (TRef.of (T := ⟨S100000x128, .f32⟩) main_v46) maximumf ]

/-- Operations 63 … 101 of @main. -/
def seg4 : List (HloOp τ sig (Elt F)) :=
  [ unary main_v8 main_v47 (broadcastInDim S100000x1 ![0] bcast_S100000_S100000x1_0 : (⟨S100000, .f32⟩ : BufTy).Contents (Elt F) → (⟨S100000x1, .f32⟩ : BufTy).Contents (Elt F)),
    unary main_v47 main_v48 (broadcastInDim S100000x128 ![0, 1] bcast_S100000x1_S100000x128_0_1 : (⟨S100000x1, .f32⟩ : BufTy).Contents (Elt F) → (⟨S100000x128, .f32⟩ : BufTy).Contents (Elt F)),
    binary main_v48 main_v46 main_v49 (mulf : (⟨S100000x128, .f32⟩ : BufTy).Contents (Elt F) → (⟨S100000x128, .f32⟩ : BufTy).Contents (Elt F) → (⟨S100000x128, .f32⟩ : BufTy).Contents (Elt F)),
    nullary main_c_9 (constantI S_ 32 0#32),
    unary main_c_9 main_v50 (broadcastInDim S1600000 ![] bcast_S_S1600000 : (⟨S_, .i32⟩ : BufTy).Contents (Elt F) → (⟨S1600000, .i32⟩ : BufTy).Contents (Elt F)),
    binary main_arg1 main_v50 main_v51 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v52 (broadcastInDim S1600000 ![] bcast_S_S1600000 : (⟨S_, .i32⟩ : BufTy).Contents (Elt F) → (⟨S1600000, .i32⟩ : BufTy).Contents (Elt F)),
    binary main_arg1 main_v52 main_v53 (addi : (⟨S1600000, .i32⟩ : BufTy).Contents (Elt F) → (⟨S1600000, .i32⟩ : BufTy).Contents (Elt F) → (⟨S1600000, .i32⟩ : BufTy).Contents (Elt F)),
    ternary main_v51 main_v53 main_arg1 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v54 main_v55 (broadcastInDim S1600000x1 ![0] bcast_S1600000_S1600000x1_0 : (⟨S1600000, .i32⟩ : BufTy).Contents (Elt F) → (⟨S1600000x1, .i32⟩ : BufTy).Contents (Elt F)),
    binary main_v49 main_v55 main_v56 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_11 (constant S_ .f32 0x00000000#32),
    unary main_cst_11 main_v57 (broadcastInDim S100000x128 ![] bcast_S_S100000x128 : (⟨S_, .f32⟩ : BufTy).Contents (Elt F) → (⟨S100000x128, .f32⟩ : BufTy).Contents (Elt F)),
    unary main_arg2 main_v58 (broadcastInDim S1600000x1 ![0] bcast_S1600000_S1600000x1_0 : (⟨S1600000, .i32⟩ : BufTy).Contents (Elt F) → (⟨S1600000x1, .i32⟩ : BufTy).Contents (Elt F)),
    ternary main_v57 main_v58 main_v56 main_v59 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v60 (broadcastInDim S100000x1 ![0] bcast_S100000_S100000x1_0 : (⟨S100000, .f32⟩ : BufTy).Contents (Elt F) → (⟨S100000x1, .f32⟩ : BufTy).Contents (Elt F)),
    unary main_v60 main_v61 (broadcastInDim S100000x128 ![0, 1] bcast_S100000x1_S100000x128_0_1 : (⟨S100000x1, .f32⟩ : BufTy).Contents (Elt F) → (⟨S100000x128, .f32⟩ : BufTy).Contents (Elt F)),
    binary main_v61 main_v59 main_v62 (mulf : (⟨S100000x128, .f32⟩ : BufTy).Contents (Elt F) → (⟨S100000x128, .f32⟩ : BufTy).Contents (Elt F) → (⟨S100000x128, .f32⟩ : BufTy).Contents (Elt F)),
    unary main_v8 main_v63 (broadcastInDim S100000x1 ![0] bcast_S100000_S100000x1_0 : (⟨S100000, .f32⟩ : BufTy).Contents (Elt F) → (⟨S100000x1, .f32⟩ : BufTy).Contents (Elt F)),
    unary main_v63 main_v64 (broadcastInDim S100000x128 ![0, 1] bcast_S100000x1_S100000x128_0_1 : (⟨S100000x1, .f32⟩ : BufTy).Contents (Elt F) → (⟨S100000x128, .f32⟩ : BufTy).Contents (Elt F)),
    binary main_v64 main_v62 main_v65 (mulf : (⟨S100000x128, .f32⟩ : BufTy).Contents (Elt F) → (⟨S100000x128, .f32⟩ : BufTy).Contents (Elt F) → (⟨S100000x128, .f32⟩ : BufTy).Contents (Elt F)),
    nullary main_c_12 (constantI S_ 32 0#32),
    unary main_c_12 main_v66 (broadcastInDim S1600000 ![] bcast_S_S1600000 : (⟨S_, .i32⟩ : BufTy).Contents (Elt F) → (⟨S1600000, .i32⟩ : BufTy).Contents (Elt F)),
    binary main_arg1 main_v66 main_v67 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v68 (broadcastInDim S1600000 ![] bcast_S_S1600000 : (⟨S_, .i32⟩ : BufTy).Contents (Elt F) → (⟨S1600000, .i32⟩ : BufTy).Contents (Elt F)),
    binary main_arg1 main_v68 main_v69 (addi : (⟨S1600000, .i32⟩ : BufTy).Contents (Elt F) → (⟨S1600000, .i32⟩ : BufTy).Contents (Elt F) → (⟨S1600000, .i32⟩ : BufTy).Contents (Elt F)),
    ternary main_v67 main_v69 main_arg1 main_v70 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v70 main_v71 (broadcastInDim S1600000x1 ![0] bcast_S1600000_S1600000x1_0 : (⟨S1600000, .i32⟩ : BufTy).Contents (Elt F) → (⟨S1600000x1, .i32⟩ : BufTy).Contents (Elt F)),
    binary main_v65 main_v71 main_v72 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_14 (constant S_ .f32 0x00000000#32),
    unary main_cst_14 main_v73 (broadcastInDim S100000x128 ![] bcast_S_S100000x128 : (⟨S_, .f32⟩ : BufTy).Contents (Elt F) → (⟨S100000x128, .f32⟩ : BufTy).Contents (Elt F)),
    unary main_arg2 main_v74 (broadcastInDim S1600000x1 ![0] bcast_S1600000_S1600000x1_0 : (⟨S1600000, .i32⟩ : BufTy).Contents (Elt F) → (⟨S1600000x1, .i32⟩ : BufTy).Contents (Elt F)),
    ternary main_v73 main_v74 main_v72 main_v75 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v76 (broadcastInDim S100000x1 ![0] bcast_S100000_S100000x1_0 : (⟨S100000, .f32⟩ : BufTy).Contents (Elt F) → (⟨S100000x1, .f32⟩ : BufTy).Contents (Elt F)),
    unary main_v76 main_v77 (broadcastInDim S100000x128 ![0, 1] bcast_S100000x1_S100000x128_0_1 : (⟨S100000x1, .f32⟩ : BufTy).Contents (Elt F) → (⟨S100000x128, .f32⟩ : BufTy).Contents (Elt F)),
    binary main_v77 main_v75 main_v78 (mulf : (⟨S100000x128, .f32⟩ : BufTy).Contents (Elt F) → (⟨S100000x128, .f32⟩ : BufTy).Contents (Elt F) → (⟨S100000x128, .f32⟩ : BufTy).Contents (Elt F)),
    nary ![main_v46, main_v62, main_v78] main_v79 (fun u => concatenate S100000x384 1 [⟨S100000x128, u 0⟩, ⟨S100000x128, u 1⟩, ⟨S100000x128, u 2⟩] concatenates_S100000x128_S100000x128_S100000x128_S100000x384_d1) ]

/-- Operations 102 … 114 of @main. -/
def seg5 : List (HloOp τ sig (Elt F)) :=
  [ binary main_v79 main_arg5 main_v80 ((fun l r => Host.dotGeneral dot_S100000x384_S384x40_S100000x40_1_0_0_1_n_n none l r) : (⟨S100000x384, .f32⟩ : BufTy).Contents (Elt F) → (⟨S384x40, .f32⟩ : BufTy).Contents (Elt F) → (⟨S100000x40, .f32⟩ : BufTy).Contents (Elt F)),
    unary main_arg6 main_v81 (broadcastInDim S1x40 ![1] bcast_S40_S1x40_1 : (⟨S40, .f32⟩ : BufTy).Contents (Elt F) → (⟨S1x40, .f32⟩ : BufTy).Contents (Elt F)),
    unary main_v81 main_v82 (broadcastInDim S100000x40 ![0, 1] bcast_S1x40_S100000x40_0_1 : (⟨S1x40, .f32⟩ : BufTy).Contents (Elt F) → (⟨S100000x40, .f32⟩ : BufTy).Contents (Elt F)),
    binary main_v80 main_v82 main_v83 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x40, .f32⟩) main_call2_v0) (broadcastInDim S100000x40 ![] bcast_S_S100000x40),
    TRef.binary (TRef.of (T := ⟨S100000x40, .f32⟩) main_v83) (TRef.of (T := ⟨S100000x40, .f32⟩) main_call2_v0) (TRef.of (T := ⟨S100000x40, .f32⟩) main_v84) maximumf,
    nullary main_cst_15 (constant S_ .f32 0x00000000#32),
    binary main_v84 main_cst_15 main_v85 ((fun x v => Host.reduceAdd x v reducesTo_S100000x40_S40_d0 h_S_) : (⟨S100000x40, .f32⟩ : BufTy).Contents (Elt F) → (⟨S_, .f32⟩ : BufTy).Contents (Elt F) → (⟨S40, .f32⟩ : BufTy).Contents (Elt F)),
    unary main_v85 main_v86 (broadcastInDim S1x40 ![1] bcast_S40_S1x40_1 : (⟨S40, .f32⟩ : BufTy).Contents (Elt F) → (⟨S1x40, .f32⟩ : BufTy).Contents (Elt F)),
    nullary main_cst_16 (constant S_ .f32 0x47C35000#32),
    unary main_cst_16 main_v87 (broadcastInDim S1x40 ![] bcast_S_S1x40 : (⟨S_, .f32⟩ : BufTy).Contents (Elt F) → (⟨S1x40, .f32⟩ : BufTy).Contents (Elt F)),
    binary main_v86 main_v87 main_v88 (Host.divf : (⟨S1x40, .f32⟩ : BufTy).Contents (Elt F) → (⟨S1x40, .f32⟩ : BufTy).Contents (Elt F) → (⟨S1x40, .f32⟩ : BufTy).Contents (Elt F)) ]

/-- The line is its five stretches, in order. -/
theorem ops_split : (ValueP.ops : List (HloOp τ sig (Elt F))) = seg1 ++ (seg2 ++ (seg3 ++ (seg4 ++ seg5))) := rfl

/-- The contents after two lines run one after the other. -/
theorem after_append (l1 l2 : List (HloOp τ sig (Elt F))) (V : Valuation τ sig (Elt F)) :
    after (l1 ++ l2) V = after l2 (after l1 V) := by
  induction l1 generalizing V with
  | nil => rfl
  | cons op l ih => simp only [List.cons_append, after_cons, ih]

/-! ## One pass over a stretch -/

/-- The first feature concatenate, read at its own reference: the three operands' contents joined. -/
theorem concat41_result (hxs hy) (G : Valuation τ sig (Elt F)) :
    (nary (τ := τ) ![main_arg0, main_v24, main_v40] main_v41
        (fun u => concatenate S100000x384 1 [⟨S100000x128, u 0⟩, ⟨S100000x128, u 1⟩, ⟨S100000x128, u 2⟩] concatenates_S100000x128_S100000x128_S100000x128_S100000x384_d1) hxs hy).result G (no_index (Proc.devRef .tc main_v41))
      = concatenate S100000x384 1 [⟨S100000x128, G (Proc.devRef .tc main_arg0)⟩, ⟨S100000x128, G (Proc.devRef .tc main_v24)⟩, ⟨S100000x128, G (Proc.devRef .tc main_v40)⟩] concatenates_S100000x128_S100000x128_S100000x128_S100000x384_d1 :=
  nary_result _ _ _ hxs hy G

/-- The second feature concatenate, likewise. -/
theorem concat79_result (hxs hy) (G : Valuation τ sig (Elt F)) :
    (nary (τ := τ) ![main_v46, main_v62, main_v78] main_v79
        (fun u => concatenate S100000x384 1 [⟨S100000x128, u 0⟩, ⟨S100000x128, u 1⟩, ⟨S100000x128, u 2⟩] concatenates_S100000x128_S100000x128_S100000x128_S100000x384_d1) hxs hy).result G (no_index (Proc.devRef .tc main_v79))
      = concatenate S100000x384 1 [⟨S100000x128, G (Proc.devRef .tc main_v46)⟩, ⟨S100000x128, G (Proc.devRef .tc main_v62)⟩, ⟨S100000x128, G (Proc.devRef .tc main_v78)⟩] concatenates_S100000x128_S100000x128_S100000x128_S100000x384_d1 :=
  nary_result _ _ _ hxs hy G

/-- One simplification pass over a stretch: each operation's result at its own reference is its function of its operands'
    contents, at any other reference what was there before. -/
macro "stretch_results" : tactic =>
  `(tactic| (simp (disch := decide) only [after_cons, after_nil,
      nullary_result', unary_result', binary_result', ternary_result', quaternary_result', reshape_result',
      concat41_result, concat79_result, unaryIndexed_result', binaryIndexed_result',
      nullary_result_ne', unary_result_ne', binary_result_ne', ternary_result_ne', quaternary_result_ne', reshape_result_ne',
      nary_result_ne', unaryIndexed_result_ne', binaryIndexed_result_ne']))

/-- The same pass inside a concatenate's operand list (an argument later arguments' types depend on, so it is entered
    explicitly). -/
macro "stretch_operands" : tactic =>
  `(tactic| conv => lhs; arg 3; simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne'])

/-! ## The stretches' results -/

set_option maxRecDepth 16384 in
set_option maxHeartbeats 4000000 in
/-- After the first stretch the normalisation vector is its stage of the destination indices. -/
theorem seg1_norm (W : Valuation τ sig (Elt F)) :
    after (seg1 (F := F)) W (Proc.devRef .tc main_v8) = ReadP.val_main_v8 (F := F) (W (Proc.devRef .tc main_arg2)) := by
  dsimp only [seg1, TRef.nullary, TRef.unary, TRef.binary, TRef.ternary]
  stretch_results
  simp only [ReadP.val_main_cst, ReadP.val_main_v0, ReadP.val_main_cst_0, ReadP.val_main_v1, ReadP.val_main_v2, ReadP.val_main_v3, ReadP.val_main_cst_1, ReadP.val_main_v4, ReadP.val_main_v5, ReadP.val_main_cst_2, ReadP.val_main_v6, ReadP.val_main_v7, ReadP.val_main_cst_3, ReadP.val_main_call0_v0, ReadP.val_main_call0_v1, ReadP.val_main_v8]
  rfl

set_option maxRecDepth 16384 in
set_option maxHeartbeats 8000000 in
/-- The second stretch, from any contents whose normalisation vector is the stage: the concatenated features are the stage
    of the same arrays. -/
theorem seg2_feats (W : Valuation τ sig (Elt F))
    (h8 : W (Proc.devRef .tc main_v8) = ReadP.val_main_v8 (F := F) (W (Proc.devRef .tc main_arg2))) :
    after (seg2 (F := F)) W (Proc.devRef .tc main_v41)
      = ReadP.val_main_v41 (F := F) (W (Proc.devRef .tc main_arg0)) (W (Proc.devRef .tc main_arg1)) (W (Proc.devRef .tc main_arg2)) := by
  dsimp only [seg2, TRef.nullary, TRef.unary, TRef.binary, TRef.ternary]
  stretch_results
  stretch_operands
  conv => lhs; arg 3; rw [h8]
  simp only [ReadP.val_main_v9, ReadP.val_main_v10, ReadP.val_main_v11, ReadP.val_main_c, ReadP.val_main_v12, ReadP.val_main_v13, ReadP.val_main_c_4, ReadP.val_main_v14, ReadP.val_main_v15, ReadP.val_main_v16, ReadP.val_main_v17, ReadP.val_main_v18, ReadP.val_main_cst_5, ReadP.val_main_v19, ReadP.val_main_v20, ReadP.val_main_v21, ReadP.val_main_v22, ReadP.val_main_v23, ReadP.val_main_v24, ReadP.val_main_v25, ReadP.val_main_v26, ReadP.val_main_v27, ReadP.val_main_c_6, ReadP.val_main_v28, ReadP.val_main_v29, ReadP.val_main_c_7, ReadP.val_main_v30, ReadP.val_main_v31, ReadP.val_main_v32, ReadP.val_main_v33, ReadP.val_main_v34, ReadP.val_main_cst_8, ReadP.val_main_v35, ReadP.val_main_v36, ReadP.val_main_v37, ReadP.val_main_v38, ReadP.val_main_v39, ReadP.val_main_v40, ReadP.val_main_v41]

set_option maxRecDepth 16384 in
set_option maxHeartbeats 4000000 in
/-- The third stretch, from any contents whose features are the stage: the first dense layer is its stage. -/
theorem seg3_dense (W : Valuation τ sig (Elt F))
    (x0 : (⟨S100000x128, .f32⟩ : BufTy).Contents (Elt F)) (x1 x2 : (⟨S1600000, .i32⟩ : BufTy).Contents (Elt F))
    (h41 : W (Proc.devRef .tc main_v41) = ReadP.val_main_v41 (F := F) x0 x1 x2) :
    after (seg3 (F := F)) W (Proc.devRef .tc main_v46)
      = ReadP.val_main_v46 (F := F) x0 x1 x2 (W (Proc.devRef .tc main_arg3)) (W (Proc.devRef .tc main_arg4)) := by
  dsimp only [seg3, TRef.nullary, TRef.unary, TRef.binary, TRef.ternary]
  stretch_results
  rw [h41]
  simp only [ReadP.val_main_v42, ReadP.val_main_v43, ReadP.val_main_v44, ReadP.val_main_v45, ReadP.val_main_call1_cst, ReadP.val_main_call1_v0, ReadP.val_main_v46]
  rfl

set_option maxRecDepth 16384 in
set_option maxHeartbeats 8000000 in
/-- The fourth stretch, from any contents whose normalisation vector and first dense layer are the stages: the second
    concatenated features are the stage. -/
theorem seg4_feats (W : Valuation τ sig (Elt F))
    (x0 : (⟨S100000x128, .f32⟩ : BufTy).Contents (Elt F)) (x3 : (⟨S384x128, .f32⟩ : BufTy).Contents (Elt F))
    (x4 : (⟨S128, .f32⟩ : BufTy).Contents (Elt F))
    (h8 : W (Proc.devRef .tc main_v8) = ReadP.val_main_v8 (F := F) (W (Proc.devRef .tc main_arg2)))
    (h46 : W (Proc.devRef .tc main_v46) = ReadP.val_main_v46 (F := F) x0 (W (Proc.devRef .tc main_arg1)) (W (Proc.devRef .tc main_arg2)) x3 x4) :
    after (seg4 (F := F)) W (Proc.devRef .tc main_v79)
      = ReadP.val_main_v79 (F := F) x0 (W (Proc.devRef .tc main_arg1)) (W (Proc.devRef .tc main_arg2)) x3 x4 := by
  dsimp only [seg4, TRef.nullary, TRef.unary, TRef.binary, TRef.ternary]
  stretch_results
  stretch_operands
  conv => lhs; arg 3; rw [h8, h46]
  simp only [ReadP.val_main_v47, ReadP.val_main_v48, ReadP.val_main_v49, ReadP.val_main_c_9, ReadP.val_main_v50, ReadP.val_main_v51, ReadP.val_main_c_10, ReadP.val_main_v52, ReadP.val_main_v53, ReadP.val_main_v54, ReadP.val_main_v55, ReadP.val_main_v56, ReadP.val_main_cst_11, ReadP.val_main_v57, ReadP.val_main_v58, ReadP.val_main_v59, ReadP.val_main_v60, ReadP.val_main_v61, ReadP.val_main_v62, ReadP.val_main_v63, ReadP.val_main_v64, ReadP.val_main_v65, ReadP.val_main_c_12, ReadP.val_main_v66, ReadP.val_main_v67, ReadP.val_main_c_13, ReadP.val_main_v68, ReadP.val_main_v69, ReadP.val_main_v70, ReadP.val_main_v71, ReadP.val_main_v72, ReadP.val_main_cst_14, ReadP.val_main_v73, ReadP.val_main_v74, ReadP.val_main_v75, ReadP.val_main_v76, ReadP.val_main_v77, ReadP.val_main_v78, ReadP.val_main_v79]

set_option maxRecDepth 16384 in
set_option maxHeartbeats 4000000 in
/-- The fifth stretch, from any contents whose second features are the stage: the result is the last stage. -/
theorem seg5_mean (W : Valuation τ sig (Elt F))
    (x0 : (⟨S100000x128, .f32⟩ : BufTy).Contents (Elt F)) (x1 x2 : (⟨S1600000, .i32⟩ : BufTy).Contents (Elt F))
    (x3 : (⟨S384x128, .f32⟩ : BufTy).Contents (Elt F)) (x4 : (⟨S128, .f32⟩ : BufTy).Contents (Elt F))
    (h79 : W (Proc.devRef .tc main_v79) = ReadP.val_main_v79 (F := F) x0 x1 x2 x3 x4) :
    after (seg5 (F := F)) W (Proc.devRef .tc main_v88)
      = ReadP.val_main_v88 (F := F) x0 x1 x2 x3 x4 (W (Proc.devRef .tc main_arg5)) (W (Proc.devRef .tc main_arg6)) := by
  dsimp only [seg5, TRef.nullary, TRef.unary, TRef.binary, TRef.ternary]
  stretch_results
  rw [h79]
  simp only [ReadP.val_main_v80, ReadP.val_main_v81, ReadP.val_main_v82, ReadP.val_main_v83, ReadP.val_main_call2_cst, ReadP.val_main_call2_v0, ReadP.val_main_v84, ReadP.val_main_cst_15, ReadP.val_main_v85, ReadP.val_main_v86, ReadP.val_main_cst_16, ReadP.val_main_v87, ReadP.val_main_v88]
  rfl

/-! ## What a stretch leaves in place -/

/-- Stretch 1 writes none of @main's arguments. -/
theorem seg1_args (W : Valuation τ sig (Elt F)) :
    after (seg1 (F := F)) W (Proc.devRef .tc main_arg0) = W (Proc.devRef .tc main_arg0)
    ∧ after (seg1 (F := F)) W (Proc.devRef .tc main_arg1) = W (Proc.devRef .tc main_arg1)
    ∧ after (seg1 (F := F)) W (Proc.devRef .tc main_arg2) = W (Proc.devRef .tc main_arg2)
    ∧ after (seg1 (F := F)) W (Proc.devRef .tc main_arg3) = W (Proc.devRef .tc main_arg3)
    ∧ after (seg1 (F := F)) W (Proc.devRef .tc main_arg4) = W (Proc.devRef .tc main_arg4)
    ∧ after (seg1 (F := F)) W (Proc.devRef .tc main_arg5) = W (Proc.devRef .tc main_arg5)
    ∧ after (seg1 (F := F)) W (Proc.devRef .tc main_arg6) = W (Proc.devRef .tc main_arg6) := by
  refine ⟨?_, ?_, ?_, ?_, ?_, ?_, ?_⟩ <;> (dsimp only [seg1, TRef.nullary, TRef.unary, TRef.binary, TRef.ternary]; stretch_results)

/-- Stretch 2 writes none of @main's arguments. -/
theorem seg2_args (W : Valuation τ sig (Elt F)) :
    after (seg2 (F := F)) W (Proc.devRef .tc main_arg0) = W (Proc.devRef .tc main_arg0)
    ∧ after (seg2 (F := F)) W (Proc.devRef .tc main_arg1) = W (Proc.devRef .tc main_arg1)
    ∧ after (seg2 (F := F)) W (Proc.devRef .tc main_arg2) = W (Proc.devRef .tc main_arg2)
    ∧ after (seg2 (F := F)) W (Proc.devRef .tc main_arg3) = W (Proc.devRef .tc main_arg3)
    ∧ after (seg2 (F := F)) W (Proc.devRef .tc main_arg4) = W (Proc.devRef .tc main_arg4)
    ∧ after (seg2 (F := F)) W (Proc.devRef .tc main_arg5) = W (Proc.devRef .tc main_arg5)
    ∧ after (seg2 (F := F)) W (Proc.devRef .tc main_arg6) = W (Proc.devRef .tc main_arg6) := by
  refine ⟨?_, ?_, ?_, ?_, ?_, ?_, ?_⟩ <;> (dsimp only [seg2, TRef.nullary, TRef.unary, TRef.binary, TRef.ternary]; stretch_results)

/-- Stretch 3 writes none of @main's arguments. -/
theorem seg3_args (W : Valuation τ sig (Elt F)) :
    after (seg3 (F := F)) W (Proc.devRef .tc main_arg0) = W (Proc.devRef .tc main_arg0)
    ∧ after (seg3 (F := F)) W (Proc.devRef .tc main_arg1) = W (Proc.devRef .tc main_arg1)
    ∧ after (seg3 (F := F)) W (Proc.devRef .tc main_arg2) = W (Proc.devRef .tc main_arg2)
    ∧ after (seg3 (F := F)) W (Proc.devRef .tc main_arg3) = W (Proc.devRef .tc main_arg3)
    ∧ after (seg3 (F := F)) W (Proc.devRef .tc main_arg4) = W (Proc.devRef .tc main_arg4)
    ∧ after (seg3 (F := F)) W (Proc.devRef .tc main_arg5) = W (Proc.devRef .tc main_arg5)
    ∧ after (seg3 (F := F)) W (Proc.devRef .tc main_arg6) = W (Proc.devRef .tc main_arg6) := by
  refine ⟨?_, ?_, ?_, ?_, ?_, ?_, ?_⟩ <;> (dsimp only [seg3, TRef.nullary, TRef.unary, TRef.binary, TRef.ternary]; stretch_results)

/-- Stretch 4 writes none of @main's arguments. -/
theorem seg4_args (W : Valuation τ sig (Elt F)) :
    after (seg4 (F := F)) W (Proc.devRef .tc main_arg0) = W (Proc.devRef .tc main_arg0)
    ∧ after (seg4 (F := F)) W (Proc.devRef .tc main_arg1) = W (Proc.devRef .tc main_arg1)
    ∧ after (seg4 (F := F)) W (Proc.devRef .tc main_arg2) = W (Proc.devRef .tc main_arg2)
    ∧ after (seg4 (F := F)) W (Proc.devRef .tc main_arg3) = W (Proc.devRef .tc main_arg3)
    ∧ after (seg4 (F := F)) W (Proc.devRef .tc main_arg4) = W (Proc.devRef .tc main_arg4)
    ∧ after (seg4 (F := F)) W (Proc.devRef .tc main_arg5) = W (Proc.devRef .tc main_arg5)
    ∧ after (seg4 (F := F)) W (Proc.devRef .tc main_arg6) = W (Proc.devRef .tc main_arg6) := by
  refine ⟨?_, ?_, ?_, ?_, ?_, ?_, ?_⟩ <;> (dsimp only [seg4, TRef.nullary, TRef.unary, TRef.binary, TRef.ternary]; stretch_results)

/-- Stretch 5 writes none of @main's arguments. -/
theorem seg5_args (W : Valuation τ sig (Elt F)) :
    after (seg5 (F := F)) W (Proc.devRef .tc main_arg0) = W (Proc.devRef .tc main_arg0)
    ∧ after (seg5 (F := F)) W (Proc.devRef .tc main_arg1) = W (Proc.devRef .tc main_arg1)
    ∧ after (seg5 (F := F)) W (Proc.devRef .tc main_arg2) = W (Proc.devRef .tc main_arg2)
    ∧ after (seg5 (F := F)) W (Proc.devRef .tc main_arg3) = W (Proc.devRef .tc main_arg3)
    ∧ after (seg5 (F := F)) W (Proc.devRef .tc main_arg4) = W (Proc.devRef .tc main_arg4)
    ∧ after (seg5 (F := F)) W (Proc.devRef .tc main_arg5) = W (Proc.devRef .tc main_arg5)
    ∧ after (seg5 (F := F)) W (Proc.devRef .tc main_arg6) = W (Proc.devRef .tc main_arg6) := by
  refine ⟨?_, ?_, ?_, ?_, ?_, ?_, ?_⟩ <;> (dsimp only [seg5, TRef.nullary, TRef.unary, TRef.binary, TRef.ternary]; stretch_results)

/-- The second stretch leaves the normalisation vector in place … -/
theorem seg2_v8 (W : Valuation τ sig (Elt F)) : after (seg2 (F := F)) W (Proc.devRef .tc main_v8) = W (Proc.devRef .tc main_v8) := by
  dsimp only [seg2, TRef.nullary, TRef.unary, TRef.binary, TRef.ternary]; stretch_results

/-- … and so does the third. -/
theorem seg3_v8 (W : Valuation τ sig (Elt F)) : after (seg3 (F := F)) W (Proc.devRef .tc main_v8) = W (Proc.devRef .tc main_v8) := by
  dsimp only [seg3, TRef.nullary, TRef.unary, TRef.binary, TRef.ternary]; stretch_results

/-! ## The whole line -/

/-- The contents after the line are the contents after its five stretches in turn. -/
theorem after_ops (W : Valuation τ sig (Elt F)) :
    after (ValueP.ops (F := F)) W = after (seg5 (F := F)) (after (seg4 (F := F)) (after (seg3 (F := F)) (after (seg2 (F := F)) (after (seg1 (F := F)) W)))) := by
  rw [ops_split, after_append, after_append, after_append, after_append]

/-- The line writes none of @main's arguments. -/
theorem ops_args (W : Valuation τ sig (Elt F)) :
    after (ValueP.ops (F := F)) W (Proc.devRef .tc main_arg0) = W (Proc.devRef .tc main_arg0)
    ∧ after (ValueP.ops (F := F)) W (Proc.devRef .tc main_arg1) = W (Proc.devRef .tc main_arg1)
    ∧ after (ValueP.ops (F := F)) W (Proc.devRef .tc main_arg2) = W (Proc.devRef .tc main_arg2)
    ∧ after (ValueP.ops (F := F)) W (Proc.devRef .tc main_arg3) = W (Proc.devRef .tc main_arg3)
    ∧ after (ValueP.ops (F := F)) W (Proc.devRef .tc main_arg4) = W (Proc.devRef .tc main_arg4)
    ∧ after (ValueP.ops (F := F)) W (Proc.devRef .tc main_arg5) = W (Proc.devRef .tc main_arg5)
    ∧ after (ValueP.ops (F := F)) W (Proc.devRef .tc main_arg6) = W (Proc.devRef .tc main_arg6) := by
  rw [after_ops]
  obtain ⟨a10, a11, a12, a13, a14, a15, a16⟩ := seg1_args W
  obtain ⟨a20, a21, a22, a23, a24, a25, a26⟩ := seg2_args (after (seg1 (F := F)) W)
  obtain ⟨a30, a31, a32, a33, a34, a35, a36⟩ := seg3_args (after (seg2 (F := F)) (after (seg1 (F := F)) W))
  obtain ⟨a40, a41, a42, a43, a44, a45, a46⟩ := seg4_args (after (seg3 (F := F)) (after (seg2 (F := F)) (after (seg1 (F := F)) W)))
  obtain ⟨a50, a51, a52, a53, a54, a55, a56⟩ := seg5_args (after (seg4 (F := F)) (after (seg3 (F := F)) (after (seg2 (F := F)) (after (seg1 (F := F)) W))))
  exact ⟨a50.trans (a40.trans (a30.trans (a20.trans a10))), a51.trans (a41.trans (a31.trans (a21.trans a11))),
    a52.trans (a42.trans (a32.trans (a22.trans a12))), a53.trans (a43.trans (a33.trans (a23.trans a13))),
    a54.trans (a44.trans (a34.trans (a24.trans a14))), a55.trans (a45.trans (a35.trans (a25.trans a15))),
    a56.trans (a46.trans (a36.trans (a26.trans a16)))⟩

/-- After the line the result buffer holds the last stage of the arguments' contents. -/
theorem term (W : Valuation τ sig (Elt F)) :
    after (ValueP.ops (F := F)) W (Proc.devRef .tc main_v88)
      = ReadP.val_main_v88 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [after_ops]
  obtain ⟨a10, a11, a12, a13, a14, a15, a16⟩ := seg1_args W
  obtain ⟨a20, a21, a22, a23, a24, a25, a26⟩ := seg2_args (after (seg1 (F := F)) W)
  obtain ⟨a30, a31, a32, a33, a34, a35, a36⟩ := seg3_args (after (seg2 (F := F)) (after (seg1 (F := F)) W))
  obtain ⟨a40, a41, a42, a43, a44, a45, a46⟩ := seg4_args (after (seg3 (F := F)) (after (seg2 (F := F)) (after (seg1 (F := F)) W)))
  -- the normalisation vector after the first three stretches
  have h8_1 : (after (seg1 (F := F)) W) (Proc.devRef .tc main_v8) = ReadP.val_main_v8 (F := F) (W (Proc.devRef .tc main_arg2)) := seg1_norm W
  have h8_2 : (after (seg2 (F := F)) (after (seg1 (F := F)) W)) (Proc.devRef .tc main_v8) = ReadP.val_main_v8 (F := F) (W (Proc.devRef .tc main_arg2)) := (seg2_v8 _).trans h8_1
  have h8_3 : (after (seg3 (F := F)) (after (seg2 (F := F)) (after (seg1 (F := F)) W))) (Proc.devRef .tc main_v8) = ReadP.val_main_v8 (F := F) (W (Proc.devRef .tc main_arg2)) := (seg3_v8 _).trans h8_2
  -- the first features, the first dense layer, the second features
  have h41 : (after (seg2 (F := F)) (after (seg1 (F := F)) W)) (Proc.devRef .tc main_v41) = ReadP.val_main_v41 (F := F) (W (Proc.devRef .tc main_arg0)) (W (Proc.devRef .tc main_arg1)) (W (Proc.devRef .tc main_arg2)) := by
    have h := seg2_feats (after (seg1 (F := F)) W) (by rw [a12]; exact h8_1)
    rw [a10, a11, a12] at h; exact h
  have h46 : (after (seg3 (F := F)) (after (seg2 (F := F)) (after (seg1 (F := F)) W))) (Proc.devRef .tc main_v46)
      = ReadP.val_main_v46 (F := F) (W (Proc.devRef .tc main_arg0)) (W (Proc.devRef .tc main_arg1)) (W (Proc.devRef .tc main_arg2)) (W (Proc.devRef .tc main_arg3)) (W (Proc.devRef .tc main_arg4)) := by
    have h := seg3_dense (after (seg2 (F := F)) (after (seg1 (F := F)) W)) _ _ _ h41
    rw [a23, a24, a13, a14] at h; exact h
  have e1 : (after (seg3 (F := F)) (after (seg2 (F := F)) (after (seg1 (F := F)) W))) (Proc.devRef .tc main_arg1) = W (Proc.devRef .tc main_arg1) := a31.trans (a21.trans a11)
  have e2 : (after (seg3 (F := F)) (after (seg2 (F := F)) (after (seg1 (F := F)) W))) (Proc.devRef .tc main_arg2) = W (Proc.devRef .tc main_arg2) := a32.trans (a22.trans a12)
  have h79 : (after (seg4 (F := F)) (after (seg3 (F := F)) (after (seg2 (F := F)) (after (seg1 (F := F)) W)))) (Proc.devRef .tc main_v79)
      = ReadP.val_main_v79 (F := F) (W (Proc.devRef .tc main_arg0)) (W (Proc.devRef .tc main_arg1)) (W (Proc.devRef .tc main_arg2)) (W (Proc.devRef .tc main_arg3)) (W (Proc.devRef .tc main_arg4)) := by
    have h := seg4_feats (after (seg3 (F := F)) (after (seg2 (F := F)) (after (seg1 (F := F)) W))) (W (Proc.devRef .tc main_arg0)) (W (Proc.devRef .tc main_arg3)) (W (Proc.devRef .tc main_arg4)) (by rw [e2]; exact h8_3) (by rw [e1, e2]; exact h46)
    rw [e1, e2] at h; exact h
  have e5 : (after (seg4 (F := F)) (after (seg3 (F := F)) (after (seg2 (F := F)) (after (seg1 (F := F)) W)))) (Proc.devRef .tc main_arg5) = W (Proc.devRef .tc main_arg5) := a45.trans (a35.trans (a25.trans a15))
  have e6 : (after (seg4 (F := F)) (after (seg3 (F := F)) (after (seg2 (F := F)) (after (seg1 (F := F)) W)))) (Proc.devRef .tc main_arg6) = W (Proc.devRef .tc main_arg6) := a46.trans (a36.trans (a26.trans a16))
  have h := seg5_mean (after (seg4 (F := F)) (after (seg3 (F := F)) (after (seg2 (F := F)) (after (seg1 (F := F)) W)))) _ _ _ _ _ h79
  rw [e5, e6] at h; exact h

/-! ## The run -/

/-- On every device, for any float values, from any memory with zero counters: every weakly fair execution of @main
    terminates with the result buffer at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = ReadP.val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v88).trans (term (launchContents m c)),
        (h c main_arg0).trans (ops_args (launchContents m c)).1,
        (h c main_arg1).trans (ops_args (launchContents m c)).2.1,
        (h c main_arg2).trans (ops_args (launchContents m c)).2.2.1,
        (h c main_arg3).trans (ops_args (launchContents m c)).2.2.2.1,
        (h c main_arg4).trans (ops_args (launchContents m c)).2.2.2.2.1,
        (h c main_arg5).trans (ops_args (launchContents m c)).2.2.2.2.2.1,
        (h c main_arg6).trans (ops_args (launchContents m c)).2.2.2.2.2.2⟩)
    (run_seq ValueP.scopedRefs_eq ValueP.scopedSems_eq defs main (fun _ => ValueP.ops) ValueP.main_eq (fun _ => ValueP.ops_sub) m ρ)

end Cert.ReferenceIdeal.RunHand

end
-- ==== Proof.lean ====
/-
  A two-layer graph network: each layer concatenates a node feature array with its one- and two-hop normalised neighbour
  sums (host gathers and scatter-adds), applies a dense layer with bias and `max · 0`, and after the second layer takes the
  mean over the 100000 nodes. The kernel computes each dense layer tile by tile (50 tiles of 2000 rows) — the second one
  summing its tiles' rows into an accumulator carried across the grid and, at the last tile, multiplying by the named
  reciprocal `1/100000`; the reference computes whole matrix products, sums all rows and divides by `100000`.
  At the extended reals the two agree: a matrix product row is the same finite sum on both sides, a sum over 50 tiles of
  2000 rows is the sum over all rows (addition of extended reals is commutative and associative), and the product with the
  rational `1/100000` is the quotient by `100000` on every extended real. No finiteness of the inputs is used.
  The three frames: the kernel's two programs run their host stretches and their two pipelined regions to the end with
  the seven argument arrays untouched (the regions' bodies run symbolically, the first with one control case, the second
  with three: first tile, middle tiles, last tile); the reference is a straight line of host operations.
-/
import proofs.«128947_j1451698946529_1_alg».proof.Defs
import proofs.«128947_j1451698946529_1_alg».proof.Proof.Gen.Kernel
import proofs.«128947_j1451698946529_1_alg».proof.Proof.Gen.KernelIdeal
import proofs.«128947_j1451698946529_1_alg».proof.Proof.Gen.ReferenceIdeal
import proofs.«128947_j1451698946529_1_alg».proof.Proof.Gen.Pre_finite_inputs
import proofs.«128947_j1451698946529_1_alg».proof.Proof.BitsRun
import proofs.«128947_j1451698946529_1_alg».proof.Proof.IdealRun
import proofs.«128947_j1451698946529_1_alg».proof.Proof.IdealFinal
import proofs.«128947_j1451698946529_1_alg».proof.Proof.RefRun
import Idealize.ShloMosaic.Adequacy
import Idealize.ShloMosaic.Init

noncomputable section

namespace Cert.Proof

open Idealize.ShloMosaic Idealize.SL.Sem

/-- The word-level kernel program runs to the end and leaves its seven argument arrays as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunHand.run (F := Ideal) m ρ)

/-- The one rewrite of the idealization: the literal `9.99999974e-6` of the mean is the rational `1/100000` it stands for. -/
theorem preserves : Cert.preserves_Kernel_KernelIdeal :=
  IdealRules.named_const.statement Cert.KernelIdeal.κ "inv_100000" .f32 0x3727C5AC#32 ((1 / 100000 : ℝ) : EReal) rfl

/-- From memories agreeing on the arguments both idealized programs run, and the kernel's result array (the second
    region's write-back) is the reference's result, entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.res78 (F := Ideal) m c, Cert.KernelIdeal.Hand.run_result (F := Ideal) m ρ, ?_⟩
  refine (θ_run Cert.ReferenceIdeal.defs _ _).mono (fun _ h c => ⟨(h c).1.trans ?_, (h c).2⟩)
    (Cert.ReferenceIdeal.RunHand.run (F := Ideal) m' ρ')
  obtain ⟨e0, e1, e2, e3, e4, e5, e6⟩ := hagree c
  rw [e0, e1, e2, e3, e4, e5, e6]
  exact (Cert.KernelIdeal.Final.res78_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
